-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S2x1200000 : Shape := ⟨2, ![2, 1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg11 : FVec F S32x8 .f32) (main_arg12 : FVec F S8 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x8 .f32 := Host.absf main_arg11
  let main_cst_20 : FVec F S_ .f32 := constant S_ .f32 0x7F800000#32
  let main_v55 : FVec F S32x8 .f32 := broadcastInDim S32x8 ![] bcast_S_S32x8 main_cst_20
  let main_v56 : IVec S32x8 1 := cmpf .olt main_v54 main_v55
  let main_c_21 : IVec S_ 1 := constantI S_ 1 1#1
  let main_v57 : IVec S_ 1 := (fun x v => Host.reduce IntOp.andi x v reducesTo_S32x8_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg7 : FVec F S32x8 .f32) (main_arg8 : FVec F S8 .f32) (main_arg9 : FVec F S64x32 .f32) (main_arg10 : FVec F S32 .f32) (main_arg11 : FVec F S32x8 .f32) (main_arg12 : FVec F S8 .f32) (main_v33 : IVec S_ 1) : IVec S_ 1 :=
  let main_v34 : FVec F S32x8 .f32 := Host.absf main_arg7
  let main_cst_12 : FVec F S_ .f32 := constant S_ .f32 0x7F800000#32
  let main_v35 : FVec F S32x8 .f32 := broadcastInDim S32x8 ![] bcast_S_S32x8 main_cst_12
  let main_v36 : IVec S32x8 1 := cmpf .olt main_v34 main_v35
  let main_c_13 : IVec S_ 1 := constantI S_ 1 1#1
  let main_v37 : IVec S_ 1 := (fun x v => Host.reduce IntOp.andi x v reducesTo_S32x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S64 .f32) (main_arg5 : FVec F S64x32 .f32) (main_arg6 : FVec F S32 .f32) (main_arg7 : FVec F S32x8 .f32) (main_arg8 : FVec F S8 .f32) (main_arg9 : FVec F S64x32 .f32) (main_arg10 : FVec F S32 .f32) (main_arg11 : FVec F S32x8 .f32) (main_arg12 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x32 .f32) (main_arg6 : FVec F S32 .f32) (main_arg7 : FVec F S32x8 .f32) (main_arg8 : FVec F S8 .f32) (main_arg9 : FVec F S64x32 .f32) (main_arg10 : FVec F S32 .f32) (main_arg11 : FVec F S32x8 .f32) (main_arg12 : FVec F S8 .f32) (main_arg13 : IVec S2x1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S2x1200000 : Shape := ⟨2, ![2, 1200000]⟩
abbrev S8x64 : Shape := ⟨2, ![8, 64]⟩
abbrev S1x64 : Shape := ⟨2, ![1, 64]⟩
abbrev S1x32 : Shape := ⟨2, ![1, 32]⟩
abbrev S1x8 : Shape := ⟨2, ![1, 8]⟩
abbrev S100000x8 : Shape := ⟨2, ![100000, 8]⟩
abbrev S2000x64 : Shape := ⟨2, ![2000, 64]⟩
abbrev S2000x8 : Shape := ⟨2, ![2000, 8]⟩
abbrev S2000x32 : Shape := ⟨2, ![2000, 32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S6000x64 : Shape := ⟨2, ![6000, 64]⟩
abbrev S6000x32 : Shape := ⟨2, ![6000, 32]⟩
abbrev S6000x8 : Shape := ⟨2, ![6000, 8]⟩

abbrev nBuf : Space → Nat
  | .hbm => 53
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x8, .f32⟩
  | .hbm, ⟨8, _⟩ => ⟨S8, .f32⟩
  | .hbm, ⟨9, _⟩ => ⟨S64x32, .f32⟩
  | .hbm, ⟨10, _⟩ => ⟨S32, .f32⟩
  | .hbm, ⟨11, _⟩ => ⟨S32x8, .f32⟩
  | .hbm, ⟨12, _⟩ => ⟨S8, .f32⟩
  | .hbm, ⟨13, _⟩ => ⟨S2x1200000, .i32⟩
  | .hbm, ⟨14, _⟩ => ⟨S8x64, .f32⟩
  | .hbm, ⟨15, _⟩ => ⟨S1x64, .f32⟩
  | .hbm, ⟨16, _⟩ => ⟨S1x64, .f32⟩
  | .hbm, ⟨17, _⟩ => ⟨S1x32, .f32⟩
  | .hbm, ⟨18, _⟩ => ⟨S1x8, .f32⟩
  | .hbm, ⟨19, _⟩ => ⟨S1x32, .f32⟩
  | .hbm, ⟨20, _⟩ => ⟨S1x8, .f32⟩
  | .hbm, ⟨21, _⟩ => ⟨S100000x64, .f32⟩
  | .hbm, ⟨22, _⟩ => ⟨S100000x64, .f32⟩
  | .hbm, ⟨23, _⟩ => ⟨S100000x8, .f32⟩
  | .hbm, ⟨24, _⟩ => ⟨S1x1200000, .i32⟩
  | .hbm, ⟨25, _⟩ => ⟨S1200000, .i32⟩
  | .hbm, ⟨26, _⟩ => ⟨S1x1200000, .i32⟩
  | .hbm, ⟨27, _⟩ => ⟨S1200000, .i32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000x64, .f32⟩
  | .hbm, ⟨46, _⟩ => ⟨S1200000x64, .f32⟩
  | .hbm, ⟨47, _⟩ => ⟨S1200000x64, .f32⟩
  | .hbm, ⟨48, _⟩ => ⟨S_, .f32⟩
  | .hbm, ⟨49, _⟩ => ⟨S100000x64, .f32⟩
  | .hbm, ⟨50, _⟩ => ⟨S1200000x1, .i32⟩
  | .hbm, ⟨51, _⟩ => ⟨S100000x64, .f32⟩
  | .hbm, ⟨52, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S32x8, .f32⟩
  | .local _ .vmem, ⟨9, _⟩ => ⟨S1x8, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x8, .f32⟩
  | .local _ .vmem, ⟨15, _⟩ => ⟨S2000x8, .f32⟩
  | .local _ .vmem, ⟨16, _⟩ => ⟨S6000x64, .f32⟩
  | .local _ .vmem, ⟨17, _⟩ => ⟨S6000x64, .f32⟩
  | .local _ .vmem, ⟨18, _⟩ => ⟨S6000x64, .f32⟩
  | .local _ .vmem, ⟨19, _⟩ => ⟨S6000x64, .f32⟩
  | .local _ .vmem, ⟨20, _⟩ => ⟨S64x32, .f32⟩
  | .local _ .vmem, ⟨21, _⟩ => ⟨S1x32, .f32⟩
  | .local _ .vmem, ⟨22, _⟩ => ⟨S32x8, .f32⟩
  | .local _ .vmem, ⟨23, _⟩ => ⟨S1x8, .f32⟩
  | .local _ .vmem, ⟨24, _⟩ => ⟨S8x64, .f32⟩
  | .local _ .vmem, ⟨25, _⟩ => ⟨S6000x64, .f32⟩
  | .local _ .vmem, ⟨26, _⟩ => ⟨S6000x64, .f32⟩
  | .local _ .vmem, ⟨27, _⟩ => ⟨S2000x8, .f32⟩
  | .local _ .vmem, ⟨28, _⟩ => ⟨S2000x8, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S8x64, .f32⟩
  | .local _ .vmem, ⟨34, _⟩ => ⟨S2000x64, .f32⟩
  | .local _ .vmem, ⟨35, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S64_S1x64 : S64.ShapeCasts S1x64
  shapeCasts_S32_S1x32 : S32.ShapeCasts S1x32
  shapeCasts_S8_S1x8 : S8.ShapeCasts S1x8
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x8_S32x8_0_0 : ∀ a, (![0, 0] : Fin 2 → Nat) a + S32x8.size a ≤ S32x8.size a
  h_S32x8 : 0 < S32x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  broadcasts_S1x32_S6000x32 : S1x32.Broadcasts S6000x32
  broadcasts_S1x8_S6000x8 : S1x8.Broadcasts S6000x8
  inb_S8x64_S8x64_0_0 : ∀ a, (![0, 0] : Fin 2 → Nat) a + S8x64.size a ≤ S8x64.size a
  h_S8x64 : 0 < S8x64.numel
  bcast_S_S100000x64 : S_.BroadcastsInDim S100000x64 (![] : Fin 0 → Fin S100000x64.rank)
  shapeCasts_S2000x8_S2000x8 : S2000x8.ShapeCasts S2000x8
  shapeCasts_S2000x64_S2000x64 : S2000x64.ShapeCasts S2000x64
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x8_S2000x8_1_0_0_1_n_n_wf : DotDims.WF S2000x32 S32x8 S2000x8 [1] [0] [0] [1] [] []
  gather_S100000x64_S1200000x1_S1200000x64_1_0_n_n_0_1_164_wf : GatherDims.WF S100000x64 S1200000x1 S1200000x64 [1] [0] [] [0] [] 1 ![1, 64]
  dot_S6000x64_S64x32_S6000x32_1_0_0_1_n_n_wf : DotDims.WF S6000x64 S64x32 S6000x32 [1] [0] [0] [1] [] []
  dot_S6000x32_S32x8_S6000x8_1_0_0_1_n_n_wf : DotDims.WF S6000x32 S32x8 S6000x8 [1] [0] [0] [1] [] []
  dot_S6000x8_S8x64_S6000x64_1_0_0_1_n_n_wf : DotDims.WF S6000x8 S8x64 S6000x64 [1] [0] [0] [1] [] []
  scatter_S100000x64_S1200000x1_S1200000x64_1_0_0_1_wf : ScatterDims.WF S100000x64 S1200000x1 S1200000x64 [1] [0] [0] 1
  dot_S2000x8_S8x64_S2000x64_1_0_0_1_n_n_wf : DotDims.WF S2000x8 S8x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x8.size a ≤ S32x8.size a
  hwx0_7 : ∀ i : grid0.Coords, EltTy.bits .f32 = 32 ∨ (Rect.block (s := S32x8) S32x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S100000x64.size a
  hwx0_9 : ∀ i : grid0.Coords, EltTy.bits .f32 = 32 ∨ (Rect.block (s := S100000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S100000x64.size a
  hwx0_10 : ∀ i : grid0.Coords, EltTy.bits .f32 = 32 ∨ (Rect.block (s := S100000x64) S2000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x8.size a ≤ S100000x8.size a
  hwx0_11 : ∀ i : grid0.Coords, EltTy.bits .f32 = 32 ∨ (Rect.block (s := S100000x8) S2000x8.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S1200000x64.size a
  hwx1_0 : ∀ i : grid1.Coords, EltTy.bits .f32 = 32 ∨ (Rect.block (s := S1200000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S1200000x64.size a
  hwx1_1 : ∀ i : grid1.Coords, EltTy.bits .f32 = 32 ∨ (Rect.block (s := S1200000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x8.size a ≤ S32x8.size a
  hwx1_4 : ∀ i : grid1.Coords, EltTy.bits .f32 = 32 ∨ (Rect.block (s := S32x8) S32x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8.size a ≤ S1x8.size a
  hwx1_5 : ∀ i : grid1.Coords, EltTy.bits .f32 = 32 ∨ (Rect.block (s := S1x8) S1x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x64.size a ≤ S8x64.size a
  hwx1_6 : ∀ i : grid1.Coords, EltTy.bits .f32 = 32 ∨ (Rect.block (s := S8x64) S8x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6000x64.size a ≤ S1200000x64.size a
  hwx1_7 : ∀ i : grid1.Coords, EltTy.bits .f32 = 32 ∨ (Rect.block (s := S1200000x64) S6000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x8.size a ≤ S100000x8.size a
  hwx2_0 : ∀ i : grid2.Coords, EltTy.bits .f32 = 32 ∨ (Rect.block (s := S100000x8) S2000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x64.size a ≤ S8x64.size a
  hwx2_3 : ∀ i : grid2.Coords, EltTy.bits .f32 = 32 ∨ (Rect.block (s := S8x64) S8x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x8_S2000x8_1_0_0_1_n_n : DotDims S2000x32 S32x8 S2000x8 where
  lhsContracting := [1]
  rhsContracting := [0]
  lhsNonContracting := [0]
  rhsNonContracting := [1]
  lhsBatch := []
  rhsBatch := []
  wf := dot_S2000x32_S32x8_S2000x8_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def dot_S6000x32_S32x8_S6000x8_1_0_0_1_n_n : DotDims S6000x32 S32x8 S6000x8 where
  lhsContracting := [1]
  rhsContracting := [0]
  lhsNonContracting := [0]
  rhsNonContracting := [1]
  lhsBatch := []
  rhsBatch := []
  wf := dot_S6000x32_S32x8_S6000x8_1_0_0_1_n_n_wf
def dot_S6000x8_S8x64_S6000x64_1_0_0_1_n_n : DotDims S6000x8 S8x64 S6000x64 where
  lhsContracting := [1]
  rhsContracting := [0]
  lhsNonContracting := [0]
  rhsNonContracting := [1]
  lhsBatch := []
  rhsBatch := []
  wf := dot_S6000x8_S8x64_S6000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x8_S8x64_S2000x64_1_0_0_1_n_n : DotDims S2000x8 S8x64 S2000x64 where
  lhsContracting := [1]
  rhsContracting := [0]
  lhsNonContracting := [0]
  rhsNonContracting := [1]
  lhsBatch := []
  rhsBatch := []
  wf := dot_S2000x8_S8x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S32x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S2000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_2) S2000x8.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v25) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst) S8x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S6000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v6_2) S2000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_cst) S8x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S2x1200000 : Shape := ⟨2, ![2, 1200000]⟩
abbrev S1x1200000 : Shape := ⟨2, ![1, 1200000]⟩
abbrev S1200000 : Shape := ⟨1, ![1200000]⟩
abbrev S1x64 : Shape := ⟨2, ![1, 64]⟩
abbrev S_ : Shape := ⟨0, ![]⟩
abbrev S1200000x1 : Shape := ⟨2, ![1200000, 1]⟩
abbrev S1200000x64 : Shape := ⟨2, ![1200000, 64]⟩
abbrev S1200000x32 : Shape := ⟨2, ![1200000, 32]⟩
abbrev S1x32 : Shape := ⟨2, ![1, 32]⟩
abbrev S1200000x8 : Shape := ⟨2, ![1200000, 8]⟩
abbrev S1x8 : Shape := ⟨2, ![1, 8]⟩
abbrev S1200000x8x1 : Shape := ⟨3, ![1200000, 8, 1]⟩
abbrev S100000x32 : Shape := ⟨2, ![100000, 32]⟩
abbrev S100000x8 : Shape := ⟨2, ![100000, 8]⟩
abbrev S100000x8x1 : Shape := ⟨3, ![100000, 8, 1]⟩
abbrev S1200000x8x8 : Shape := ⟨3, ![1200000, 8, 8]⟩
abbrev S100000x8x8 : Shape := ⟨3, ![100000, 8, 8]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x8, .f32⟩
  | .hbm, ⟨8, _⟩ => ⟨S8, .f32⟩
  | .hbm, ⟨9, _⟩ => ⟨S64x32, .f32⟩
  | .hbm, ⟨10, _⟩ => ⟨S32, .f32⟩
  | .hbm, ⟨11, _⟩ => ⟨S32x8, .f32⟩
  | .hbm, ⟨12, _⟩ => ⟨S8, .f32⟩
  | .hbm, ⟨13, _⟩ => ⟨S2x1200000, .i32⟩
  | .hbm, ⟨14, _⟩ => ⟨S1x1200000, .i32⟩
  | .hbm, ⟨15, _⟩ => ⟨S1200000, .i32⟩
  | .hbm, ⟨16, _⟩ => ⟨S1x1200000, .i32⟩
  | .hbm, ⟨17, _⟩ => ⟨S1200000, .i32⟩
  | .hbm, ⟨18, _⟩ => ⟨S100000x64, .f32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1200000, .i32⟩
  | .hbm, ⟨28, _⟩ => ⟨S1200000, .i1⟩
  | .hbm, ⟨29, _⟩ => ⟨S_, .i32⟩
  | .hbm, ⟨30, _⟩ => ⟨S1200000, .i32⟩
  | .hbm, ⟨31, _⟩ => ⟨S1200000, .i32⟩
  | .hbm, ⟨32, _⟩ => ⟨S1200000, .i32⟩
  | .hbm, ⟨33, _⟩ => ⟨S1200000x1, .i32⟩
  | .hbm, ⟨34, _⟩ => ⟨S1200000x64, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S1200000x64, .f32⟩
  | .hbm, ⟨45, _⟩ => ⟨S_, .f32⟩
  | .hbm, ⟨46, _⟩ => ⟨S_, .f32⟩
  | .hbm, ⟨47, _⟩ => ⟨S1200000x64, .f32⟩
  | .hbm, ⟨48, _⟩ => ⟨S1200000x64, .i1⟩
  | .hbm, ⟨49, _⟩ => ⟨S_, .f32⟩
  | .hbm, ⟨50, _⟩ => ⟨S1200000x64, .f32⟩
  | .hbm, ⟨51, _⟩ => ⟨S1200000x64, .f32⟩
  | .hbm, ⟨52, _⟩ => ⟨S1200000x64, .f32⟩
  | .hbm, ⟨53, _⟩ => ⟨S1200000x32, .f32⟩
  | .hbm, ⟨54, _⟩ => ⟨S1x32, .f32⟩
  | .hbm, ⟨55, _⟩ => ⟨S1200000x32, .f32⟩
  | .hbm, ⟨56, _⟩ => ⟨S1200000x32, .f32⟩
  | .hbm, ⟨57, _⟩ => ⟨S_, .f32⟩
  | .hbm, ⟨58, _⟩ => ⟨S_, .f32⟩
  | .hbm, ⟨59, _⟩ => ⟨S1200000x32, .f32⟩
  | .hbm, ⟨60, _⟩ => ⟨S1200000x32, .i1⟩
  | .hbm, ⟨61, _⟩ => ⟨S_, .f32⟩
  | .hbm, ⟨62, _⟩ => ⟨S1200000x32, .f32⟩
  | .hbm, ⟨63, _⟩ => ⟨S1200000x32, .f32⟩
  | .hbm, ⟨64, _⟩ => ⟨S1200000x32, .f32⟩
  | .hbm, ⟨65, _⟩ => ⟨S1200000x8, .f32⟩
  | .hbm, ⟨66, _⟩ => ⟨S1x8, .f32⟩
  | .hbm, ⟨67, _⟩ => ⟨S1200000x8, .f32⟩
  | .hbm, ⟨68, _⟩ => ⟨S1200000x8, .f32⟩
  | .hbm, ⟨69, _⟩ => ⟨S1200000x8, .f32⟩
  | .hbm, ⟨70, _⟩ => ⟨S1200000x8, .f32⟩
  | .hbm, ⟨71, _⟩ => ⟨S_, .f32⟩
  | .hbm, ⟨72, _⟩ => ⟨S1200000x8, .f32⟩
  | .hbm, ⟨73, _⟩ => ⟨S1200000x8, .f32⟩
  | .hbm, ⟨74, _⟩ => ⟨S_, .f32⟩
  | .hbm, ⟨75, _⟩ => ⟨S1200000x8, .f32⟩
  | .hbm, ⟨76, _⟩ => ⟨S1200000x8, .f32⟩
  | .hbm, ⟨77, _⟩ => ⟨S1200000x8x1, .f32⟩
  | .hbm, ⟨78, _⟩ => ⟨S_, .f32⟩
  | .hbm, ⟨79, _⟩ => ⟨S_, .f32⟩
  | .hbm, ⟨80, _⟩ => ⟨S100000x64, .f32⟩
  | .hbm, ⟨81, _⟩ => ⟨S100000x64, .i1⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x32, .f32⟩
  | .hbm, ⟨87, _⟩ => ⟨S1x32, .f32⟩
  | .hbm, ⟨88, _⟩ => ⟨S100000x32, .f32⟩
  | .hbm, ⟨89, _⟩ => ⟨S100000x32, .f32⟩
  | .hbm, ⟨90, _⟩ => ⟨S_, .f32⟩
  | .hbm, ⟨91, _⟩ => ⟨S_, .f32⟩
  | .hbm, ⟨92, _⟩ => ⟨S100000x32, .f32⟩
  | .hbm, ⟨93, _⟩ => ⟨S100000x32, .i1⟩
  | .hbm, ⟨94, _⟩ => ⟨S_, .f32⟩
  | .hbm, ⟨95, _⟩ => ⟨S100000x32, .f32⟩
  | .hbm, ⟨96, _⟩ => ⟨S100000x32, .f32⟩
  | .hbm, ⟨97, _⟩ => ⟨S100000x32, .f32⟩
  | .hbm, ⟨98, _⟩ => ⟨S100000x8, .f32⟩
  | .hbm, ⟨99, _⟩ => ⟨S1x8, .f32⟩
  | .hbm, ⟨100, _⟩ => ⟨S100000x8, .f32⟩
  | .hbm, ⟨101, _⟩ => ⟨S100000x8, .f32⟩
  | .hbm, ⟨102, _⟩ => ⟨S100000x8, .f32⟩
  | .hbm, ⟨103, _⟩ => ⟨S100000x8, .f32⟩
  | .hbm, ⟨104, _⟩ => ⟨S_, .f32⟩
  | .hbm, ⟨105, _⟩ => ⟨S100000x8, .f32⟩
  | .hbm, ⟨106, _⟩ => ⟨S100000x8, .f32⟩
  | .hbm, ⟨107, _⟩ => ⟨S_, .f32⟩
  | .hbm, ⟨108, _⟩ => ⟨S100000x8, .f32⟩
  | .hbm, ⟨109, _⟩ => ⟨S100000x8, .f32⟩
  | .hbm, ⟨110, _⟩ => ⟨S100000x8x1, .f32⟩
  | .hbm, ⟨111, _⟩ => ⟨S1200000x8x8, .f32⟩
  | .hbm, ⟨112, _⟩ => ⟨S1200000x8x8, .f32⟩
  | .hbm, ⟨113, _⟩ => ⟨S1200000x8x8, .f32⟩
  | .hbm, ⟨114, _⟩ => ⟨S_, .f32⟩
  | .hbm, ⟨115, _⟩ => ⟨S100000x8x8, .f32⟩
  | .hbm, ⟨116, _⟩ => ⟨S1200000x1, .i32⟩
  | .hbm, ⟨117, _⟩ => ⟨S100000x8x8, .f32⟩
  | .hbm, ⟨118, _⟩ => ⟨S100000x8x8, .f32⟩
  | .hbm, ⟨119, _⟩ => ⟨S100000x8x8, .f32⟩
  | .hbm, ⟨120, _⟩ => ⟨S100000x8x8, .f32⟩
  | .hbm, ⟨121, _⟩ => ⟨S100000x8x8, .f32⟩
  | .hbm, ⟨122, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_6 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_7 : Ref sig .tc := ⟨.hbm, 90, rfl⟩
abbrev main_call3_cst : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_8 : Ref sig .tc := ⟨.hbm, 104, rfl⟩
abbrev main_v56 : Ref sig .tc := ⟨.hbm, 105, rfl⟩
abbrev main_v57 : Ref sig .tc := ⟨.hbm, 106, rfl⟩
abbrev main_cst_9 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_10 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x64 : S_.BroadcastsInDim S1200000x64 (![] : Fin 0 → Fin S1200000x64.rank)
  bcast_S32_S1x32_1 : S32.BroadcastsInDim S1x32 (![1] : Fin 1 → Fin S1x32.rank)
  bcast_S1x32_S1200000x32_0_1 : S1x32.BroadcastsInDim S1200000x32 (![0, 1] : Fin 2 → Fin S1200000x32.rank)
  bcast_S_S1200000x32 : S_.BroadcastsInDim S1200000x32 (![] : Fin 0 → Fin S1200000x32.rank)
  bcast_S8_S1x8_1 : S8.BroadcastsInDim S1x8 (![1] : Fin 1 → Fin S1x8.rank)
  bcast_S1x8_S1200000x8_0_1 : S1x8.BroadcastsInDim S1200000x8 (![0, 1] : Fin 2 → Fin S1200000x8.rank)
  bcast_S_S1200000x8 : S_.BroadcastsInDim S1200000x8 (![] : Fin 0 → Fin S1200000x8.rank)
  bcast_S1200000x8_S1200000x8x1_0_1 : S1200000x8.BroadcastsInDim S1200000x8x1 (![0, 1] : Fin 2 → Fin S1200000x8x1.rank)
  bcast_S_S100000x64 : S_.BroadcastsInDim S100000x64 (![] : Fin 0 → Fin S100000x64.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S100000x8_S100000x8x1_0_1 : S100000x8.BroadcastsInDim S100000x8x1 (![0, 1] : Fin 2 → Fin S100000x8x1.rank)
  shapeCasts_S1200000x64_S1200000x8x8 : S1200000x64.ShapeCasts S1200000x8x8
  bcast_S1200000x8x1_S1200000x8x8_0_1_2 : S1200000x8x1.BroadcastsInDim S1200000x8x8 (![0, 1, 2] : Fin 3 → Fin S1200000x8x8.rank)
  bcast_S_S100000x8x8 : S_.BroadcastsInDim S100000x8x8 (![] : Fin 0 → Fin S100000x8x8.rank)
  shapeCasts_S100000x64_S100000x8x8 : S100000x64.ShapeCasts S100000x8x8
  bcast_S100000x8x1_S100000x8x8_0_1_2 : S100000x8x1.BroadcastsInDim S100000x8x8 (![0, 1, 2] : Fin 3 → Fin S100000x8x8.rank)
  shapeCasts_S100000x8x8_S100000x64 : S100000x8x8.ShapeCasts S100000x64
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  dot_S1200000x64_S64x32_S1200000x32_1_0_0_1_n_n_wf : DotDims.WF S1200000x64 S64x32 S1200000x32 [1] [0] [0] [1] [] []
  dot_S1200000x32_S32x8_S1200000x8_1_0_0_1_n_n_wf : DotDims.WF S1200000x32 S32x8 S1200000x8 [1] [0] [0] [1] [] []
  dot_S100000x64_S64x32_S100000x32_1_0_0_1_n_n_wf : DotDims.WF S100000x64 S64x32 S100000x32 [1] [0] [0] [1] [] []
  dot_S100000x32_S32x8_S100000x8_1_0_0_1_n_n_wf : DotDims.WF S100000x32 S32x8 S100000x8 [1] [0] [0] [1] [] []
  scatter_S100000x8x8_S1200000x1_S1200000x8x8_12_0_0_1_wf : ScatterDims.WF S100000x8x8 S1200000x1 S1200000x8x8 [1, 2] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x64_S64x32_S1200000x32_1_0_0_1_n_n : DotDims S1200000x64 S64x32 S1200000x32 where
  lhsContracting := [1]
  rhsContracting := [0]
  lhsNonContracting := [0]
  rhsNonContracting := [1]
  lhsBatch := []
  rhsBatch := []
  wf := dot_S1200000x64_S64x32_S1200000x32_1_0_0_1_n_n_wf
def dot_S1200000x32_S32x8_S1200000x8_1_0_0_1_n_n : DotDims S1200000x32 S32x8 S1200000x8 where
  lhsContracting := [1]
  rhsContracting := [0]
  lhsNonContracting := [0]
  rhsNonContracting := [1]
  lhsBatch := []
  rhsBatch := []
  wf := dot_S1200000x32_S32x8_S1200000x8_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def scatter_S100000x8x8_S1200000x1_S1200000x8x8_12_0_0_1 : ScatterDims S100000x8x8 S1200000x1 S1200000x8x8 where
  updateWindowDims := [1, 2]
  insertedWindowDims := [0]
  scatterDimsToOperandDims := [0]
  indexVectorDim := 1
  wf := scatter_S100000x8x8_S1200000x1_S1200000x8x8_12_0_0_1_wf

class Facts : Prop extends Facts₀ where

variable [Facts]
-- ==== Proof.KRun.lean ====
/-
  The idealized kernel's whole run with its RESULT named.  @main is six segments — three stretches of
  host operations, each followed by one of the three kernel launches — and the buffer contents at each
  boundary are a fold from the launch memory: a host stretch applies its operations, a launch replaces
  each of its arrays by what the grid's write-backs leave there.  The thread state after the last segment
  holds every unscoped buffer at the last boundary's contents; read against the final memory, the result
  array is there at those contents and the fourteen arguments are as launched.
-/
import proofs.«158389_j12567074308479_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory holds on core `c`: every unscoped buffer at the last boundary's contents. -/
def AtLast (c : Dev nD) (s : MemSt nD τ sig (Elt F)) : Prop :=
  ∀ b ∈ Pipeline.ucRefs τ sig, s.mem (((c : Thread nD τ)).1, b) = W6 m ρ c b

/-- The last thread state, held beside the interpretation of a final state, says the final memory is `AtLast`:
    the thread state is one points-to per unscoped buffer, each at the last boundary's contents. -/
theorem last_read (c : Dev nD) (s' : Phys nD τ sig (Elt F)) :
    iprop(Tₙ (F := F) m ρ c ∗ SI s') ⊢ (|={Set.univ}=> iprop(⌜AtLast m ρ c s'.mem⌝ ∗ SI s') : sProp 𝕄) := by
  iintro ⟨⟨Hheld, -⟩, Hst⟩
  unfold StableHlo.held
  imodintro
  iapply (pointsTo_read_all (Pipeline.ucRefs τ sig) (fun b => (((c : Thread nD τ)).1, b)) (W6 m ρ c) s')
  isplitl [Hheld]
  · iexact Hheld
  · iexact Hst

-- the library theorem's implicit arguments are found by unifying its conclusion with this statement
set_option backward.isDefEq.respectTransparency.types false in
/-- Every weakly fair execution of the idealized kernel's @main terminates without a fault; the result array ends
    at the last boundary's contents and every argument array as launched. -/
theorem run_result : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?launch)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := ?start) (QY := AtLast m ρ) (hfin := last_read m ρ) (hQ := ?read)
  case launch =>
    -- the launch element is the pipelines' own; no core needs a ghost resource of its own
    iintro Hown
    imodintro
    isplitl [Hown]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hown
    · iapply (show (BI.emp : sProp 𝕄) ⊢ bigSep Finset.univ (fun _ : Dev nD => (BI.emp : sProp 𝕄)) from by rw [BI.bigSep_emp_const])
      iempintro
  case start =>
    -- each core's first thread state: its unscoped buffers at the launch memory, its generator register, nothing owed
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hheld, -, Howes, -, Hreg, -⟩, -⟩
    imodintro
    isplitl [Hheld]
    · iexact Hheld
    isplitl [Hreg]
    · iexists _; iexact Hreg
    · iexists ∅; iexact Howes
  case read =>
    -- the result array and the arguments are unscoped buffers; the arguments' contents fold back to the launch memory
    intro s h c
    exact ⟨h c _ (mem_uc main_v30 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c)⟩

end Cert.KernelIdeal.ResultRun

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.RowSpec.lean ====
/-
  The mathematics both programs compute, one ROW at a time, on the extended reals.

  A node's feature row x (64 numbers) goes through two affine layers, x ↦ x·W + b, giving the source
  and destination messages.  An attention GATE of a row y is the logistic of a two-layer perceptron
  with leaky rectifiers: gate(y) = σ(leaky(leaky(y)·W₁ + b₁)·W₂ + b₂), eight numbers, one per head;
  feature f belongs to head f / 8.  An edge's weighted message is gate(msg)[f / 8] · msg_src[f]; a node's
  result is gate(g_dst)[f / 8] · g_dst[f] plus the sum of the weighted messages of its incoming edges.
-/
import Idealize.ShloMosaic.PureOps.Ideal.Laws
import Idealize.ShloMosaic.Lib.ValueIdx

noncomputable section

open scoped BigOperators

namespace RowSpec

open Idealize.ShloMosaic Idealize.ShloMosaic.ValueIdx

/-- An affine layer on one row: `(x·W + b) j = ∑ₖ x k · W (k, j) + b j`. -/
def aff {K J : Nat} (W : (⟨2, ![K, J]⟩ : Shape).Idx → EReal) (b : Fin J → EReal) (x : Fin K → EReal) (j : Fin J) : EReal :=
  (∑ k : Fin K, x k * W (ix2 k j)) + b j

/-- The leaky rectifier, as both programs spell it: `x` where `x ≥ 0`, else the f32 nearest 0.2 times `x`. -/
def leaky (x : EReal) : EReal :=
  Scalar.select (FloatOps.cmpf (F := Ideal) (φ := .f32) .oge x (Ideal.ofBits .f32 0x00000000#32)) x
    (Ideal.ofBits .f32 0x3E4CCCCD#32 * x)

/-- The attention gate of one row: the logistic of a two-layer perceptron with leaky rectifiers. -/
def gate (W1 : (⟨2, ![64, 32]⟩ : Shape).Idx → EReal) (b1 : Fin 32 → EReal)
    (W2 : (⟨2, ![32, 8]⟩ : Shape).Idx → EReal) (b2 : Fin 8 → EReal) (x : Fin 64 → EReal) (k : Fin 8) : EReal :=
  Ideal.logistic (aff W2 b2 (fun j => leaky (aff W1 b1 (fun i => leaky (x i)) j)) k)

/-- The head a feature belongs to. -/
def head (f : Fin 64) : Fin 8 := ⟨f.val / 8, by omega⟩

end RowSpec

end
-- ==== Proof.NodeRows.lean ====
/-
  The node kernel's arithmetic, one row at a time.  On a block of 2000 node rows the body computes, for
  row r: the source message  x·W_src + b_src,  the destination message  g = x·W_dst + b_dst,  the hidden
  layer  leaky(g)·W₁ + b₁  and the destination gate  σ(leaky(hidden)·W₂ + b₂).  Each is the row function
  of `RowSpec` of the block's row r; a change of float format is the identity on extended reals and a
  product into a zero accumulator is the plain sum.
-/
import proofs.«158389_j12567074308479_1_alg».proof.Proof.Gen.KernelIdeal.Skeleton
import proofs.«158389_j12567074308479_1_alg».proof.Proof.LibDotRows
import proofs.«158389_j12567074308479_1_alg».proof.Proof.RowSpec
import Idealize.ShloMosaic.Lib.ValueLayout
import Idealize.ShloMosaic.Lib.Pipeline.Value

noncomputable section

open scoped BigOperators

namespace Cert.KernelIdeal.NodeRows

open Idealize.ShloMosaic Idealize.ShloMosaic.ValueIdx Cert.KernelIdeal Cert.KernelIdeal.Gen RowSpec

/-- The one bias row of a [1, J] block, as a function of the column. -/
abbrev biasRow {J : Nat} (b : (⟨2, ![1, J]⟩ : Shape).Idx → EReal) : Fin J → EReal := fun j => b (ix2 (0 : Fin 1) j)

/-- The source message of row `r`: the affine layer of the row. -/
theorem src_apply (x0 : Vec Ideal S2000x64 .f32) (W : Vec Ideal S64x64 .f32) (b : Vec Ideal S1x64 .f32) (r : Fin 2000) (j : Fin 64) :
    k0_pay3 (F := Ideal) x0 W b (ix2 r j) = aff W (biasRow b) (fun k => x0 (ix2 r k)) j := by
  unfold k0_pay3 k0_pay2
  try dsimp only
  simp only [matmul]
  rw [addf_apply, matmul_zero_rows _ _ rfl rfl (fun _ _ => rfl) (fun _ _ => rfl) (fun _ _ => rfl) (fun _ _ => rfl),
    broadcastTo_1b_ab_apply, shapeCast_self]
  rfl

/-- The destination message of row `r`: the same layer with the destination weights. -/
theorem dst_apply (x0 : Vec Ideal S2000x64 .f32) (W : Vec Ideal S64x64 .f32) (b : Vec Ideal S1x64 .f32) (r : Fin 2000) (j : Fin 64) :
    k0_pay4 (F := Ideal) x0 W b (ix2 r j) = aff W (biasRow b) (fun k => x0 (ix2 r k)) j := by
  unfold k0_pay4 k0_pay2
  try dsimp only
  simp only [matmul]
  rw [addf_apply, matmul_zero_rows _ _ rfl rfl (fun _ _ => rfl) (fun _ _ => rfl) (fun _ _ => rfl) (fun _ _ => rfl),
    broadcastTo_1b_ab_apply, shapeCast_self]
  rfl

/-- The hidden layer of row `r`: the affine layer of the leaky-rectified destination message. -/
theorem hidden_apply (x0 : Vec Ideal S2000x64 .f32) (W : Vec Ideal S64x64 .f32) (b : Vec Ideal S1x64 .f32)
    (W1 : Vec Ideal S64x32 .f32) (b1 : Vec Ideal S1x32 .f32) (r : Fin 2000) (j : Fin 32) :
    k0_pay5 (F := Ideal) x0 W b W1 b1 (ix2 r j)
      = aff W1 (biasRow b1) (fun i => leaky (aff W (biasRow b) (fun k => x0 (ix2 r k)) i)) j := by
  unfold k0_pay5
  try dsimp only
  simp only [matmul]
  rw [addf_apply, matmul_zero_rows _ _ rfl rfl (fun _ _ => rfl) (fun _ _ => rfl) (fun _ _ => rfl) (fun _ _ => rfl),
    broadcastTo_1b_ab_apply, shapeCast_self]
  unfold aff
  refine congrArg (· + _) (Finset.sum_congr rfl fun i _ => congrArg (· * _) ?_)
  show Scalar.select _ (k0_pay4 (F := Ideal) x0 W b (ix2 r i)) (_ * k0_pay4 (F := Ideal) x0 W b (ix2 r i)) = _
  rw [cmpf_apply, dst_apply]
  rfl

/-- The destination gate of row `r`. -/
theorem gate_apply (x0 : Vec Ideal S2000x64 .f32) (W : Vec Ideal S64x64 .f32) (b : Vec Ideal S1x64 .f32)
    (W1 : Vec Ideal S64x32 .f32) (b1 : Vec Ideal S1x32 .f32) (W2 : Vec Ideal S32x8 .f32) (b2 : Vec Ideal S1x8 .f32)
    (r : Fin 2000) (k : Fin 8) :
    k0_pay1 (F := Ideal) (k0_pay5 x0 W b W1 b1) (k0_pay6 x0 W b W1 b1) W2 b2 (ix2 r k)
      = gate W1 (biasRow b1) W2 (biasRow b2) (fun i => aff W (biasRow b) (fun k => x0 (ix2 r k)) i) k := by
  unfold k0_pay1 k0_pay6
  try dsimp only
  simp only [matmul]
  show Ideal.logistic ((addf _ _ : FVec Ideal S2000x8 .f32) (ix2 r k)) = _
  rw [addf_apply, matmul_zero_rows _ _ rfl rfl (fun _ _ => rfl) (fun _ _ => rfl) (fun _ _ => rfl) (fun _ _ => rfl),
    broadcastTo_1b_ab_apply, shapeCast_self]
  unfold gate
  refine congrArg Ideal.logistic ?_
  unfold aff
  refine congrArg (· + _) (Finset.sum_congr rfl fun j _ => congrArg (· * _) ?_)
  show Scalar.select _ (k0_pay5 (F := Ideal) x0 W b W1 b1 (ix2 r j)) (_ * k0_pay5 (F := Ideal) x0 W b W1 b1 (ix2 r j)) = _
  rw [cmpf_apply, hidden_apply]
  rfl

end Cert.KernelIdeal.NodeRows

end
-- ==== Proof.NodeValue.lean ====
/-
  What the node kernel's launch leaves in its three output arrays, at any contents `V` the launch finds.
  The grid has 50 points; point t reads rows 2000·t … 2000·t + 1999 of the node features and the whole of
  each weight and bias array, and writes back rows 2000·t … 2000·t + 1999 of the source messages, of the
  destination messages and of the destination gates.  So row n of each output is the row function of row n
  of the features (`NodeRows`), whatever the point; and the 50 blocks cover all 100000 rows.
-/
import proofs.«158389_j12567074308479_1_alg».proof.Proof.Gen.KernelIdeal.Frame
import proofs.«158389_j12567074308479_1_alg».proof.Proof.NodeRows
import Idealize.ShloMosaic.Lib.Pipeline.Value

set_option maxRecDepth 16384

noncomputable section

open scoped BigOperators

namespace Cert.KernelIdeal.NodeValue

open Idealize.ShloMosaic Idealize.ShloMosaic.TcCoe Idealize.ShloMosaic.ValueIdx Idealize.SL.Sem
open Idealize.ShloMosaic.Pipeline (Dat Cfg Window)
open Cert.KernelIdeal Cert.KernelIdeal.Gen RowSpec Cert.KernelIdeal.NodeRows

variable (V : (c : Dev nD) → (b : Ref sig .tc) → Buf (Elt Ideal) ((c : Thread nD τ).loc b))

theorem hz : (![0, 0] : Fin 2 → Nat) = fun _ => 0 := funext fun a => by fin_cases a <;> rfl

/-- Every row through one affine layer: row n of the result is `x·W + b` of row n of `h`. -/
def affRows (h : S100000x64.Idx → EReal) (W : S64x64.Idx → EReal) (b : S1x64.Idx → EReal) : S100000x64.Idx → EReal :=
  fun i => aff W (biasRow b) (fun k => h (ix2 (i 0) k)) (i 1)

/-- Every row's attention gate: row n of the result is the gate of row n of `g`. -/
def gateRows (g : S100000x64.Idx → EReal) (W1 : S64x32.Idx → EReal) (b1 : S1x32.Idx → EReal)
    (W2 : S32x8.Idx → EReal) (b2 : S1x8.Idx → EReal) : S100000x8.Idx → EReal :=
  fun i => gate W1 (biasRow b1) W2 (biasRow b2) (fun j => g (ix2 (i 0) j)) (i 1)

/-- The printed index maps over the grid: the row-blocked windows are at block (t, 0), the others at (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The node row that row `r` of point `t`'s block is. -/
def rowOf (t : Fin cfg0.N) (r : Fin 2000) : Fin 100000 :=
  ⟨2000 * t.val + r.val, by have h := t.isLt; have h2 : cfg0.N = 50 := N_0; omega⟩

/-! ## The input blocks, read where they sit in their arrays -/

theorem blk_feat (c : Dev nD) (t : Fin cfg0.N) (r : Fin 2000) (k : Fin 64) :
    iblk0 V c 0 t (ix2 r k) = V c main_arg0 (ix2 (rowOf t r) k) := by
  show V c main_arg0 (((cfg0.win 0).blk t).view.emb (ix2 r k)) = _
  refine congrArg (V c main_arg0) (funext fun a => Fin.ext ?_)
  obtain ⟨⟨e0, e1⟩, -⟩ := idx_facts t
  match a with
  | ⟨0, _⟩ => show win0_0.index t (0 : Fin 2) * 2000 + 1 * r.val = 2000 * t.val + r.val; omega
  | ⟨1, _⟩ => show win0_0.index t (1 : Fin 2) * 64 + 1 * k.val = k.val; omega

theorem blk_wsrc (c : Dev nD) (t : Fin cfg0.N) (k j : Fin 64) : iblk0 V c 1 t (ix2 k j) = V c main_arg1 (ix2 k j) := by
  show V c main_arg1 (((cfg0.win 1).blk t).view.emb (ix2 k j)) = _
  refine congrArg (V c main_arg1) (funext fun a => Fin.ext ?_)
  obtain ⟨-, ⟨e0, e1⟩, -⟩ := idx_facts t
  match a with
  | ⟨0, _⟩ => show win0_1.index t (0 : Fin 2) * 64 + 1 * k.val = k.val; omega
  | ⟨1, _⟩ => show win0_1.index t (1 : Fin 2) * 64 + 1 * j.val = j.val; omega

theorem blk_bsrc (c : Dev nD) (t : Fin cfg0.N) (u : Fin 1) (j : Fin 64) : iblk0 V c 2 t (ix2 u j) = V c main_v0 (ix2 u j) := by
  show V c main_v0 (((cfg0.win 2).blk t).view.emb (ix2 u j)) = _
  refine congrArg (V c main_v0) (funext fun a => Fin.ext ?_)
  obtain ⟨-, -, ⟨e0, e1⟩, -⟩ := idx_facts t
  match a with
  | ⟨0, _⟩ => show win0_2.index t (0 : Fin 2) * 1 + 1 * u.val = u.val; omega
  | ⟨1, _⟩ => show win0_2.index t (1 : Fin 2) * 64 + 1 * j.val = j.val; omega

theorem blk_wdst (c : Dev nD) (t : Fin cfg0.N) (k j : Fin 64) : iblk0 V c 3 t (ix2 k j) = V c main_arg3 (ix2 k j) := by
  show V c main_arg3 (((cfg0.win 3).blk t).view.emb (ix2 k j)) = _
  refine congrArg (V c main_arg3) (funext fun a => Fin.ext ?_)
  obtain ⟨-, -, -, ⟨e0, e1⟩, -⟩ := idx_facts t
  match a with
  | ⟨0, _⟩ => show win0_3.index t (0 : Fin 2) * 64 + 1 * k.val = k.val; omega
  | ⟨1, _⟩ => show win0_3.index t (1 : Fin 2) * 64 + 1 * j.val = j.val; omega

theorem blk_bdst (c : Dev nD) (t : Fin cfg0.N) (u : Fin 1) (j : Fin 64) : iblk0 V c 4 t (ix2 u j) = V c main_v1 (ix2 u j) := by
  show V c main_v1 (((cfg0.win 4).blk t).view.emb (ix2 u j)) = _
  refine congrArg (V c main_v1) (funext fun a => Fin.ext ?_)
  obtain ⟨-, -, -, -, ⟨e0, e1⟩, -⟩ := idx_facts t
  match a with
  | ⟨0, _⟩ => show win0_4.index t (0 : Fin 2) * 1 + 1 * u.val = u.val; omega
  | ⟨1, _⟩ => show win0_4.index t (1 : Fin 2) * 64 + 1 * j.val = j.val; omega

theorem blk_w1 (c : Dev nD) (t : Fin cfg0.N) (k : Fin 64) (j : Fin 32) : iblk0 V c 5 t (ix2 k j) = V c main_arg9 (ix2 k j) := by
  show V c main_arg9 (((cfg0.win 5).blk t).view.emb (ix2 k j)) = _
  refine congrArg (V c main_arg9) (funext fun a => Fin.ext ?_)
  obtain ⟨-, -, -, -, -, ⟨e0, e1⟩, -⟩ := idx_facts t
  match a with
  | ⟨0, _⟩ => show win0_5.index t (0 : Fin 2) * 64 + 1 * k.val = k.val; omega
  | ⟨1, _⟩ => show win0_5.index t (1 : Fin 2) * 32 + 1 * j.val = j.val; omega

theorem blk_b1 (c : Dev nD) (t : Fin cfg0.N) (u : Fin 1) (j : Fin 32) : iblk0 V c 6 t (ix2 u j) = V c main_v2 (ix2 u j) := by
  show V c main_v2 (((cfg0.win 6).blk t).view.emb (ix2 u j)) = _
  refine congrArg (V c main_v2) (funext fun a => Fin.ext ?_)
  obtain ⟨-, -, -, -, -, -, ⟨e0, e1⟩, -⟩ := idx_facts t
  match a with
  | ⟨0, _⟩ => show win0_6.index t (0 : Fin 2) * 1 + 1 * u.val = u.val; omega
  | ⟨1, _⟩ => show win0_6.index t (1 : Fin 2) * 32 + 1 * j.val = j.val; omega

theorem blk_w2 (c : Dev nD) (t : Fin cfg0.N) (k : Fin 32) (j : Fin 8) : iblk0 V c 7 t (ix2 k j) = V c main_arg11 (ix2 k j) := by
  show V c main_arg11 (((cfg0.win 7).blk t).view.emb (ix2 k j)) = _
  refine congrArg (V c main_arg11) (funext fun a => Fin.ext ?_)
  obtain ⟨-, -, -, -, -, -, -, ⟨e0, e1⟩, -⟩ := idx_facts t
  match a with
  | ⟨0, _⟩ => show win0_7.index t (0 : Fin 2) * 32 + 1 * k.val = k.val; omega
  | ⟨1, _⟩ => show win0_7.index t (1 : Fin 2) * 8 + 1 * j.val = j.val; omega

theorem blk_b2 (c : Dev nD) (t : Fin cfg0.N) (u : Fin 1) (j : Fin 8) : iblk0 V c 8 t (ix2 u j) = V c main_v3 (ix2 u j) := by
  show V c main_v3 (((cfg0.win 8).blk t).view.emb (ix2 u j)) = _
  refine congrArg (V c main_v3) (funext fun a => Fin.ext ?_)
  obtain ⟨-, -, -, -, -, -, -, -, ⟨e0, e1⟩, -⟩ := idx_facts t
  match a with
  | ⟨0, _⟩ => show win0_8.index t (0 : Fin 2) * 1 + 1 * u.val = u.val; omega
  | ⟨1, _⟩ => show win0_8.index t (1 : Fin 2) * 8 + 1 * j.val = j.val; omega

/-- The affine layer of a block row is the affine layer of the node row it is. -/
theorem aff_src_blk (c : Dev nD) (t : Fin cfg0.N) (r : Fin 2000) (j : Fin 64) :
    aff (iblk0 V c 1 t) (biasRow (iblk0 V c 2 t)) (fun k => iblk0 V c 0 t (ix2 r k)) j
      = aff (V c main_arg1) (biasRow (V c main_v0)) (fun k => V c main_arg0 (ix2 (rowOf t r) k)) j := by
  unfold aff
  refine congrArg₂ (· + ·) (Finset.sum_congr rfl fun k _ => congrArg₂ (· * ·) (blk_feat V c t r k) (blk_wsrc V c t k j)) (blk_bsrc V c t 0 j)

theorem aff_dst_blk (c : Dev nD) (t : Fin cfg0.N) (r : Fin 2000) (j : Fin 64) :
    aff (iblk0 V c 3 t) (biasRow (iblk0 V c 4 t)) (fun k => iblk0 V c 0 t (ix2 r k)) j
      = aff (V c main_arg3) (biasRow (V c main_v1)) (fun k => V c main_arg0 (ix2 (rowOf t r) k)) j := by
  unfold aff
  refine congrArg₂ (· + ·) (Finset.sum_congr rfl fun k _ => congrArg₂ (· * ·) (blk_feat V c t r k) (blk_wdst V c t k j)) (blk_bdst V c t 0 j)

/-! ## What point `t` writes back, and the arrays after the launch -/

/-- Where row `r`, column `f` of point `t`'s block of a [100000, 64] output sits in its array. -/
theorem emb9 (t : Fin cfg0.N) (r : Fin 2000) (f : Fin 64) :
    ((cfg0.win 9).blk t).view.emb (ix2 r f) = ix2 (rowOf t r) f := by
  obtain ⟨-, -, -, -, -, -, -, -, -, ⟨e0, e1⟩, -⟩ := idx_facts t
  funext a; apply Fin.ext
  match a with
  | ⟨0, _⟩ => show win0_9.index t (0 : Fin 2) * 2000 + 1 * r.val = 2000 * t.val + r.val; omega
  | ⟨1, _⟩ => show win0_9.index t (1 : Fin 2) * 64 + 1 * f.val = f.val; omega

theorem emb10 (t : Fin cfg0.N) (r : Fin 2000) (f : Fin 64) :
    ((cfg0.win 10).blk t).view.emb (ix2 r f) = ix2 (rowOf t r) f := by
  obtain ⟨-, -, -, -, -, -, -, -, -, -, ⟨e0, e1⟩, -⟩ := idx_facts t
  funext a; apply Fin.ext
  match a with
  | ⟨0, _⟩ => show win0_10.index t (0 : Fin 2) * 2000 + 1 * r.val = 2000 * t.val + r.val; omega
  | ⟨1, _⟩ => show win0_10.index t (1 : Fin 2) * 64 + 1 * f.val = f.val; omega

theorem emb11 (t : Fin cfg0.N) (r : Fin 2000) (k : Fin 8) :
    ((cfg0.win 11).blk t).view.emb (ix2 r k) = ix2 (rowOf t r) k := by
  obtain ⟨-, -, -, -, -, -, -, -, -, -, -, ⟨e0, e1⟩⟩ := idx_facts t
  funext a; apply Fin.ext
  match a with
  | ⟨0, _⟩ => show win0_11.index t (0 : Fin 2) * 2000 + 1 * r.val = 2000 * t.val + r.val; omega
  | ⟨1, _⟩ => show win0_11.index t (1 : Fin 2) * 8 + 1 * k.val = k.val; omega

/-- Point `t` writes back block `t` of the source messages of all rows. -/
theorem flushed9 (c : Dev nD) (t : Fin cfg0.N) :
    (dat0 V c).flushed 9 t
      = ((cfg0.win 9).blk t).view.read (Elt Ideal) (affRows (V c main_arg0) (V c main_arg1) (V c main_v0)) := by
  show (cfg0.win 9).cut (grid0.coords t) ((dat0 V c).after 9 t) = _
  rw [after0_9]
  unfold out0_9
  rw [View.canon_unit_zero hz]
  simp only [View.ld_unit_zero (S := S2000x64) hz, View.ld_unit_zero (S := S64x64) hz, View.ld_unit_zero (S := S1x64) hz]
  funext j
  obtain ⟨r, f, rfl⟩ : ∃ (r : Fin 2000) (f : Fin 64), j = ix2 r f := ⟨j 0, j 1, eq_ix2 j⟩
  show k0_pay3 (F := Ideal) (iblk0 V c 0 t) (iblk0 V c 1 t) (iblk0 V c 2 t) (ix2 r f)
      = affRows (V c main_arg0) (V c main_arg1) (V c main_v0) (((cfg0.win 9).blk t).view.emb (ix2 r f))
  rw [emb9]
  exact (src_apply (iblk0 V c 0 t) (iblk0 V c 1 t) (iblk0 V c 2 t) r f).trans (aff_src_blk V c t r f)

/-- Point `t` writes back block `t` of the destination messages of all rows. -/
theorem flushed10 (c : Dev nD) (t : Fin cfg0.N) :
    (dat0 V c).flushed 10 t
      = ((cfg0.win 10).blk t).view.read (Elt Ideal) (affRows (V c main_arg0) (V c main_arg3) (V c main_v1)) := by
  show (cfg0.win 10).cut (grid0.coords t) ((dat0 V c).after 10 t) = _
  rw [after0_10]
  unfold out0_10
  rw [View.canon_unit_zero hz]
  simp only [View.ld_unit_zero (S := S2000x64) hz, View.ld_unit_zero (S := S64x64) hz, View.ld_unit_zero (S := S1x64) hz]
  funext j
  obtain ⟨r, f, rfl⟩ : ∃ (r : Fin 2000) (f : Fin 64), j = ix2 r f := ⟨j 0, j 1, eq_ix2 j⟩
  show k0_pay4 (F := Ideal) (iblk0 V c 0 t) (iblk0 V c 3 t) (iblk0 V c 4 t) (ix2 r f)
      = affRows (V c main_arg0) (V c main_arg3) (V c main_v1) (((cfg0.win 10).blk t).view.emb (ix2 r f))
  rw [emb10]
  exact (dst_apply (iblk0 V c 0 t) (iblk0 V c 3 t) (iblk0 V c 4 t) r f).trans (aff_dst_blk V c t r f)

/-- Point `t` writes back block `t` of the destination gates of all rows. -/
theorem flushed11 (c : Dev nD) (t : Fin cfg0.N) :
    (dat0 V c).flushed 11 t
      = ((cfg0.win 11).blk t).view.read (Elt Ideal)
          (gateRows (affRows (V c main_arg0) (V c main_arg3) (V c main_v1)) (V c main_arg9) (V c main_v2) (V c main_arg11) (V c main_v3)) := by
  show (cfg0.win 11).cut (grid0.coords t) ((dat0 V c).after 11 t) = _
  rw [after0_11]
  unfold out0_11
  rw [View.canon_unit_zero hz]
  simp only [View.ld_unit_zero (S := S2000x64) hz, View.ld_unit_zero (S := S64x64) hz, View.ld_unit_zero (S := S1x64) hz,
    View.ld_unit_zero (S := S64x32) hz, View.ld_unit_zero (S := S1x32) hz, View.ld_unit_zero (S := S32x8) hz,
    View.ld_unit_zero (S := S1x8) hz]
  funext j
  obtain ⟨r, k, rfl⟩ : ∃ (r : Fin 2000) (k : Fin 8), j = ix2 r k := ⟨j 0, j 1, eq_ix2 j⟩
  show k0_pay1 (F := Ideal) (k0_pay5 (iblk0 V c 0 t) (iblk0 V c 3 t) (iblk0 V c 4 t) (iblk0 V c 5 t) (iblk0 V c 6 t))
        (k0_pay6 (iblk0 V c 0 t) (iblk0 V c 3 t) (iblk0 V c 4 t) (iblk0 V c 5 t) (iblk0 V c 6 t)) (iblk0 V c 7 t) (iblk0 V c 8 t) (ix2 r k)
      = gateRows (affRows (V c main_arg0) (V c main_arg3) (V c main_v1)) (V c main_arg9) (V c main_v2) (V c main_arg11) (V c main_v3)
          (((cfg0.win 11).blk t).view.emb (ix2 r k))
  rw [emb11]
  refine (gate_apply (iblk0 V c 0 t) (iblk0 V c 3 t) (iblk0 V c 4 t) (iblk0 V c 5 t) (iblk0 V c 6 t) (iblk0 V c 7 t) (iblk0 V c 8 t) r k).trans ?_
  have hW1 : (iblk0 V c 5 t : S64x32.Idx → EReal) = V c main_arg9 := funext fun y => by
    obtain ⟨a, b, rfl⟩ : ∃ (a : Fin 64) (b : Fin 32), y = ix2 a b := ⟨y 0, y 1, eq_ix2 y⟩
    exact blk_w1 V c t a b
  have hb1 : (iblk0 V c 6 t : S1x32.Idx → EReal) = V c main_v2 := funext fun y => by
    obtain ⟨a, b, rfl⟩ : ∃ (a : Fin 1) (b : Fin 32), y = ix2 a b := ⟨y 0, y 1, eq_ix2 y⟩
    exact blk_b1 V c t a b
  have hW2 : (iblk0 V c 7 t : S32x8.Idx → EReal) = V c main_arg11 := funext fun y => by
    obtain ⟨a, b, rfl⟩ : ∃ (a : Fin 32) (b : Fin 8), y = ix2 a b := ⟨y 0, y 1, eq_ix2 y⟩
    exact blk_w2 V c t a b
  have hb2 : (iblk0 V c 8 t : S1x8.Idx → EReal) = V c main_v3 := funext fun y => by
    obtain ⟨a, b, rfl⟩ : ∃ (a : Fin 1) (b : Fin 8), y = ix2 a b := ⟨y 0, y 1, eq_ix2 y⟩
    exact blk_b2 V c t a b
  have hrow : (fun i => aff (iblk0 V c 3 t) (biasRow (iblk0 V c 4 t)) (fun k => iblk0 V c 0 t (ix2 r k)) i)
      = fun i => aff (V c main_arg3) (biasRow (V c main_v1)) (fun k => V c main_arg0 (ix2 (rowOf t r) k)) i :=
    funext fun i => aff_dst_blk V c t r i
  rw [hrow]
  show gate (iblk0 V c 5 t : S64x32.Idx → EReal) (biasRow (iblk0 V c 6 t : S1x32.Idx → EReal))
      (iblk0 V c 7 t : S32x8.Idx → EReal) (biasRow (iblk0 V c 8 t : S1x8.Idx → EReal)) _ k = _
  rw [hW1, hb1, hW2, hb2]
  rfl

/-- An index of a [100000, 64] output is in point `t`'s block iff its row is among the block's 2000 rows. -/
theorem mem_blk9 (t : Fin cfg0.N) (i : S100000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v6_0).slice (win0_9.rect t)).set ↔ _
  rw [View.set_slice_whole, Rect.mem_set_unit]
  exact Iff.rfl

theorem mem_blk10 (t : Fin cfg0.N) (i : S100000x64.Idx) :
    i ∈ ((cfg0.win 10).blk t).view.set ↔ ∀ a : Fin 2, win0_10.index t a * S2000x64.size a ≤ (i a).val ∧ (i a).val < win0_10.index t a * S2000x64.size a + S2000x64.size a := by
  show i ∈ ((View.whole main_v6_1).slice (win0_10.rect t)).set ↔ _
  rw [View.set_slice_whole, Rect.mem_set_unit]
  exact Iff.rfl

theorem mem_blk11 (t : Fin cfg0.N) (i : S100000x8.Idx) :
    i ∈ ((cfg0.win 11).blk t).view.set ↔ ∀ a : Fin 2, win0_11.index t a * S2000x8.size a ≤ (i a).val ∧ (i a).val < win0_11.index t a * S2000x8.size a + S2000x8.size a := by
  show i ∈ ((View.whole main_v6_2).slice (win0_11.rect t)).set ↔ _
  rw [View.set_slice_whole, Rect.mem_set_unit]
  exact Iff.rfl

/-- The point whose block holds row `n`. -/
def pointOf (n : Nat) (hn : n < 100000) : Fin cfg0.N := ⟨n / 2000, by have h2 : cfg0.N = 50 := N_0; omega⟩

/-- The 50 blocks cover the source-message array. -/
theorem cover9 (i : S100000x64.Idx) : ∃ t : Fin cfg0.N, (cfg0.win 9).flush t = true ∧ i ∈ ((cfg0.win 9).blk t).view.set := by
  have hi0 : (i 0).val < 100000 := (i 0).isLt
  have hi1 : (i 1).val < 64 := (i 1).isLt
  obtain ⟨-, -, -, -, -, -, -, -, -, ⟨e0, e1⟩, -⟩ := idx_facts (pointOf (i 0).val hi0)
  have ht : (pointOf (i 0).val hi0).val = (i 0).val / 2000 := rfl
  refine ⟨pointOf (i 0).val hi0, flush0_9 _, ?_⟩
  rw [mem_blk9]
  intro a
  match a with
  | ⟨0, _⟩ => show win0_9.index (pointOf (i 0).val hi0) (0 : Fin 2) * 2000 ≤ (i 0).val ∧ (i 0).val < win0_9.index (pointOf (i 0).val hi0) (0 : Fin 2) * 2000 + 2000; omega
  | ⟨1, _⟩ => show win0_9.index (pointOf (i 0).val hi0) (1 : Fin 2) * 64 ≤ (i 1).val ∧ (i 1).val < win0_9.index (pointOf (i 0).val hi0) (1 : Fin 2) * 64 + 64; omega

theorem cover10 (i : S100000x64.Idx) : ∃ t : Fin cfg0.N, (cfg0.win 10).flush t = true ∧ i ∈ ((cfg0.win 10).blk t).view.set := by
  have hi0 : (i 0).val < 100000 := (i 0).isLt
  have hi1 : (i 1).val < 64 := (i 1).isLt
  obtain ⟨-, -, -, -, -, -, -, -, -, -, ⟨e0, e1⟩, -⟩ := idx_facts (pointOf (i 0).val hi0)
  have ht : (pointOf (i 0).val hi0).val = (i 0).val / 2000 := rfl
  refine ⟨pointOf (i 0).val hi0, flush0_10 _, ?_⟩
  rw [mem_blk10]
  intro a
  match a with
  | ⟨0, _⟩ => show win0_10.index (pointOf (i 0).val hi0) (0 : Fin 2) * 2000 ≤ (i 0).val ∧ (i 0).val < win0_10.index (pointOf (i 0).val hi0) (0 : Fin 2) * 2000 + 2000; omega
  | ⟨1, _⟩ => show win0_10.index (pointOf (i 0).val hi0) (1 : Fin 2) * 64 ≤ (i 1).val ∧ (i 1).val < win0_10.index (pointOf (i 0).val hi0) (1 : Fin 2) * 64 + 64; omega

theorem cover11 (i : S100000x8.Idx) : ∃ t : Fin cfg0.N, (cfg0.win 11).flush t = true ∧ i ∈ ((cfg0.win 11).blk t).view.set := by
  have hi0 : (i 0).val < 100000 := (i 0).isLt
  have hi1 : (i 1).val < 8 := (i 1).isLt
  obtain ⟨-, -, -, -, -, -, -, -, -, -, -, ⟨e0, e1⟩⟩ := idx_facts (pointOf (i 0).val hi0)
  have ht : (pointOf (i 0).val hi0).val = (i 0).val / 2000 := rfl
  refine ⟨pointOf (i 0).val hi0, flush0_11 _, ?_⟩
  rw [mem_blk11]
  intro a
  match a with
  | ⟨0, _⟩ => show win0_11.index (pointOf (i 0).val hi0) (0 : Fin 2) * 2000 ≤ (i 0).val ∧ (i 0).val < win0_11.index (pointOf (i 0).val hi0) (0 : Fin 2) * 2000 + 2000; omega
  | ⟨1, _⟩ => show win0_11.index (pointOf (i 0).val hi0) (1 : Fin 2) * 8 ≤ (i 1).val ∧ (i 1).val < win0_11.index (pointOf (i 0).val hi0) (1 : Fin 2) * 8 + 8; omega

/-- After the launch the source-message array holds every row's source message. -/
theorem final9 (c : Dev nD) :
    (dat0 V c).arrAt 9 cfg0.N = affRows (V c main_arg0) (V c main_arg1) (V c main_v0) :=
  (dat0 V c).arrAt_eq_of_cover 9 _ (fun t _ => flushed9 V c t) cover9

/-- After the launch the destination-message array holds every row's destination message. -/
theorem final10 (c : Dev nD) :
    (dat0 V c).arrAt 10 cfg0.N = affRows (V c main_arg0) (V c main_arg3) (V c main_v1) :=
  (dat0 V c).arrAt_eq_of_cover 10 _ (fun t _ => flushed10 V c t) cover10

/-- After the launch the destination-gate array holds every row's gate of its destination message. -/
theorem final11 (c : Dev nD) :
    (dat0 V c).arrAt 11 cfg0.N
      = gateRows (affRows (V c main_arg0) (V c main_arg3) (V c main_v1)) (V c main_arg9) (V c main_v2) (V c main_arg11) (V c main_v3) :=
  (dat0 V c).arrAt_eq_of_cover 11 _ (fun t _ => flushed11 V c t) cover11

end Cert.KernelIdeal.NodeValue

end
-- ==== Proof.HeadTable.lean ====
import proofs.«158389_j12567074308479_1_alg».proof.KernelIdeal
import Idealize.ShloMosaic.Lib.ValueIdx
import Idealize.ShloMosaic.PureOps.Ideal.Laws

/-!
  The constant 8 × 64 table of the program: row `k` is the indicator of the block of eight columns
  `8 k … 8 k + 7`. Multiplying a row vector of eight numbers by it repeats each number eight times:
  column `f` of the product is entry `f / 8` of the vector.
-/

open scoped BigOperators
open Idealize.ShloMosaic Idealize.ShloMosaic.ValueIdx

namespace Cert.HeadTable

/-- The word at row-major position `n` of the table: the pattern of `1.0` when column `n % 64` lies in
    the block of eight columns numbered by row `n / 64`, the zero word everywhere else. -/
theorem lit0_word : ∀ n : Fin 512,
    Cert.KernelIdeal.lit0 n = if (n.val % 64) / 8 = n.val / 64 then 0x3F800000#32 else 0#32 := by
  decide

/-- The single-precision pattern `0x3F800000` denotes the number one. -/
theorem ofBits_one_f32 : Ideal.ofBits .f32 0x3F800000#32 = 1 := by
  simp [Ideal.ofBits, Ideal.ieee, -EReal.coe_mul]; norm_num

/-- The table read at row `k`, column `f`: one when `f` lies in the `k`-th block of eight columns, zero otherwise. -/
theorem table_apply (k : Fin 8) (f : Fin 64) :
    (FloatOps.ofBits (F := Ideal) .f32 (Cert.KernelIdeal.lit0 (Cert.KernelIdeal.S8x64.rowMajor (ix2 k f))) : EReal)
      = if f.val / 8 = k.val then 1 else 0 := by
  have hv : (Cert.KernelIdeal.S8x64.rowMajor (ix2 k f)).val = k.val * 64 + f.val := by
    rw [Shape.rowMajor_val_two]; rfl
  have h1 : (k.val * 64 + f.val) % 64 = f.val := by have := f.isLt; omega
  have h2 : (k.val * 64 + f.val) / 64 = k.val := by have := f.isLt; omega
  have hw := lit0_word (Cert.KernelIdeal.S8x64.rowMajor (ix2 k f))
  rw [hv, h1, h2] at hw
  refine (congrArg (Ideal.ofBits .f32) hw).trans ?_
  by_cases hk : f.val / 8 = k.val
  · rw [if_pos hk, if_pos hk]; exact ofBits_one_f32
  · rw [if_neg hk, if_neg hk]; exact Ideal.ofBits_zero_f32

/-- A sum over the eight rows against column `f` of the table keeps the one term of row `f / 8`. -/
theorem sum_table (a : Fin 8 → EReal) (f : Fin 64) :
    ∑ k : Fin 8, a k * (if f.val / 8 = k.val then (1 : EReal) else 0) = a ⟨f.val / 8, by omega⟩ := by
  have h : ∀ k : Fin 8, a k * (if f.val / 8 = k.val then (1 : EReal) else 0)
      = if (⟨f.val / 8, by omega⟩ : Fin 8) = k then a k else 0 := by
    intro k
    by_cases hk : f.val / 8 = k.val
    · have : (⟨f.val / 8, by omega⟩ : Fin 8) = k := Fin.ext hk
      rw [if_pos hk, if_pos this, mul_one]
    · have : ¬ (⟨f.val / 8, by omega⟩ : Fin 8) = k := fun e => hk (congrArg Fin.val e)
      rw [if_neg hk, if_neg this, mul_zero]
  simp only [h]
  rw [Finset.sum_ite_eq]
  simp

end Cert.HeadTable
-- ==== Proof.EdgeRows.lean ====
/-
  The edge kernel's and the combine kernel's arithmetic, one row at a time.  On a block of 6000 edge rows
  the edge body computes the source gate σ(leaky(leaky(msg)·W₁ + b₁)·W₂ + b₂) of the row (eight numbers),
  spreads it over the 64 features by a product with the 8×64 table whose entry (k, f) is 1 when f / 8 = k
  and 0 otherwise — so feature f receives the gate of head f / 8, the other seven products being zero —
  and multiplies by the source message.  The combine body spreads the destination gate the same way,
  multiplies by the destination message and adds the aggregated messages.
-/
import proofs.«158389_j12567074308479_1_alg».proof.Proof.Gen.KernelIdeal.Skeleton
import proofs.«158389_j12567074308479_1_alg».proof.Proof.LibDotRows
import proofs.«158389_j12567074308479_1_alg».proof.Proof.RowSpec
import proofs.«158389_j12567074308479_1_alg».proof.Proof.HeadTable
import Idealize.ShloMosaic.Lib.ValueLayout
import Idealize.ShloMosaic.Lib.Pipeline.Value

noncomputable section

open scoped BigOperators

namespace Cert.KernelIdeal.EdgeRows

open Idealize.ShloMosaic Idealize.ShloMosaic.ValueIdx Cert.KernelIdeal Cert.KernelIdeal.Gen RowSpec

/-- The one bias row of a [1, J] block, as a function of the column. -/
abbrev biasRow {J : Nat} (b : (⟨2, ![1, J]⟩ : Shape).Idx → EReal) : Fin J → EReal := fun j => b (ix2 (0 : Fin 1) j)

/-- A block that holds the head table: entry (k, f) is 1 when feature f belongs to head k, else 0. -/
def IsHeadTable (E : (⟨2, ![8, 64]⟩ : Shape).Idx → EReal) : Prop :=
  ∀ (k : Fin 8) (f : Fin 64), E (ix2 k f) = if f.val / 8 = k.val then 1 else 0

/-- The weighted message of edge row `r` at feature `f`: the source gate of head `f / 8` times the source message. -/
theorem edge_apply (v0 : Vec Ideal S6000x64 .f32) (W1 : Vec Ideal S64x32 .f32) (b1 : Vec Ideal S1x32 .f32)
    (W2 : Vec Ideal S32x8 .f32) (b2 : Vec Ideal S1x8 .f32) (E : Vec Ideal S8x64 .f32) (v33 : Vec Ideal S6000x64 .f32)
    (hE : IsHeadTable E) (r : Fin 6000) (f : Fin 64) :
    k1_pay1 (F := Ideal) v0 W1 b1 W2 b2 E v33 (ix2 r f)
      = gate W1 (biasRow b1) W2 (biasRow b2) (fun i => v0 (ix2 r i)) (head f) * v33 (ix2 r f) := by
  unfold k1_pay1
  try dsimp only
  simp only [matmul, shapeCast_self]
  rw [mulf_apply, matmul_zero_rows _ _ rfl rfl (fun _ _ => rfl) (fun _ _ => rfl) (fun _ _ => rfl) (fun _ _ => rfl)]
  refine congrArg (· * _) ?_
  refine Eq.trans (Finset.sum_congr rfl fun k _ => congrArg₂ (· * ·) ?_ (hE k f)) (Cert.HeadTable.sum_table _ f)
  show Ideal.logistic ((addf _ _ : FVec Ideal S6000x8 .f32) (ix2 r k)) = gate W1 (biasRow b1) W2 (biasRow b2) (fun i => v0 (ix2 r i)) k
  rw [addf_apply, matmul_zero_rows _ _ rfl rfl (fun _ _ => rfl) (fun _ _ => rfl) (fun _ _ => rfl) (fun _ _ => rfl),
    broadcastTo_1b_ab_apply]
  unfold gate
  refine congrArg Ideal.logistic ?_
  unfold aff
  refine congrArg (· + _) (Finset.sum_congr rfl fun j _ => congrArg (· * _) ?_)
  show Scalar.select _ ((addf _ _ : FVec Ideal S6000x32 .f32) (ix2 r j)) (_ * (addf _ _ : FVec Ideal S6000x32 .f32) (ix2 r j)) = _
  rw [cmpf_apply, addf_apply, matmul_zero_rows _ _ rfl rfl (fun _ _ => rfl) (fun _ _ => rfl) (fun _ _ => rfl) (fun _ _ => rfl),
    broadcastTo_1b_ab_apply]
  rfl

/-- The combined result of node row `r` at feature `f`: the destination gate of head `f / 8` times the
    destination message, plus the aggregate. -/
theorem combine_apply (a : Vec Ideal S2000x8 .f32) (E : Vec Ideal S8x64 .f32) (g : Vec Ideal S2000x64 .f32)
    (s : Vec Ideal S2000x64 .f32) (hE : IsHeadTable E) (r : Fin 2000) (f : Fin 64) :
    k2_pay1 (F := Ideal) a E g s (ix2 r f) = a (ix2 r (head f)) * g (ix2 r f) + s (ix2 r f) := by
  unfold k2_pay1
  try dsimp only
  simp only [matmul, shapeCast_self]
  rw [addf_apply, mulf_apply, matmul_zero_rows _ _ rfl rfl (fun _ _ => rfl) (fun _ _ => rfl) (fun _ _ => rfl) (fun _ _ => rfl)]
  refine congrArg (· + _) (congrArg (· * _) ?_)
  exact Eq.trans (Finset.sum_congr rfl fun k _ => congrArg₂ (· * ·) rfl (hE k f)) (Cert.HeadTable.sum_table (fun k => a (ix2 r k)) f)

end Cert.KernelIdeal.EdgeRows

end
-- ==== Proof.EdgeValue.lean ====
/-
  What the edge kernel's launch leaves in its output array, at any contents `V` the launch finds, provided
  the 8×64 constant it reads is the head table.  The grid has 200 points; point t reads rows
  6000·t … 6000·t + 5999 of the summed messages and of the source messages, the whole of each weight, bias
  and table array, and writes back the same rows of the weighted messages.  Row e of the output is the
  source gate of row e of the summed messages, spread over the features by head, times row e of the source
  messages; the 200 blocks cover all 1200000 rows.
-/
import proofs.«158389_j12567074308479_1_alg».proof.Proof.Gen.KernelIdeal.Frame
import proofs.«158389_j12567074308479_1_alg».proof.Proof.EdgeRows
import Idealize.ShloMosaic.Lib.Pipeline.Value

set_option maxRecDepth 16384

noncomputable section

open scoped BigOperators

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen RowSpec Cert.KernelIdeal.EdgeRows

variable (V : (c : Dev nD) → (b : Ref sig .tc) → Buf (Elt Ideal) ((c : Thread nD τ).loc b))

theorem hz : (![0, 0] : Fin 2 → Nat) = fun _ => 0 := funext fun a => by fin_cases a <;> rfl

/-- Every edge row's weighted message: the gate of the summed message, by head, times the source message. -/
def weightedRows (msg msgSrc : S1200000x64.Idx → EReal) (W1 : S64x32.Idx → EReal) (b1 : S1x32.Idx → EReal)
    (W2 : S32x8.Idx → EReal) (b2 : S1x8.Idx → EReal) : S1200000x64.Idx → EReal :=
  fun i => gate W1 (biasRow b1) W2 (biasRow b2) (fun j => msg (ix2 (i 0) j)) (head (i 1)) * msgSrc (ix2 (i 0) (i 1))

/-- The printed index maps over the grid: the row-blocked windows are at block (t, 0), the others at (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- The edge row that row `r` of point `t`'s block is. -/
def rowOf (t : Fin cfg1.N) (r : Fin 6000) : Fin 1200000 :=
  ⟨6000 * t.val + r.val, by have h := t.isLt; have h2 : cfg1.N = 200 := N_1; omega⟩

/-! ## The input blocks, read where they sit in their arrays -/

theorem blk_msg (c : Dev nD) (t : Fin cfg1.N) (a : Fin 6000) (b : Fin 64) :
    iblk1 V c 0 t (ix2 a b) = V c main_v25 (ix2 (rowOf t a) b) := by
  show V c main_v25 (((cfg1.win 0).blk t).view.emb (ix2 a b)) = _
  refine congrArg (V c main_v25) (funext fun ax => Fin.ext ?_)
  obtain ⟨⟨e0, e1⟩, -⟩ := idx_facts t
  match ax with
  | ⟨0, _⟩ => show win1_0.index t (0 : Fin 2) * 6000 + 1 * a.val = 6000 * t.val + a.val; omega
  | ⟨1, _⟩ => show win1_0.index t (1 : Fin 2) * 64 + 1 * b.val = b.val; omega

theorem blk_msgSrc (c : Dev nD) (t : Fin cfg1.N) (a : Fin 6000) (b : Fin 64) :
    iblk1 V c 1 t (ix2 a b) = V c main_v17 (ix2 (rowOf t a) b) := by
  show V c main_v17 (((cfg1.win 1).blk t).view.emb (ix2 a b)) = _
  refine congrArg (V c main_v17) (funext fun ax => Fin.ext ?_)
  obtain ⟨-, ⟨e0, e1⟩, -⟩ := idx_facts t
  match ax with
  | ⟨0, _⟩ => show win1_1.index t (0 : Fin 2) * 6000 + 1 * a.val = 6000 * t.val + a.val; omega
  | ⟨1, _⟩ => show win1_1.index t (1 : Fin 2) * 64 + 1 * b.val = b.val; omega

theorem blk_w1 (c : Dev nD) (t : Fin cfg1.N) (a : Fin 64) (b : Fin 32) :
    iblk1 V c 2 t (ix2 a b) = V c main_arg5 (ix2 a b) := by
  show V c main_arg5 (((cfg1.win 2).blk t).view.emb (ix2 a b)) = _
  refine congrArg (V c main_arg5) (funext fun ax => Fin.ext ?_)
  obtain ⟨-, -, ⟨e0, e1⟩, -⟩ := idx_facts t
  match ax with
  | ⟨0, _⟩ => show win1_2.index t (0 : Fin 2) * 64 + 1 * a.val = a.val; omega
  | ⟨1, _⟩ => show win1_2.index t (1 : Fin 2) * 32 + 1 * b.val = b.val; omega

theorem blk_b1 (c : Dev nD) (t : Fin cfg1.N) (a : Fin 1) (b : Fin 32) :
    iblk1 V c 3 t (ix2 a b) = V c main_v4 (ix2 a b) := by
  show V c main_v4 (((cfg1.win 3).blk t).view.emb (ix2 a b)) = _
  refine congrArg (V c main_v4) (funext fun ax => Fin.ext ?_)
  obtain ⟨-, -, -, ⟨e0, e1⟩, -⟩ := idx_facts t
  match ax with
  | ⟨0, _⟩ => show win1_3.index t (0 : Fin 2) * 1 + 1 * a.val = a.val; omega
  | ⟨1, _⟩ => show win1_3.index t (1 : Fin 2) * 32 + 1 * b.val = b.val; omega

theorem blk_w2 (c : Dev nD) (t : Fin cfg1.N) (a : Fin 32) (b : Fin 8) :
    iblk1 V c 4 t (ix2 a b) = V c main_arg7 (ix2 a b) := by
  show V c main_arg7 (((cfg1.win 4).blk t).view.emb (ix2 a b)) = _
  refine congrArg (V c main_arg7) (funext fun ax => Fin.ext ?_)
  obtain ⟨-, -, -, -, ⟨e0, e1⟩, -⟩ := idx_facts t
  match ax with
  | ⟨0, _⟩ => show win1_4.index t (0 : Fin 2) * 32 + 1 * a.val = a.val; omega
  | ⟨1, _⟩ => show win1_4.index t (1 : Fin 2) * 8 + 1 * b.val = b.val; omega

theorem blk_b2 (c : Dev nD) (t : Fin cfg1.N) (a : Fin 1) (b : Fin 8) :
    iblk1 V c 5 t (ix2 a b) = V c main_v5 (ix2 a b) := by
  show V c main_v5 (((cfg1.win 5).blk t).view.emb (ix2 a b)) = _
  refine congrArg (V c main_v5) (funext fun ax => Fin.ext ?_)
  obtain ⟨-, -, -, -, -, ⟨e0, e1⟩, -⟩ := idx_facts t
  match ax with
  | ⟨0, _⟩ => show win1_5.index t (0 : Fin 2) * 1 + 1 * a.val = a.val; omega
  | ⟨1, _⟩ => show win1_5.index t (1 : Fin 2) * 8 + 1 * b.val = b.val; omega

theorem blk_table (c : Dev nD) (t : Fin cfg1.N) (a : Fin 8) (b : Fin 64) :
    iblk1 V c 6 t (ix2 a b) = V c main_cst (ix2 a b) := by
  show V c main_cst (((cfg1.win 6).blk t).view.emb (ix2 a b)) = _
  refine congrArg (V c main_cst) (funext fun ax => Fin.ext ?_)
  obtain ⟨-, -, -, -, -, -, ⟨e0, e1⟩, -⟩ := idx_facts t
  match ax with
  | ⟨0, _⟩ => show win1_6.index t (0 : Fin 2) * 8 + 1 * a.val = a.val; omega
  | ⟨1, _⟩ => show win1_6.index t (1 : Fin 2) * 64 + 1 * b.val = b.val; omega

/-! ## What point `t` writes back, and the array after the launch -/

theorem emb7 (t : Fin cfg1.N) (r : Fin 6000) (f : Fin 64) :
    ((cfg1.win 7).blk t).view.emb (ix2 r f) = ix2 (rowOf t r) f := by
  obtain ⟨-, -, -, -, -, -, -, ⟨e0, e1⟩⟩ := idx_facts t
  funext a; apply Fin.ext
  match a with
  | ⟨0, _⟩ => show win1_7.index t (0 : Fin 2) * 6000 + 1 * r.val = 6000 * t.val + r.val; omega
  | ⟨1, _⟩ => show win1_7.index t (1 : Fin 2) * 64 + 1 * f.val = f.val; omega

/-- Point `t` writes back block `t` of the weighted messages of all edge rows. -/
theorem flushed7 (c : Dev nD) (hE : IsHeadTable (V c main_cst)) (t : Fin cfg1.N) :
    (dat1 V c).flushed 7 t
      = ((cfg1.win 7).blk t).view.read (Elt Ideal)
          (weightedRows (V c main_v25) (V c main_v17) (V c main_arg5) (V c main_v4) (V c main_arg7) (V c main_v5)) := by
  show (cfg1.win 7).cut (grid1.coords t) ((dat1 V c).after 7 t) = _
  rw [after1_7]
  unfold out1_7
  rw [View.canon_unit_zero hz]
  simp only [View.ld_unit_zero (S := S6000x64) hz, View.ld_unit_zero (S := S64x32) hz, View.ld_unit_zero (S := S1x32) hz,
    View.ld_unit_zero (S := S32x8) hz, View.ld_unit_zero (S := S1x8) hz, View.ld_unit_zero (S := S8x64) hz]
  funext j
  obtain ⟨r, f, rfl⟩ : ∃ (r : Fin 6000) (f : Fin 64), j = ix2 r f := ⟨j 0, j 1, eq_ix2 j⟩
  show k1_pay1 (F := Ideal) (iblk1 V c 0 t) (iblk1 V c 2 t) (iblk1 V c 3 t) (iblk1 V c 4 t) (iblk1 V c 5 t) (iblk1 V c 6 t) (iblk1 V c 1 t) (ix2 r f)
      = weightedRows (V c main_v25) (V c main_v17) (V c main_arg5) (V c main_v4) (V c main_arg7) (V c main_v5)
          (((cfg1.win 7).blk t).view.emb (ix2 r f))
  rw [emb7]
  have h2 : (iblk1 V c 2 t : S64x32.Idx → EReal) = V c main_arg5 := funext fun y => by
    obtain ⟨a, b, rfl⟩ : ∃ (a : Fin 64) (b : Fin 32), y = ix2 a b := ⟨y 0, y 1, eq_ix2 y⟩
    exact blk_w1 V c t a b
  have h3 : (iblk1 V c 3 t : S1x32.Idx → EReal) = V c main_v4 := funext fun y => by
    obtain ⟨a, b, rfl⟩ : ∃ (a : Fin 1) (b : Fin 32), y = ix2 a b := ⟨y 0, y 1, eq_ix2 y⟩
    exact blk_b1 V c t a b
  have h4 : (iblk1 V c 4 t : S32x8.Idx → EReal) = V c main_arg7 := funext fun y => by
    obtain ⟨a, b, rfl⟩ : ∃ (a : Fin 32) (b : Fin 8), y = ix2 a b := ⟨y 0, y 1, eq_ix2 y⟩
    exact blk_w2 V c t a b
  have h5 : (iblk1 V c 5 t : S1x8.Idx → EReal) = V c main_v5 := funext fun y => by
    obtain ⟨a, b, rfl⟩ : ∃ (a : Fin 1) (b : Fin 8), y = ix2 a b := ⟨y 0, y 1, eq_ix2 y⟩
    exact blk_b2 V c t a b
  have h6 : (iblk1 V c 6 t : S8x64.Idx → EReal) = V c main_cst := funext fun y => by
    obtain ⟨a, b, rfl⟩ : ∃ (a : Fin 8) (b : Fin 64), y = ix2 a b := ⟨y 0, y 1, eq_ix2 y⟩
    exact blk_table V c t a b
  have hT : IsHeadTable (iblk1 V c 6 t : S8x64.Idx → EReal) := by rw [h6]; exact hE
  refine (edge_apply (iblk1 V c 0 t) (iblk1 V c 2 t) (iblk1 V c 3 t) (iblk1 V c 4 t) (iblk1 V c 5 t) (iblk1 V c 6 t) (iblk1 V c 1 t) hT r f).trans ?_
  have hrow : (fun i => iblk1 V c 0 t (ix2 r i)) = fun i => V c main_v25 (ix2 (rowOf t r) i) := funext fun i => blk_msg V c t r i
  rw [hrow, blk_msgSrc V c t r f]
  show gate (iblk1 V c 2 t : S64x32.Idx → EReal) (biasRow (iblk1 V c 3 t : S1x32.Idx → EReal))
      (iblk1 V c 4 t : S32x8.Idx → EReal) (biasRow (iblk1 V c 5 t : S1x8.Idx → EReal)) _ (head f) * _ = _
  rw [h2, h3, h4, h5]
  rfl

/-- An index of the output is in point `t`'s block iff its row is among the block's 6000 rows. -/
theorem mem_blk7 (t : Fin cfg1.N) (i : S1200000x64.Idx) :
    i ∈ ((cfg1.win 7).blk t).view.set ↔ ∀ a : Fin 2, win1_7.index t a * S6000x64.size a ≤ (i a).val ∧ (i a).val < win1_7.index t a * S6000x64.size a + S6000x64.size a := by
  show i ∈ ((View.whole main_v26).slice (win1_7.rect t)).set ↔ _
  rw [View.set_slice_whole, Rect.mem_set_unit]
  exact Iff.rfl

/-- The point whose block holds edge row `e`. -/
def pointOf (e : Nat) (he : e < 1200000) : Fin cfg1.N := ⟨e / 6000, by have h2 : cfg1.N = 200 := N_1; omega⟩

/-- The 200 blocks cover the output array. -/
theorem cover7 (i : S1200000x64.Idx) : ∃ t : Fin cfg1.N, (cfg1.win 7).flush t = true ∧ i ∈ ((cfg1.win 7).blk t).view.set := by
  have hi0 : (i 0).val < 1200000 := (i 0).isLt
  have hi1 : (i 1).val < 64 := (i 1).isLt
  obtain ⟨-, -, -, -, -, -, -, ⟨e0, e1⟩⟩ := idx_facts (pointOf (i 0).val hi0)
  have ht : (pointOf (i 0).val hi0).val = (i 0).val / 6000 := rfl
  refine ⟨pointOf (i 0).val hi0, flush1_7 _, ?_⟩
  rw [mem_blk7]
  intro a
  match a with
  | ⟨0, _⟩ => show win1_7.index (pointOf (i 0).val hi0) (0 : Fin 2) * 6000 ≤ (i 0).val ∧ (i 0).val < win1_7.index (pointOf (i 0).val hi0) (0 : Fin 2) * 6000 + 6000; omega
  | ⟨1, _⟩ => show win1_7.index (pointOf (i 0).val hi0) (1 : Fin 2) * 64 ≤ (i 1).val ∧ (i 1).val < win1_7.index (pointOf (i 0).val hi0) (1 : Fin 2) * 64 + 64; omega

/-- After the launch the output array holds every edge row's weighted message. -/
theorem final7 (c : Dev nD) (hE : IsHeadTable (V c main_cst)) :
    (dat1 V c).arrAt 7 cfg1.N
      = weightedRows (V c main_v25) (V c main_v17) (V c main_arg5) (V c main_v4) (V c main_arg7) (V c main_v5) :=
  (dat1 V c).arrAt_eq_of_cover 7 _ (fun t _ => flushed7 V c hE t) cover7

end Cert.KernelIdeal.EdgeValue

end
-- ==== Proof.CombineValue.lean ====
/-
  What the combine kernel's launch leaves in the result array, at any contents `V` the launch finds,
  provided the 8×64 constant it reads is the head table.  The grid has 50 points; point t reads rows
  2000·t … 2000·t + 1999 of the destination gates, of the destination messages and of the aggregated
  messages, and writes back the same rows of the result: gate of head f / 8 times the destination message
  plus the aggregate.  The 50 blocks cover all 100000 rows.
-/
import proofs.«158389_j12567074308479_1_alg».proof.Proof.Gen.KernelIdeal.Frame
import proofs.«158389_j12567074308479_1_alg».proof.Proof.EdgeRows
import Idealize.ShloMosaic.Lib.Pipeline.Value

set_option maxRecDepth 16384

noncomputable section

open scoped BigOperators

namespace Cert.KernelIdeal.CombineValue

open Idealize.ShloMosaic Idealize.ShloMosaic.TcCoe Idealize.ShloMosaic.ValueIdx Idealize.SL.Sem
open Idealize.ShloMosaic.Pipeline (Dat Cfg Window)
open Cert.KernelIdeal Cert.KernelIdeal.Gen RowSpec Cert.KernelIdeal.EdgeRows

variable (V : (c : Dev nD) → (b : Ref sig .tc) → Buf (Elt Ideal) ((c : Thread nD τ).loc b))

theorem hz : (![0, 0] : Fin 2 → Nat) = fun _ => 0 := funext fun a => by fin_cases a <;> rfl

/-- Every node row's result: the destination gate by head times the destination message, plus the aggregate. -/
def combineRows (a : S100000x8.Idx → EReal) (g s : S100000x64.Idx → EReal) : S100000x64.Idx → EReal :=
  fun i => a (ix2 (i 0) (head (i 1))) * g (ix2 (i 0) (i 1)) + s (ix2 (i 0) (i 1))

/-- The printed index maps over the grid: the row-blocked windows are at block (t, 0), the table at (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0) :=
  (by decide +kernel : ∀ t : Fin grid2.N, _)

/-- The node row that row `r` of point `t`'s block is. -/
def rowOf (t : Fin cfg2.N) (r : Fin 2000) : Fin 100000 :=
  ⟨2000 * t.val + r.val, by have h := t.isLt; have h2 : cfg2.N = 50 := N_2; omega⟩

/-! ## The input blocks, read where they sit in their arrays -/

theorem blk_gate (c : Dev nD) (t : Fin cfg2.N) (a : Fin 2000) (b : Fin 8) :
    iblk2 V c 0 t (ix2 a b) = V c main_v6_2 (ix2 (rowOf t a) b) := by
  show V c main_v6_2 (((cfg2.win 0).blk t).view.emb (ix2 a b)) = _
  refine congrArg (V c main_v6_2) (funext fun ax => Fin.ext ?_)
  obtain ⟨⟨e0, e1⟩, -⟩ := idx_facts t
  match ax with
  | ⟨0, _⟩ => show win2_0.index t (0 : Fin 2) * 2000 + 1 * a.val = 2000 * t.val + a.val; omega
  | ⟨1, _⟩ => show win2_0.index t (1 : Fin 2) * 8 + 1 * b.val = b.val; omega

theorem blk_dst (c : Dev nD) (t : Fin cfg2.N) (a : Fin 2000) (b : Fin 64) :
    iblk2 V c 1 t (ix2 a b) = V c main_v6_1 (ix2 (rowOf t a) b) := by
  show V c main_v6_1 (((cfg2.win 1).blk t).view.emb (ix2 a b)) = _
  refine congrArg (V c main_v6_1) (funext fun ax => Fin.ext ?_)
  obtain ⟨-, ⟨e0, e1⟩, -⟩ := idx_facts t
  match ax with
  | ⟨0, _⟩ => show win2_1.index t (0 : Fin 2) * 2000 + 1 * a.val = 2000 * t.val + a.val; omega
  | ⟨1, _⟩ => show win2_1.index t (1 : Fin 2) * 64 + 1 * b.val = b.val; omega

theorem blk_agg (c : Dev nD) (t : Fin cfg2.N) (a : Fin 2000) (b : Fin 64) :
    iblk2 V c 2 t (ix2 a b) = V c main_v29 (ix2 (rowOf t a) b) := by
  show V c main_v29 (((cfg2.win 2).blk t).view.emb (ix2 a b)) = _
  refine congrArg (V c main_v29) (funext fun ax => Fin.ext ?_)
  obtain ⟨-, -, ⟨e0, e1⟩, -⟩ := idx_facts t
  match ax with
  | ⟨0, _⟩ => show win2_2.index t (0 : Fin 2) * 2000 + 1 * a.val = 2000 * t.val + a.val; omega
  | ⟨1, _⟩ => show win2_2.index t (1 : Fin 2) * 64 + 1 * b.val = b.val; omega

theorem blk_table (c : Dev nD) (t : Fin cfg2.N) (a : Fin 8) (b : Fin 64) :
    iblk2 V c 3 t (ix2 a b) = V c main_cst (ix2 a b) := by
  show V c main_cst (((cfg2.win 3).blk t).view.emb (ix2 a b)) = _
  refine congrArg (V c main_cst) (funext fun ax => Fin.ext ?_)
  obtain ⟨-, -, -, ⟨e0, e1⟩, -⟩ := idx_facts t
  match ax with
  | ⟨0, _⟩ => show win2_3.index t (0 : Fin 2) * 8 + 1 * a.val = a.val; omega
  | ⟨1, _⟩ => show win2_3.index t (1 : Fin 2) * 64 + 1 * b.val = b.val; omega

/-! ## What point `t` writes back, and the array after the launch -/

theorem emb4 (t : Fin cfg2.N) (r : Fin 2000) (f : Fin 64) :
    ((cfg2.win 4).blk t).view.emb (ix2 r f) = ix2 (rowOf t r) f := by
  obtain ⟨-, -, -, -, ⟨e0, e1⟩⟩ := idx_facts t
  funext a; apply Fin.ext
  match a with
  | ⟨0, _⟩ => show win2_4.index t (0 : Fin 2) * 2000 + 1 * r.val = 2000 * t.val + r.val; omega
  | ⟨1, _⟩ => show win2_4.index t (1 : Fin 2) * 64 + 1 * f.val = f.val; omega

/-- Point `t` writes back block `t` of the results of all node rows. -/
theorem flushed4 (c : Dev nD) (hE : IsHeadTable (V c main_cst)) (t : Fin cfg2.N) :
    (dat2 V c).flushed 4 t
      = ((cfg2.win 4).blk t).view.read (Elt Ideal) (combineRows (V c main_v6_2) (V c main_v6_1) (V c main_v29)) := by
  show (cfg2.win 4).cut (grid2.coords t) ((dat2 V c).after 4 t) = _
  rw [after2_4]
  unfold out2_4
  rw [View.canon_unit_zero hz]
  simp only [View.ld_unit_zero (S := S2000x8) hz, View.ld_unit_zero (S := S2000x64) hz, View.ld_unit_zero (S := S8x64) hz]
  funext j
  obtain ⟨r, f, rfl⟩ : ∃ (r : Fin 2000) (f : Fin 64), j = ix2 r f := ⟨j 0, j 1, eq_ix2 j⟩
  show k2_pay1 (F := Ideal) (iblk2 V c 0 t) (iblk2 V c 3 t) (iblk2 V c 1 t) (iblk2 V c 2 t) (ix2 r f)
      = combineRows (V c main_v6_2) (V c main_v6_1) (V c main_v29) (((cfg2.win 4).blk t).view.emb (ix2 r f))
  rw [emb4]
  have h3 : (iblk2 V c 3 t : S8x64.Idx → EReal) = V c main_cst := funext fun y => by
    obtain ⟨a, b, rfl⟩ : ∃ (a : Fin 8) (b : Fin 64), y = ix2 a b := ⟨y 0, y 1, eq_ix2 y⟩
    exact blk_table V c t a b
  have hT : IsHeadTable (iblk2 V c 3 t : S8x64.Idx → EReal) := by rw [h3]; exact hE
  refine (combine_apply (iblk2 V c 0 t) (iblk2 V c 3 t) (iblk2 V c 1 t) (iblk2 V c 2 t) hT r f).trans ?_
  rw [blk_gate V c t r (head f), blk_dst V c t r f, blk_agg V c t r f]
  rfl

/-- An index of the result is in point `t`'s block iff its row is among the block's 2000 rows. -/
theorem mem_blk4 (t : Fin cfg2.N) (i : S100000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v30).slice (win2_4.rect t)).set ↔ _
  rw [View.set_slice_whole, Rect.mem_set_unit]
  exact Iff.rfl

/-- The point whose block holds node row `n`. -/
def pointOf (n : Nat) (hn : n < 100000) : Fin cfg2.N := ⟨n / 2000, by have h2 : cfg2.N = 50 := N_2; omega⟩

/-- The 50 blocks cover the result array. -/
theorem cover4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨-, -, -, -, ⟨e0, e1⟩⟩ := idx_facts (pointOf (i 0).val hi0)
  have ht : (pointOf (i 0).val hi0).val = (i 0).val / 2000 := rfl
  refine ⟨pointOf (i 0).val hi0, flush2_4 _, ?_⟩
  rw [mem_blk4]
  intro a
  match a with
  | ⟨0, _⟩ => show win2_4.index (pointOf (i 0).val hi0) (0 : Fin 2) * 2000 ≤ (i 0).val ∧ (i 0).val < win2_4.index (pointOf (i 0).val hi0) (0 : Fin 2) * 2000 + 2000; omega
  | ⟨1, _⟩ => show win2_4.index (pointOf (i 0).val hi0) (1 : Fin 2) * 64 ≤ (i 1).val ∧ (i 1).val < win2_4.index (pointOf (i 0).val hi0) (1 : Fin 2) * 64 + 64; omega

/-- After the launch the result array holds every node row's result. -/
theorem final4 (c : Dev nD) (hE : IsHeadTable (V c main_cst)) :
    (dat2 V c).arrAt 4 cfg2.N = combineRows (V c main_v6_2) (V c main_v6_1) (V c main_v29) :=
  (dat2 V c).arrAt_eq_of_cover 4 _ (fun t _ => flushed4 V c hE t) cover4

end Cert.KernelIdeal.CombineValue

end
-- ==== Proof.Boundaries.lean ====
/-
  The arrays the three launches leave, at the boundaries of @main.  The contents of the buffers at the six
  boundaries are a fold from the launch memory; at a launch's exit each of its arrays holds what the grid's
  write-backs leave, which the launch's value module states as a whole-array function of the contents the
  launch found: the node launch leaves the source messages, the destination messages and the destination
  gates; the edge launch the weighted messages; the combine launch the result.
-/
import proofs.«158389_j12567074308479_1_alg».proof.Proof.NodeValue
import proofs.«158389_j12567074308479_1_alg».proof.Proof.EdgeValue
import proofs.«158389_j12567074308479_1_alg».proof.Proof.CombineValue

set_option maxRecDepth 16384

noncomputable section

namespace Cert.KernelIdeal.Boundaries

open Idealize.ShloMosaic Idealize.ShloMosaic.TcCoe Idealize.ShloMosaic.ValueIdx Idealize.SL.Sem
open Cert.KernelIdeal Cert.KernelIdeal.Gen Cert.KernelIdeal.EdgeRows

variable (m : (ℓ : Loc nD τ sig) → Buf (Elt Ideal) ℓ) (ρ : Dev nD → PrngReg)

/-- After the node launch: the source messages of all rows. -/
theorem src_after_nodes (c : Dev nD) :
    W2 m ρ c (Proc.devRef .tc main_v6_0)
      = NodeValue.affRows (V1 m ρ c main_arg0) (V1 m ρ c main_arg1) (V1 m ρ c main_v0) :=
  (W2_arr m ρ c 9).trans (NodeValue.final9 (V1 m ρ) c)

/-- After the node launch: the destination messages of all rows. -/
theorem dst_after_nodes (c : Dev nD) :
    W2 m ρ c (Proc.devRef .tc main_v6_1)
      = NodeValue.affRows (V1 m ρ c main_arg0) (V1 m ρ c main_arg3) (V1 m ρ c main_v1) :=
  (W2_arr m ρ c 10).trans (NodeValue.final10 (V1 m ρ) c)

/-- After the node launch: the destination gates of all rows. -/
theorem gate_after_nodes (c : Dev nD) :
    W2 m ρ c (Proc.devRef .tc main_v6_2)
      = NodeValue.gateRows (NodeValue.affRows (V1 m ρ c main_arg0) (V1 m ρ c main_arg3) (V1 m ρ c main_v1))
          (V1 m ρ c main_arg9) (V1 m ρ c main_v2) (V1 m ρ c main_arg11) (V1 m ρ c main_v3) :=
  (W2_arr m ρ c 11).trans (NodeValue.final11 (V1 m ρ) c)

/-- After the edge launch: the weighted messages of all edge rows, when the constant the launch finds is the head table. -/
theorem weighted_after_edges (c : Dev nD) (hE : IsHeadTable (V3 m ρ c main_cst)) :
    W4 m ρ c (Proc.devRef .tc main_v26)
      = EdgeValue.weightedRows (V3 m ρ c main_v25) (V3 m ρ c main_v17) (V3 m ρ c main_arg5) (V3 m ρ c main_v4)
          (V3 m ρ c main_arg7) (V3 m ρ c main_v5) :=
  (W4_arr m ρ c 7).trans (EdgeValue.final7 (V3 m ρ) c hE)

/-- After the combine launch: the result of all node rows, when the constant the launch finds is the head table. -/
theorem result_after_combine (c : Dev nD) (hE : IsHeadTable (V5 m ρ c main_cst)) :
    W6 m ρ c (Proc.devRef .tc main_v30)
      = CombineValue.combineRows (V5 m ρ c main_v6_2) (V5 m ρ c main_v6_1) (V5 m ρ c main_v29) :=
  (W6_arr m ρ c 4).trans (CombineValue.final4 (V5 m ρ) c hE)

end Cert.KernelIdeal.Boundaries

end
-- ==== Proof.KHost.lean ====
/-
  What the program's three stretches of whole-array operations, the ones that run between its kernel
  launches, leave in the arrays read afterwards.

  Each stretch is a straight line; from ANY contents `W` of the device's arrays, the arrays it writes end at
  a function of `W` at the arrays it reads, and every array it does not write ends as it began.  The first
  stretch lays out a table of constants and views six bias vectors as one-row matrices; the second takes the
  two rows of the edge table, makes them gather indices, gathers the two feature arrays along the edges and
  adds them; the third sums the per-edge array onto its destination rows, from zero.
-/
import proofs.«158389_j12567074308479_1_alg».proof.Proof.Gen.KernelIdeal.Launch
import Idealize.ShloMosaic.Lib.StableHlo.Run

noncomputable section

namespace Cert.KernelIdeal.HostReads

open Cert.KernelIdeal Cert.KernelIdeal.Gen Idealize.ShloMosaic Idealize.ShloMosaic.TcCoe Idealize.SL.Sem
  Idealize.ShloMosaic.StableHlo

variable {F : FTy → Type} [FloatOps F]

/-! ## The index arrays, as functions of the edge table -/

/-- Row `k` of the edge table as a vector over the edges (`k = 0`: sources, `k = 1`: destinations). -/
def rowsOf (k : Nat) (hk : S2x1200000.Slices ![k, 0] S1x1200000) (e : IVec S2x1200000 32) : IVec S1200000 32 :=
  shapeCast S1200000 (extractStridedSlice S1x1200000 ![k, 0] e hk) shapeCasts_S1x1200000_S1200000

/-- An index vector made ready for a row gather: a negative entry counts from the end (`+ 100000`), then one
    column is appended. -/
def normIdx (r : IVec S1200000 32) : IVec S1200000x1 32 :=
  broadcastInDim S1200000x1 ![0] bcast_S1200000_S1200000x1_0
    (select (cmpi .slt r (broadcastInDim S1200000 ![] bcast_S_S1200000 (constantI S_ 32 0#32)))
      (addi r (broadcastInDim S1200000 ![] bcast_S_S1200000 (constantI S_ 32 100000#32))) r)

/-- An index vector as the one-column table the scatter reads, entries as they are. -/
def rawIdx (r : IVec S1200000 32) : IVec S1200000x1 32 :=
  broadcastInDim S1200000x1 ![0] bcast_S1200000_S1200000x1_0 r

variable (W : Valuation τ sig (Elt F))

/-! ## The first stretch: the constant table and the six one-row views -/

/-- The constant table is the literal one. -/
theorem after0_cst :
    after hostOps0 W (Proc.devRef .tc main_cst) = ((fun i => FloatOps.ofBits .f32 (lit0 (S8x64.rowMajor i))) : FVec F S8x64 .f32) := by
  after_results
  rfl

/-- `main_v0` is `main_arg2` viewed as one row. -/
theorem after0_v0 :
    after hostOps0 W (Proc.devRef .tc main_v0) = (shapeCast S1x64 (W (Proc.devRef .tc main_arg2)) shapeCasts_S64_S1x64 : FVec F S1x64 .f32) := by
  after_results
  rfl

/-- `main_v1` is `main_arg4` viewed as one row. -/
theorem after0_v1 :
    after hostOps0 W (Proc.devRef .tc main_v1) = (shapeCast S1x64 (W (Proc.devRef .tc main_arg4)) shapeCasts_S64_S1x64 : FVec F S1x64 .f32) := by
  after_results
  rfl

/-- `main_v2` is `main_arg10` viewed as one row. -/
theorem after0_v2 :
    after hostOps0 W (Proc.devRef .tc main_v2) = (shapeCast S1x32 (W (Proc.devRef .tc main_arg10)) shapeCasts_S32_S1x32 : FVec F S1x32 .f32) := by
  after_results
  rfl

/-- `main_v3` is `main_arg12` viewed as one row. -/
theorem after0_v3 :
    after hostOps0 W (Proc.devRef .tc main_v3) = (shapeCast S1x8 (W (Proc.devRef .tc main_arg12)) shapeCasts_S8_S1x8 : FVec F S1x8 .f32) := by
  after_results
  rfl

/-- `main_v4` is `main_arg6` viewed as one row. -/
theorem after0_v4 :
    after hostOps0 W (Proc.devRef .tc main_v4) = (shapeCast S1x32 (W (Proc.devRef .tc main_arg6)) shapeCasts_S32_S1x32 : FVec F S1x32 .f32) := by
  after_results
  rfl

/-- `main_v5` is `main_arg8` viewed as one row. -/
theorem after0_v5 :
    after hostOps0 W (Proc.devRef .tc main_v5) = (shapeCast S1x8 (W (Proc.devRef .tc main_arg8)) shapeCasts_S8_S1x8 : FVec F S1x8 .f32) := by
  after_results
  rfl

/-- The arrays the first stretch writes. -/
abbrev written0 : List (Ref sig .tc) := [main_cst, main_v0, main_v1, main_v2, main_v3, main_v4, main_v5]

theorem hostOps0_writes : (hostOps0 : List (HloOp τ sig (Elt F))).Forall fun op =>
    op.writes ⊆ (written0.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- An array the first stretch does not write is unchanged by it. -/
theorem keep0 (r : Ref sig .tc) (h : r ∉ written0) : after hostOps0 W (Proc.devRef .tc r) = W (Proc.devRef .tc r) :=
  after_of_writes_sub hostOps0 W hostOps0_writes h

/-! ## The second stretch: the index arrays, the two gathers, their sum -/

/-- The destination row of the edge table, as a vector. -/
theorem after1_v10 :
    after hostOps1 W (Proc.devRef .tc main_v10) = rowsOf 1 slices_S2x1200000_S1x1200000_1_0 (W (Proc.devRef .tc main_arg13)) := by
  after_results
  rfl

/-- The first feature array gathered along the edges' sources. -/
theorem after1_v17 :
    after hostOps1 W (Proc.devRef .tc main_v17)
      = Host.gather gather_S100000x64_S1200000x1_S1200000x64_1_0_n_n_0_1_164 (W (Proc.devRef .tc main_v6_0))
          (normIdx (rowsOf 0 slices_S2x1200000_S1x1200000_0_0 (W (Proc.devRef .tc main_arg13)))) := by
  after_results
  rfl

/-- The per-edge sum: the first feature array at the edge's source plus the second at its destination. -/
theorem after1_v25 :
    after hostOps1 W (Proc.devRef .tc main_v25)
      = addf (Host.gather gather_S100000x64_S1200000x1_S1200000x64_1_0_n_n_0_1_164 (W (Proc.devRef .tc main_v6_0))
                (normIdx (rowsOf 0 slices_S2x1200000_S1x1200000_0_0 (W (Proc.devRef .tc main_arg13)))))
          (Host.gather gather_S100000x64_S1200000x1_S1200000x64_1_0_n_n_0_1_164 (W (Proc.devRef .tc main_v6_1))
                (normIdx (rowsOf 1 slices_S2x1200000_S1x1200000_1_0 (W (Proc.devRef .tc main_arg13))))) := by
  after_results_simp
  rfl

/-- The arrays the second stretch writes. -/
abbrev written1 : List (Ref sig .tc) :=
  [main_v7, main_v8, main_v9, main_v10, main_c, main_v11, main_v12, main_c_0, main_v13, main_v14, main_v15, main_v16,
    main_v17, main_c_1, main_v18, main_v19, main_c_2, main_v20, main_v21, main_v22, main_v23, main_v24, main_v25]

theorem hostOps1_writes : (hostOps1 : List (HloOp τ sig (Elt F))).Forall fun op =>
    op.writes ⊆ (written1.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- An array the second stretch does not write is unchanged by it. -/
theorem keep1 (r : Ref sig .tc) (h : r ∉ written1) : after hostOps1 W (Proc.devRef .tc r) = W (Proc.devRef .tc r) :=
  after_of_writes_sub hostOps1 W hostOps1_writes h

/-! ## The third stretch: the sum onto the destination rows -/

/-- The per-edge array summed onto its destination rows, from zero. -/
theorem after2_v29 :
    after hostOps2 W (Proc.devRef .tc main_v29)
      = Host.scatterAdd scatter_S100000x64_S1200000x1_S1200000x64_1_0_0_1
          (broadcastInDim S100000x64 ![] bcast_S_S100000x64 (constant S_ .f32 0x00000000#32))
          (rawIdx (W (Proc.devRef .tc main_v10))) (W (Proc.devRef .tc main_v26)) := by
  after_results
  rfl

/-- The arrays the third stretch writes. -/
abbrev written2 : List (Ref sig .tc) := [main_cst_3, main_v27, main_v28, main_v29]

theorem hostOps2_writes : (hostOps2 : List (HloOp τ sig (Elt F))).Forall fun op =>
    op.writes ⊆ (written2.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- An array the third stretch does not write is unchanged by it. -/
theorem keep2 (r : Ref sig .tc) (h : r ∉ written2) : after hostOps2 W (Proc.devRef .tc r) = W (Proc.devRef .tc r) :=
  after_of_writes_sub hostOps2 W hostOps2_writes h

end Cert.KernelIdeal.HostReads

end
-- ==== Proof.KernelTerm.lean ====
/-
  The idealized kernel's result as ONE term of its fourteen argument arrays.  The biases are staged as
  one-row blocks; the source and destination messages are the rows' affine layers; the edge rows gather
  them at the (normalised) source and destination node indices and add; the weighted messages are the edge
  rows' gates by head times the gathered source messages; the aggregate scatters them, added, to the raw
  destination rows; and the result is the destination gate by head times the destination message plus the
  aggregate.
-/
import proofs.«158389_j12567074308479_1_alg».proof.Proof.NodeValue
import proofs.«158389_j12567074308479_1_alg».proof.Proof.EdgeValue
import proofs.«158389_j12567074308479_1_alg».proof.Proof.CombineValue
import proofs.«158389_j12567074308479_1_alg».proof.Proof.KHost

noncomputable section

namespace Cert.KernelIdeal.Term

open Idealize.ShloMosaic Idealize.ShloMosaic.ValueIdx
open Cert.KernelIdeal Cert.KernelIdeal.HostReads Cert.KernelIdeal.Facts₀

/-- Every node row through an affine layer whose bias arrives as a vector. -/
def layer (h : FVec Ideal S100000x64 .f32) (W : FVec Ideal S64x64 .f32) (b : FVec Ideal S64 .f32) : FVec Ideal S100000x64 .f32 :=
  NodeValue.affRows h W (shapeCast S1x64 b shapeCasts_S64_S1x64)

/-- The source messages gathered at the edges' source nodes. -/
def srcAtEdges (h : FVec Ideal S100000x64 .f32) (Ws : FVec Ideal S64x64 .f32) (bs : FVec Ideal S64 .f32)
    (e : IVec S2x1200000 32) : FVec Ideal S1200000x64 .f32 :=
  Host.gather gather_S100000x64_S1200000x1_S1200000x64_1_0_n_n_0_1_164 (layer h Ws bs)
    (normIdx (rowsOf 0 slices_S2x1200000_S1x1200000_0_0 e))

/-- The edges' summed messages: source message at the source node plus destination message at the destination node. -/
def sumAtEdges (h : FVec Ideal S100000x64 .f32) (Ws : FVec Ideal S64x64 .f32) (bs : FVec Ideal S64 .f32)
    (Wd : FVec Ideal S64x64 .f32) (bd : FVec Ideal S64 .f32) (e : IVec S2x1200000 32) : FVec Ideal S1200000x64 .f32 :=
  addf (srcAtEdges h Ws bs e)
    (Host.gather gather_S100000x64_S1200000x1_S1200000x64_1_0_n_n_0_1_164 (layer h Wd bd)
      (normIdx (rowsOf 1 slices_S2x1200000_S1x1200000_1_0 e)))

/-- The edges' weighted messages. -/
def weighted (h : FVec Ideal S100000x64 .f32) (Ws : FVec Ideal S64x64 .f32) (bs : FVec Ideal S64 .f32)
    (Wd : FVec Ideal S64x64 .f32) (bd : FVec Ideal S64 .f32) (W1s : FVec Ideal S64x32 .f32) (b1s : FVec Ideal S32 .f32)
    (W2s : FVec Ideal S32x8 .f32) (b2s : FVec Ideal S8 .f32) (e : IVec S2x1200000 32) : FVec Ideal S1200000x64 .f32 :=
  EdgeValue.weightedRows (sumAtEdges h Ws bs Wd bd e) (srcAtEdges h Ws bs e) W1s (shapeCast S1x32 b1s shapeCasts_S32_S1x32)
    W2s (shapeCast S1x8 b2s shapeCasts_S8_S1x8)

/-- The weighted messages summed into their destination rows. -/
def aggregate (h : FVec Ideal S100000x64 .f32) (Ws : FVec Ideal S64x64 .f32) (bs : FVec Ideal S64 .f32)
    (Wd : FVec Ideal S64x64 .f32) (bd : FVec Ideal S64 .f32) (W1s : FVec Ideal S64x32 .f32) (b1s : FVec Ideal S32 .f32)
    (W2s : FVec Ideal S32x8 .f32) (b2s : FVec Ideal S8 .f32) (e : IVec S2x1200000 32) : FVec Ideal S100000x64 .f32 :=
  Host.scatterAdd scatter_S100000x64_S1200000x1_S1200000x64_1_0_0_1
    (broadcastInDim S100000x64 ![] bcast_S_S100000x64 (constant S_ .f32 0x00000000#32))
    (rawIdx (rowsOf 1 slices_S2x1200000_S1x1200000_1_0 e)) (weighted h Ws bs Wd bd W1s b1s W2s b2s e)

/-- The kernel's result. -/
def result (h : FVec Ideal S100000x64 .f32) (Ws : FVec Ideal S64x64 .f32) (bs : FVec Ideal S64 .f32)
    (Wd : FVec Ideal S64x64 .f32) (bd : FVec Ideal S64 .f32) (W1s : FVec Ideal S64x32 .f32) (b1s : FVec Ideal S32 .f32)
    (W2s : FVec Ideal S32x8 .f32) (b2s : FVec Ideal S8 .f32) (W1d : FVec Ideal S64x32 .f32) (b1d : FVec Ideal S32 .f32)
    (W2d : FVec Ideal S32x8 .f32) (b2d : FVec Ideal S8 .f32) (e : IVec S2x1200000 32) : FVec Ideal S100000x64 .f32 :=
  CombineValue.combineRows
    (NodeValue.gateRows (layer h Wd bd) W1d (shapeCast S1x32 b1d shapeCasts_S32_S1x32) W2d (shapeCast S1x8 b2d shapeCasts_S8_S1x8))
    (layer h Wd bd) (aggregate h Ws bs Wd bd W1s b1s W2s b2s e)

end Cert.KernelIdeal.Term

end
-- ==== Proof.KValue.lean ====
/-
  The idealized kernel's result array after the run is the term of `KernelTerm` of the launch memory's
  argument arrays.  The contents at @main's six boundaries are read back one boundary at a time: a host
  stretch changes only the buffers it writes, a launch only its output arrays; the first stretch stages the
  biases as one-row blocks and writes the head table; the node launch leaves the messages and the destination
  gates; the second stretch gathers the messages at the edges; the edge launch leaves the weighted messages;
  the third stretch scatters them to their destination rows; the combine launch leaves the result.
-/
import proofs.«158389_j12567074308479_1_alg».proof.Proof.Boundaries
import proofs.«158389_j12567074308479_1_alg».proof.Proof.KernelTerm
import proofs.«158389_j12567074308479_1_alg».proof.Proof.HeadTable

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.HostReads Cert.KernelIdeal.EdgeRows Cert.KernelIdeal.Boundaries

variable (m : (ℓ : Loc nD τ sig) → Buf (Elt Ideal) ℓ) (ρ : Dev nD → PrngReg) (c : Dev nD)

/-- The table the first stretch writes is the head table. -/
theorem table_isHead : IsHeadTable (fun i => FloatOps.ofBits (F := Ideal) .f32 (lit0 (S8x64.rowMajor i))) :=
  fun k f => Cert.HeadTable.table_apply k f

/-! ## At the node launch's entry (after the first stretch) -/

theorem W1_keep (r : Ref sig .tc) (h : r ∉ written0) : W1 m ρ c (Proc.devRef .tc r) = m ((c : Thread nD τ).loc r) :=
  keep0 (W0 m ρ c) r h

theorem W1_v0 : W1 m ρ c (Proc.devRef .tc main_v0) = shapeCast S1x64 (m ((c : Thread nD τ).loc main_arg2)) shapeCasts_S64_S1x64 :=
  after0_v0 (W0 m ρ c)
theorem W1_v1 : W1 m ρ c (Proc.devRef .tc main_v1) = shapeCast S1x64 (m ((c : Thread nD τ).loc main_arg4)) shapeCasts_S64_S1x64 :=
  after0_v1 (W0 m ρ c)
theorem W1_v2 : W1 m ρ c (Proc.devRef .tc main_v2) = shapeCast S1x32 (m ((c : Thread nD τ).loc main_arg10)) shapeCasts_S32_S1x32 :=
  after0_v2 (W0 m ρ c)
theorem W1_v3 : W1 m ρ c (Proc.devRef .tc main_v3) = shapeCast S1x8 (m ((c : Thread nD τ).loc main_arg12)) shapeCasts_S8_S1x8 :=
  after0_v3 (W0 m ρ c)
theorem W1_v4 : W1 m ρ c (Proc.devRef .tc main_v4) = shapeCast S1x32 (m ((c : Thread nD τ).loc main_arg6)) shapeCasts_S32_S1x32 :=
  after0_v4 (W0 m ρ c)
theorem W1_v5 : W1 m ρ c (Proc.devRef .tc main_v5) = shapeCast S1x8 (m ((c : Thread nD τ).loc main_arg8)) shapeCasts_S8_S1x8 :=
  after0_v5 (W0 m ρ c)
theorem W1_cst : W1 m ρ c (Proc.devRef .tc main_cst) = (fun i => FloatOps.ofBits (F := Ideal) .f32 (lit0 (S8x64.rowMajor i))) :=
  after0_cst (W0 m ρ c)

/-! ## At the node launch's exit -/

theorem W2_src : W2 m ρ c (Proc.devRef .tc main_v6_0)
    = Term.layer (m ((c : Thread nD τ).loc main_arg0)) (m ((c : Thread nD τ).loc main_arg1)) (m ((c : Thread nD τ).loc main_arg2)) := by
  rw [src_after_nodes]
  show NodeValue.affRows (W1 m ρ c (Proc.devRef .tc main_arg0)) (W1 m ρ c (Proc.devRef .tc main_arg1)) (W1 m ρ c (Proc.devRef .tc main_v0)) = _
  rw [W1_keep m ρ c main_arg0 (by decide), W1_keep m ρ c main_arg1 (by decide), W1_v0]
  rfl

theorem W2_dst : W2 m ρ c (Proc.devRef .tc main_v6_1)
    = Term.layer (m ((c : Thread nD τ).loc main_arg0)) (m ((c : Thread nD τ).loc main_arg3)) (m ((c : Thread nD τ).loc main_arg4)) := by
  rw [dst_after_nodes]
  show NodeValue.affRows (W1 m ρ c (Proc.devRef .tc main_arg0)) (W1 m ρ c (Proc.devRef .tc main_arg3)) (W1 m ρ c (Proc.devRef .tc main_v1)) = _
  rw [W1_keep m ρ c main_arg0 (by decide), W1_keep m ρ c main_arg3 (by decide), W1_v1]
  rfl

theorem W2_gate : W2 m ρ c (Proc.devRef .tc main_v6_2)
    = NodeValue.gateRows (Term.layer (m ((c : Thread nD τ).loc main_arg0)) (m ((c : Thread nD τ).loc main_arg3)) (m ((c : Thread nD τ).loc main_arg4)))
        (m ((c : Thread nD τ).loc main_arg9)) (shapeCast S1x32 (m ((c : Thread nD τ).loc main_arg10)) shapeCasts_S32_S1x32)
        (m ((c : Thread nD τ).loc main_arg11)) (shapeCast S1x8 (m ((c : Thread nD τ).loc main_arg12)) shapeCasts_S8_S1x8) := by
  rw [gate_after_nodes]
  show NodeValue.gateRows (NodeValue.affRows (W1 m ρ c (Proc.devRef .tc main_arg0)) (W1 m ρ c (Proc.devRef .tc main_arg3)) (W1 m ρ c (Proc.devRef .tc main_v1)))
      (W1 m ρ c (Proc.devRef .tc main_arg9)) (W1 m ρ c (Proc.devRef .tc main_v2)) (W1 m ρ c (Proc.devRef .tc main_arg11)) (W1 m ρ c (Proc.devRef .tc main_v3)) = _
  rw [W1_keep m ρ c main_arg0 (by decide), W1_keep m ρ c main_arg3 (by decide), W1_v1, W1_keep m ρ c main_arg9 (by decide), W1_v2,
    W1_keep m ρ c main_arg11 (by decide), W1_v3]
  rfl

/-- A buffer the node launch has no window on is as the first stretch left it. -/
theorem W2_other (r : Ref sig .tc) (hr : ∀ w, Pipeline.arrRef spec0 w ≠ r) :
    W2 m ρ c (Proc.devRef .tc r) = W1 m ρ c (Proc.devRef .tc r) := W2_of_ne m ρ c r hr

theorem W2_edges : W2 m ρ c (Proc.devRef .tc main_arg13) = m ((c : Thread nD τ).loc main_arg13) :=
  (W2_other m ρ c main_arg13 (by decide)).trans (W1_keep m ρ c main_arg13 (by decide))
theorem W2_arg5 : W2 m ρ c (Proc.devRef .tc main_arg5) = m ((c : Thread nD τ).loc main_arg5) :=
  (W2_other m ρ c main_arg5 (by decide)).trans (W1_keep m ρ c main_arg5 (by decide))
theorem W2_arg7 : W2 m ρ c (Proc.devRef .tc main_arg7) = m ((c : Thread nD τ).loc main_arg7) :=
  (W2_other m ρ c main_arg7 (by decide)).trans (W1_keep m ρ c main_arg7 (by decide))
theorem W2_v4 : W2 m ρ c (Proc.devRef .tc main_v4) = shapeCast S1x32 (m ((c : Thread nD τ).loc main_arg6)) shapeCasts_S32_S1x32 :=
  (W2_other m ρ c main_v4 (by decide)).trans (W1_v4 m ρ c)
theorem W2_v5 : W2 m ρ c (Proc.devRef .tc main_v5) = shapeCast S1x8 (m ((c : Thread nD τ).loc main_arg8)) shapeCasts_S8_S1x8 :=
  (W2_other m ρ c main_v5 (by decide)).trans (W1_v5 m ρ c)
theorem W2_cst : W2 m ρ c (Proc.devRef .tc main_cst) = (fun i => FloatOps.ofBits (F := Ideal) .f32 (lit0 (S8x64.rowMajor i))) :=
  (W2_other m ρ c main_cst (by decide)).trans (W1_cst m ρ c)

/-! ## At the edge launch's entry (after the second stretch) -/

theorem W3_keep (r : Ref sig .tc) (h : r ∉ written1) : W3 m ρ c (Proc.devRef .tc r) = W2 m ρ c (Proc.devRef .tc r) :=
  keep1 (W2 m ρ c) r h

theorem W3_srcAtEdges : W3 m ρ c (Proc.devRef .tc main_v17)
    = Term.srcAtEdges (m ((c : Thread nD τ).loc main_arg0)) (m ((c : Thread nD τ).loc main_arg1)) (m ((c : Thread nD τ).loc main_arg2))
        (m ((c : Thread nD τ).loc main_arg13)) := by
  refine (after1_v17 (W2 m ρ c)).trans ?_
  rw [W2_src, W2_edges]
  rfl

theorem W3_sumAtEdges : W3 m ρ c (Proc.devRef .tc main_v25)
    = Term.sumAtEdges (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg13)) := by
  refine (after1_v25 (W2 m ρ c)).trans ?_
  rw [W2_src, W2_dst, W2_edges]
  rfl

theorem W3_dstRows : W3 m ρ c (Proc.devRef .tc main_v10)
    = rowsOf 1 slices_S2x1200000_S1x1200000_1_0 (m ((c : Thread nD τ).loc main_arg13)) := by
  refine (after1_v10 (W2 m ρ c)).trans ?_
  rw [W2_edges]

theorem W3_cst : W3 m ρ c (Proc.devRef .tc main_cst) = (fun i => FloatOps.ofBits (F := Ideal) .f32 (lit0 (S8x64.rowMajor i))) :=
  (W3_keep m ρ c main_cst (by decide)).trans (W2_cst m ρ c)

/-! ## At the edge launch's exit -/

theorem W4_weighted : W4 m ρ c (Proc.devRef .tc main_v26)
    = Term.weighted (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg13)) := by
  have hE : IsHeadTable (V3 m ρ c main_cst) := by
    show IsHeadTable (W3 m ρ c (Proc.devRef .tc main_cst))
    rw [W3_cst]; exact table_isHead
  rw [weighted_after_edges m ρ c hE]
  show EdgeValue.weightedRows (W3 m ρ c (Proc.devRef .tc main_v25)) (W3 m ρ c (Proc.devRef .tc main_v17)) (W3 m ρ c (Proc.devRef .tc main_arg5))
      (W3 m ρ c (Proc.devRef .tc main_v4)) (W3 m ρ c (Proc.devRef .tc main_arg7)) (W3 m ρ c (Proc.devRef .tc main_v5)) = _
  rw [W3_sumAtEdges, W3_srcAtEdges, W3_keep m ρ c main_arg5 (by decide), W2_arg5, W3_keep m ρ c main_v4 (by decide), W2_v4,
    W3_keep m ρ c main_arg7 (by decide), W2_arg7, W3_keep m ρ c main_v5 (by decide), W2_v5]
  rfl

/-- A buffer the edge launch has no window on is as the second stretch left it. -/
theorem W4_other (r : Ref sig .tc) (hr : ∀ w, Pipeline.arrRef spec1 w ≠ r) :
    W4 m ρ c (Proc.devRef .tc r) = W3 m ρ c (Proc.devRef .tc r) := W4_of_ne m ρ c r hr

theorem W4_gate : W4 m ρ c (Proc.devRef .tc main_v6_2) = W2 m ρ c (Proc.devRef .tc main_v6_2) :=
  (W4_other m ρ c main_v6_2 (by decide)).trans (W3_keep m ρ c main_v6_2 (by decide))
theorem W4_dst : W4 m ρ c (Proc.devRef .tc main_v6_1) = W2 m ρ c (Proc.devRef .tc main_v6_1) :=
  (W4_other m ρ c main_v6_1 (by decide)).trans (W3_keep m ρ c main_v6_1 (by decide))
theorem W4_dstRows : W4 m ρ c (Proc.devRef .tc main_v10)
    = rowsOf 1 slices_S2x1200000_S1x1200000_1_0 (m ((c : Thread nD τ).loc main_arg13)) :=
  (W4_other m ρ c main_v10 (by decide)).trans (W3_dstRows m ρ c)
/-- The table is an INPUT of the edge launch: its array is as the launch found it. -/
theorem W4_cst : W4 m ρ c (Proc.devRef .tc main_cst) = (fun i => FloatOps.ofBits (F := Ideal) .f32 (lit0 (S8x64.rowMajor i))) :=
  ((W4_arr m ρ c 6).trans (((dat1 (V3 m ρ) c).arrAt_in 6 rfl _).trans (A_eq1 (V3 m ρ) c 6))).trans (W3_cst m ρ c)

/-! ## At the combine launch's entry (after the third stretch), and its exit -/

theorem W5_keep (r : Ref sig .tc) (h : r ∉ written2) : W5 m ρ c (Proc.devRef .tc r) = W4 m ρ c (Proc.devRef .tc r) :=
  keep2 (W4 m ρ c) r h

theorem W5_aggregate : W5 m ρ c (Proc.devRef .tc main_v29)
    = Term.aggregate (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg13)) := by
  refine (after2_v29 (W4 m ρ c)).trans ?_
  rw [W4_dstRows, W4_weighted]
  rfl

/-- THE KERNEL'S RESULT: after the run the result array is `Term.result` of the launch memory's argument arrays. -/
theorem result_eq : W6 m ρ c (Proc.devRef .tc main_v30)
    = Term.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  have hE : IsHeadTable (V5 m ρ c main_cst) := by
    show IsHeadTable (W5 m ρ c (Proc.devRef .tc main_cst))
    rw [W5_keep m ρ c main_cst (by decide), W4_cst]; exact table_isHead
  rw [result_after_combine m ρ c hE]
  show CombineValue.combineRows (W5 m ρ c (Proc.devRef .tc main_v6_2)) (W5 m ρ c (Proc.devRef .tc main_v6_1)) (W5 m ρ c (Proc.devRef .tc main_v29)) = _
  rw [W5_keep m ρ c main_v6_2 (by decide), W4_gate, W2_gate, W5_keep m ρ c main_v6_1 (by decide), W4_dst, W2_dst, W5_aggregate]
  rfl

end Cert.KernelIdeal.Value

end
-- ==== Proof.RefRunOps.lean ====
/-
  The reference program's run.

  The reference is a straight line of whole-array operations: two linear layers on the node features, two
  row gathers through the edge table, two small perceptrons (leaky rectifier, linear, leaky rectifier,
  linear) closed by a logistic, a scatter-add of the weighted source messages onto the destination rows,
  and the final combination.  Its four calls of the leaky rectifier (each of which calls a select) are read
  at their call sites: six operations of the rectifier and one of the select, over the call's own arrays.

  Below: the line as a list of its 109 operations, the program shown equal to that line, each line of the
  source as a named function of ARRAYS (not of memories), their composition `out`, and the statement that
  every fair execution ends with the result array at `out` of the fourteen argument arrays, the argument
  arrays unchanged.
-/
import proofs.«158389_j12567074308479_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The program's operations in order; a call contributes the callee's operations over that call's arrays. -/
abbrev ops : List (HloOp τ sig (Elt F)) :=
  [ StableHlo.unary main_arg13 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg13 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.binary main_arg0 main_arg1 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S100000x64 ![0, 1] bcast_S1x64_S100000x64_0_1 : (⟨S1x64, .f32⟩ : BufTy).Contents (Elt F) → (⟨S100000x64, .f32⟩ : BufTy).Contents (Elt F)),
    StableHlo.binary main_v4 main_v6 main_v7 (addf : (⟨S100000x64, .f32⟩ : BufTy).Contents (Elt F) → (⟨S100000x64, .f32⟩ : BufTy).Contents (Elt F) → (⟨S100000x64, .f32⟩ : BufTy).Contents (Elt F)),
    StableHlo.binary main_arg0 main_arg3 main_v8 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S100000x64 ![0, 1] bcast_S1x64_S100000x64_0_1 : (⟨S1x64, .f32⟩ : BufTy).Contents (Elt F) → (⟨S100000x64, .f32⟩ : BufTy).Contents (Elt F)),
    StableHlo.binary main_v8 main_v10 main_v11 (addf : (⟨S100000x64, .f32⟩ : BufTy).Contents (Elt F) → (⟨S100000x64, .f32⟩ : BufTy).Contents (Elt F) → (⟨S100000x64, .f32⟩ : BufTy).Contents (Elt F)),
    StableHlo.nullary main_c (constantI S_ 32 0#32),
    StableHlo.unary main_c main_v12 (broadcastInDim S1200000 ![] bcast_S_S1200000 : (⟨S_, .i32⟩ : BufTy).Contents (Elt F) → (⟨S1200000, .i32⟩ : BufTy).Contents (Elt F)),
    StableHlo.binary main_v1 main_v12 main_v13 (cmpi .slt : (⟨S1200000, .i32⟩ : BufTy).Contents (Elt F) → (⟨S1200000, .i32⟩ : BufTy).Contents (Elt F) → (⟨S1200000, .i1⟩ : BufTy).Contents (Elt F)),
    StableHlo.nullary main_c_0 (constantI S_ 32 100000#32),
    StableHlo.unary main_c_0 main_v14 (broadcastInDim S1200000 ![] bcast_S_S1200000 : (⟨S_, .i32⟩ : BufTy).Contents (Elt F) → (⟨S1200000, .i32⟩ : BufTy).Contents (Elt F)),
    StableHlo.binary main_v1 main_v14 main_v15 (addi : (⟨S1200000, .i32⟩ : BufTy).Contents (Elt F) → (⟨S1200000, .i32⟩ : BufTy).Contents (Elt F) → (⟨S1200000, .i32⟩ : BufTy).Contents (Elt F)),
    StableHlo.ternary main_v13 main_v15 main_v1 main_v16 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v16 main_v17 (broadcastInDim S1200000x1 ![0] bcast_S1200000_S1200000x1_0 : (⟨S1200000, .i32⟩ : BufTy).Contents (Elt F) → (⟨S1200000x1, .i32⟩ : BufTy).Contents (Elt F)),
    StableHlo.binary main_v7 main_v17 main_v18 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_c_1 (constantI S_ 32 0#32),
    StableHlo.unary main_c_1 main_v19 (broadcastInDim S1200000 ![] bcast_S_S1200000 : (⟨S_, .i32⟩ : BufTy).Contents (Elt F) → (⟨S1200000, .i32⟩ : BufTy).Contents (Elt F)),
    StableHlo.binary main_v3 main_v19 main_v20 (cmpi .slt : (⟨S1200000, .i32⟩ : BufTy).Contents (Elt F) → (⟨S1200000, .i32⟩ : BufTy).Contents (Elt F) → (⟨S1200000, .i1⟩ : BufTy).Contents (Elt F)),
    StableHlo.nullary main_c_2 (constantI S_ 32 100000#32),
    StableHlo.unary main_c_2 main_v21 (broadcastInDim S1200000 ![] bcast_S_S1200000 : (⟨S_, .i32⟩ : BufTy).Contents (Elt F) → (⟨S1200000, .i32⟩ : BufTy).Contents (Elt F)),
    StableHlo.binary main_v3 main_v21 main_v22 (addi : (⟨S1200000, .i32⟩ : BufTy).Contents (Elt F) → (⟨S1200000, .i32⟩ : BufTy).Contents (Elt F) → (⟨S1200000, .i32⟩ : BufTy).Contents (Elt F)),
    StableHlo.ternary main_v20 main_v22 main_v3 main_v23 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v23 main_v24 (broadcastInDim S1200000x1 ![0] bcast_S1200000_S1200000x1_0 : (⟨S1200000, .i32⟩ : BufTy).Contents (Elt F) → (⟨S1200000x1, .i32⟩ : BufTy).Contents (Elt F)),
    StableHlo.binary main_v11 main_v24 main_v25 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.binary main_v18 main_v25 main_v26 (addf : (⟨S1200000x64, .f32⟩ : BufTy).Contents (Elt F) → (⟨S1200000x64, .f32⟩ : BufTy).Contents (Elt F) → (⟨S1200000x64, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S1200000x64 ![] bcast_S_S1200000x64),
    StableHlo.TRef.binary (.of main_v26 : StableHlo.TRef sig ⟨S1200000x64, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S1200000x64 ![] bcast_S_S1200000x64),
    StableHlo.TRef.binary main_call0.v3 (.of main_v26 : StableHlo.TRef sig ⟨S1200000x64, .f32⟩) main_call0.v4 mulf,
    StableHlo.TRef.ternary main_call0.v1 (.of main_v26 : StableHlo.TRef sig ⟨S1200000x64, .f32⟩) main_call0.v4 main_call0.call0.v0 select,
    StableHlo.binary main_v27 main_arg5 main_v28 ((fun l r => Host.dotGeneral dot_S1200000x64_S64x32_S1200000x32_1_0_0_1_n_n none l r) : (⟨S1200000x64, .f32⟩ : BufTy).Contents (Elt F) → (⟨S64x32, .f32⟩ : BufTy).Contents (Elt F) → (⟨S1200000x32, .f32⟩ : BufTy).Contents (Elt F)),
    StableHlo.unary main_arg6 main_v29 (broadcastInDim S1x32 ![1] bcast_S32_S1x32_1 : (⟨S32, .f32⟩ : BufTy).Contents (Elt F) → (⟨S1x32, .f32⟩ : BufTy).Contents (Elt F)),
    StableHlo.unary main_v29 main_v30 (broadcastInDim S1200000x32 ![0, 1] bcast_S1x32_S1200000x32_0_1 : (⟨S1x32, .f32⟩ : BufTy).Contents (Elt F) → (⟨S1200000x32, .f32⟩ : BufTy).Contents (Elt F)),
    StableHlo.binary main_v28 main_v30 main_v31 (addf : (⟨S1200000x32, .f32⟩ : BufTy).Contents (Elt F) → (⟨S1200000x32, .f32⟩ : BufTy).Contents (Elt F) → (⟨S1200000x32, .f32⟩ : BufTy).Contents (Elt F)),
    StableHlo.nullary main_cst_3 (constant S_ .f32 0x3E4CCCCD#32),
    StableHlo.TRef.nullary main_call1.cst (constant S_ .f32 0x00000000#32),
    StableHlo.TRef.unary main_call1.cst main_call1.v0 (broadcastInDim S1200000x32 ![] bcast_S_S1200000x32),
    StableHlo.TRef.binary (.of main_v31 : StableHlo.TRef sig ⟨S1200000x32, .f32⟩) main_call1.v0 main_call1.v1 (cmpf .oge),
    StableHlo.TRef.unary (.of main_cst_3 : StableHlo.TRef sig ⟨S_, .f32⟩) main_call1.v2 id,
    StableHlo.TRef.unary main_call1.v2 main_call1.v3 (broadcastInDim S1200000x32 ![] bcast_S_S1200000x32),
    StableHlo.TRef.binary main_call1.v3 (.of main_v31 : StableHlo.TRef sig ⟨S1200000x32, .f32⟩) main_call1.v4 mulf,
    StableHlo.TRef.ternary main_call1.v1 (.of main_v31 : StableHlo.TRef sig ⟨S1200000x32, .f32⟩) main_call1.v4 main_call1.call0.v0 select,
    StableHlo.binary main_v32 main_arg7 main_v33 ((fun l r => Host.dotGeneral dot_S1200000x32_S32x8_S1200000x8_1_0_0_1_n_n none l r) : (⟨S1200000x32, .f32⟩ : BufTy).Contents (Elt F) → (⟨S32x8, .f32⟩ : BufTy).Contents (Elt F) → (⟨S1200000x8, .f32⟩ : BufTy).Contents (Elt F)),
    StableHlo.unary main_arg8 main_v34 (broadcastInDim S1x8 ![1] bcast_S8_S1x8_1 : (⟨S8, .f32⟩ : BufTy).Contents (Elt F) → (⟨S1x8, .f32⟩ : BufTy).Contents (Elt F)),
    StableHlo.unary main_v34 main_v35 (broadcastInDim S1200000x8 ![0, 1] bcast_S1x8_S1200000x8_0_1 : (⟨S1x8, .f32⟩ : BufTy).Contents (Elt F) → (⟨S1200000x8, .f32⟩ : BufTy).Contents (Elt F)),
    StableHlo.binary main_v33 main_v35 main_v36 (addf : (⟨S1200000x8, .f32⟩ : BufTy).Contents (Elt F) → (⟨S1200000x8, .f32⟩ : BufTy).Contents (Elt F) → (⟨S1200000x8, .f32⟩ : BufTy).Contents (Elt F)),
    StableHlo.unary main_v36 main_v37 (Host.negf : (⟨S1200000x8, .f32⟩ : BufTy).Contents (Elt F) → (⟨S1200000x8, .f32⟩ : BufTy).Contents (Elt F)),
    StableHlo.unary main_v37 main_v38 (Host.exp : (⟨S1200000x8, .f32⟩ : BufTy).Contents (Elt F) → (⟨S1200000x8, .f32⟩ : BufTy).Contents (Elt F)),
    StableHlo.nullary main_cst_4 (constant S_ .f32 0x3F800000#32),
    StableHlo.unary main_cst_4 main_v39 (broadcastInDim S1200000x8 ![] bcast_S_S1200000x8 : (⟨S_, .f32⟩ : BufTy).Contents (Elt F) → (⟨S1200000x8, .f32⟩ : BufTy).Contents (Elt F)),
    StableHlo.binary main_v39 main_v38 main_v40 (addf : (⟨S1200000x8, .f32⟩ : BufTy).Contents (Elt F) → (⟨S1200000x8, .f32⟩ : BufTy).Contents (Elt F) → (⟨S1200000x8, .f32⟩ : BufTy).Contents (Elt F)),
    StableHlo.nullary main_cst_5 (constant S_ .f32 0x3F800000#32),
    StableHlo.unary main_cst_5 main_v41 (broadcastInDim S1200000x8 ![] bcast_S_S1200000x8 : (⟨S_, .f32⟩ : BufTy).Contents (Elt F) → (⟨S1200000x8, .f32⟩ : BufTy).Contents (Elt F)),
    StableHlo.binary main_v41 main_v40 main_v42 (Host.divf : (⟨S1200000x8, .f32⟩ : BufTy).Contents (Elt F) → (⟨S1200000x8, .f32⟩ : BufTy).Contents (Elt F) → (⟨S1200000x8, .f32⟩ : BufTy).Contents (Elt F)),
    StableHlo.unary main_v42 main_v43 (broadcastInDim S1200000x8x1 ![0, 1] bcast_S1200000x8_S1200000x8x1_0_1 : (⟨S1200000x8, .f32⟩ : BufTy).Contents (Elt F) → (⟨S1200000x8x1, .f32⟩ : BufTy).Contents (Elt F)),
    StableHlo.nullary main_cst_6 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v11 : StableHlo.TRef sig ⟨S100000x64, .f32⟩) main_call2.v0 main_call2.v1 (cmpf .oge),
    StableHlo.TRef.unary (.of main_cst_6 : StableHlo.TRef sig ⟨S_, .f32⟩) main_call2.v2 id,
    StableHlo.TRef.unary main_call2.v2 main_call2.v3 (broadcastInDim S100000x64 ![] bcast_S_S100000x64),
    StableHlo.TRef.binary main_call2.v3 (.of main_v11 : StableHlo.TRef sig ⟨S100000x64, .f32⟩) main_call2.v4 mulf,
    StableHlo.TRef.ternary main_call2.v1 (.of main_v11 : StableHlo.TRef sig ⟨S100000x64, .f32⟩) main_call2.v4 main_call2.call0.v0 select,
    StableHlo.binary main_v44 main_arg9 main_v45 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg10 main_v46 (broadcastInDim S1x32 ![1] bcast_S32_S1x32_1 : (⟨S32, .f32⟩ : BufTy).Contents (Elt F) → (⟨S1x32, .f32⟩ : BufTy).Contents (Elt F)),
    StableHlo.unary main_v46 main_v47 (broadcastInDim S100000x32 ![0, 1] bcast_S1x32_S100000x32_0_1 : (⟨S1x32, .f32⟩ : BufTy).Contents (Elt F) → (⟨S100000x32, .f32⟩ : BufTy).Contents (Elt F)),
    StableHlo.binary main_v45 main_v47 main_v48 (addf : (⟨S100000x32, .f32⟩ : BufTy).Contents (Elt F) → (⟨S100000x32, .f32⟩ : BufTy).Contents (Elt F) → (⟨S100000x32, .f32⟩ : BufTy).Contents (Elt F)),
    StableHlo.nullary main_cst_7 (constant S_ .f32 0x3E4CCCCD#32),
    StableHlo.TRef.nullary main_call3.cst (constant S_ .f32 0x00000000#32),
    StableHlo.TRef.unary main_call3.cst main_call3.v0 (broadcastInDim S100000x32 ![] bcast_S_S100000x32),
    StableHlo.TRef.binary (.of main_v48 : StableHlo.TRef sig ⟨S100000x32, .f32⟩) main_call3.v0 main_call3.v1 (cmpf .oge),
    StableHlo.TRef.unary (.of main_cst_7 : StableHlo.TRef sig ⟨S_, .f32⟩) main_call3.v2 id,
    StableHlo.TRef.unary main_call3.v2 main_call3.v3 (broadcastInDim S100000x32 ![] bcast_S_S100000x32),
    StableHlo.TRef.binary main_call3.v3 (.of main_v48 : StableHlo.TRef sig ⟨S100000x32, .f32⟩) main_call3.v4 mulf,
    StableHlo.TRef.ternary main_call3.v1 (.of main_v48 : StableHlo.TRef sig ⟨S100000x32, .f32⟩) main_call3.v4 main_call3.call0.v0 select,
    StableHlo.binary main_v49 main_arg11 main_v50 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    StableHlo.unary main_arg12 main_v51 (broadcastInDim S1x8 ![1] bcast_S8_S1x8_1 : (⟨S8, .f32⟩ : BufTy).Contents (Elt F) → (⟨S1x8, .f32⟩ : BufTy).Contents (Elt F)),
    StableHlo.unary main_v51 main_v52 (broadcastInDim S100000x8 ![0, 1] bcast_S1x8_S100000x8_0_1 : (⟨S1x8, .f32⟩ : BufTy).Contents (Elt F) → (⟨S100000x8, .f32⟩ : BufTy).Contents (Elt F)),
    StableHlo.binary main_v50 main_v52 main_v53 (addf : (⟨S100000x8, .f32⟩ : BufTy).Contents (Elt F) → (⟨S100000x8, .f32⟩ : BufTy).Contents (Elt F) → (⟨S100000x8, .f32⟩ : BufTy).Contents (Elt F)),
    StableHlo.unary main_v53 main_v54 (Host.negf : (⟨S100000x8, .f32⟩ : BufTy).Contents (Elt F) → (⟨S100000x8, .f32⟩ : BufTy).Contents (Elt F)),
    StableHlo.unary main_v54 main_v55 (Host.exp : (⟨S100000x8, .f32⟩ : BufTy).Contents (Elt F) → (⟨S100000x8, .f32⟩ : BufTy).Contents (Elt F)),
    StableHlo.nullary main_cst_8 (constant S_ .f32 0x3F800000#32),
    StableHlo.unary main_cst_8 main_v56 (broadcastInDim S100000x8 ![] bcast_S_S100000x8 : (⟨S_, .f32⟩ : BufTy).Contents (Elt F) → (⟨S100000x8, .f32⟩ : BufTy).Contents (Elt F)),
    StableHlo.binary main_v56 main_v55 main_v57 (addf : (⟨S100000x8, .f32⟩ : BufTy).Contents (Elt F) → (⟨S100000x8, .f32⟩ : BufTy).Contents (Elt F) → (⟨S100000x8, .f32⟩ : BufTy).Contents (Elt F)),
    StableHlo.nullary main_cst_9 (constant S_ .f32 0x3F800000#32),
    StableHlo.unary main_cst_9 main_v58 (broadcastInDim S100000x8 ![] bcast_S_S100000x8 : (⟨S_, .f32⟩ : BufTy).Contents (Elt F) → (⟨S100000x8, .f32⟩ : BufTy).Contents (Elt F)),
    StableHlo.binary main_v58 main_v57 main_v59 (Host.divf : (⟨S100000x8, .f32⟩ : BufTy).Contents (Elt F) → (⟨S100000x8, .f32⟩ : BufTy).Contents (Elt F) → (⟨S100000x8, .f32⟩ : BufTy).Contents (Elt F)),
    StableHlo.unary main_v59 main_v60 (broadcastInDim S100000x8x1 ![0, 1] bcast_S100000x8_S100000x8x1_0_1 : (⟨S100000x8, .f32⟩ : BufTy).Contents (Elt F) → (⟨S100000x8x1, .f32⟩ : BufTy).Contents (Elt F)),
    StableHlo.reshape main_v18 main_v61 rfl shapeCasts_S1200000x64_S1200000x8x8,
    StableHlo.unary main_v43 main_v62 (broadcastInDim S1200000x8x8 ![0, 1, 2] bcast_S1200000x8x1_S1200000x8x8_0_1_2 : (⟨S1200000x8x1, .f32⟩ : BufTy).Contents (Elt F) → (⟨S1200000x8x8, .f32⟩ : BufTy).Contents (Elt F)),
    StableHlo.binary main_v62 main_v61 main_v63 (mulf : (⟨S1200000x8x8, .f32⟩ : BufTy).Contents (Elt F) → (⟨S1200000x8x8, .f32⟩ : BufTy).Contents (Elt F) → (⟨S1200000x8x8, .f32⟩ : BufTy).Contents (Elt F)),
    StableHlo.nullary main_cst_10 (constant S_ .f32 0x00000000#32),
    StableHlo.unary main_cst_10 main_v64 (broadcastInDim S100000x8x8 ![] bcast_S_S100000x8x8 : (⟨S_, .f32⟩ : BufTy).Contents (Elt F) → (⟨S100000x8x8, .f32⟩ : BufTy).Contents (Elt F)),
    StableHlo.unary main_v3 main_v65 (broadcastInDim S1200000x1 ![0] bcast_S1200000_S1200000x1_0 : (⟨S1200000, .i32⟩ : BufTy).Contents (Elt F) → (⟨S1200000x1, .i32⟩ : BufTy).Contents (Elt F)),
    StableHlo.ternary main_v64 main_v65 main_v63 main_v66 ((fun x i u => Host.scatterAdd scatter_S100000x8x8_S1200000x1_S1200000x8x8_12_0_0_1 x i u) : (⟨S100000x8x8, .f32⟩ : BufTy).Contents (Elt F) → (⟨S1200000x1, .i32⟩ : BufTy).Contents (Elt F) → (⟨S1200000x8x8, .f32⟩ : BufTy).Contents (Elt F) → (⟨S100000x8x8, .f32⟩ : BufTy).Contents (Elt F)),
    StableHlo.reshape main_v11 main_v67 rfl shapeCasts_S100000x64_S100000x8x8,
    StableHlo.unary main_v60 main_v68 (broadcastInDim S100000x8x8 ![0, 1, 2] bcast_S100000x8x1_S100000x8x8_0_1_2 : (⟨S100000x8x1, .f32⟩ : BufTy).Contents (Elt F) → (⟨S100000x8x8, .f32⟩ : BufTy).Contents (Elt F)),
    StableHlo.binary main_v68 main_v67 main_v69 (mulf : (⟨S100000x8x8, .f32⟩ : BufTy).Contents (Elt F) → (⟨S100000x8x8, .f32⟩ : BufTy).Contents (Elt F) → (⟨S100000x8x8, .f32⟩ : BufTy).Contents (Elt F)),
    StableHlo.binary main_v69 main_v66 main_v70 (addf : (⟨S100000x8x8, .f32⟩ : BufTy).Contents (Elt F) → (⟨S100000x8x8, .f32⟩ : BufTy).Contents (Elt F) → (⟨S100000x8x8, .f32⟩ : BufTy).Contents (Elt F)),
    StableHlo.reshape main_v70 main_v71 rfl shapeCasts_S100000x8x8_S100000x64 ]

-- one hundred and nine binds re-associated: the rewrite recurses once per statement
set_option maxRecDepth 8192 in
set_option maxHeartbeats 4000000 in
/-- The program is that straight line: the callees unfolded at their calls, sequencing re-associated. -/
theorem main_eq (c : Dev nD) : main (F := F) c = seq ops := by
  simp only [main, main_part0, main_part1, fn_where.body, fn_leaky_relu.body, fn_where_1.body, fn_leaky_relu_0.body, fn_where_3.body, fn_leaky_relu_2.body, fn_where_5.body, fn_leaky_relu_4.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches arrays of the TensorCore only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., binary_bufs_sub .., nullary_bufs_sub .., unary_bufs_sub .., unary_bufs_sub .., ternary_bufs_sub .., reshape_bufs_sub .., unary_bufs_sub .., binary_bufs_sub .., binary_bufs_sub .., reshape_bufs_sub ..⟩

end Cert.ReferenceIdeal.RefRun

end
-- ==== Proof.RefRun.lean ====
/-
  The reference program's run, read stage by stage.

  Each line of the source is a named function of ARRAYS (not of memories), spelt with the whole-array
  operations the program uses for it; `out` is their composition over the fourteen argument arrays.  The
  statement: every fair execution of the program ends with the result array at `out` of the argument
  arrays' initial contents, and the argument arrays unchanged.
-/
import proofs.«158389_j12567074308479_1_alg».proof.Proof.RefRunOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The source's lines as functions of arrays

Each definition is one line of the source, spelt with the whole-array operations the program uses for it. -/

/-- A linear layer on the node features: `h · W + b`, the bias spread over the rows. -/
def gS (h : FVec F S100000x64 .f32) (W : FVec F S64x64 .f32) (b : FVec F S64 .f32) : FVec F S100000x64 .f32 :=
  addf (Host.dotGeneral dot_S100000x64_S64x64_S100000x64_1_0_0_1_n_n none h W)
    (broadcastInDim S100000x64 ![0, 1] bcast_S1x64_S100000x64_0_1 (broadcastInDim S1x64 ![1] bcast_S64_S1x64_1 b))

/-- Row `k` of the edge table as a vector over the edges (`k = 0`: sources, `k = 1`: destinations). -/
def rowsOf (k : Nat) (hk : S2x1200000.Slices ![k, 0] S1x1200000) (e : IVec S2x1200000 32) : IVec S1200000 32 :=
  shapeCast S1200000 (extractStridedSlice S1x1200000 ![k, 0] e hk) shapeCasts_S1x1200000_S1200000

/-- An index vector made ready for a row gather: a negative entry counts from the end (`+ 100000`), then one
    column is appended. -/
def normIdx (r : IVec S1200000 32) : IVec S1200000x1 32 :=
  broadcastInDim S1200000x1 ![0] bcast_S1200000_S1200000x1_0
    (select (cmpi .slt r (broadcastInDim S1200000 ![] bcast_S_S1200000 (constantI S_ 32 0#32)))
      (addi r (broadcastInDim S1200000 ![] bcast_S_S1200000 (constantI S_ 32 100000#32))) r)

/-- An index vector as the one-column table the scatter reads, entries as they are. -/
def rawIdx (r : IVec S1200000 32) : IVec S1200000x1 32 :=
  broadcastInDim S1200000x1 ![0] bcast_S1200000_S1200000x1_0 r

/-- Rows of a node array, one per edge, at the given row indices. -/
def gathered (x : FVec F S100000x64 .f32) (ix : IVec S1200000x1 32) : FVec F S1200000x64 .f32 :=
  Host.gather gather_S100000x64_S1200000x1_S1200000x64_1_0_n_n_0_1_164 x ix

/-- The leaky rectifier with slope 0.2, at any shape: `x` where `x ≥ 0`, else `0.2 · x`. -/
def leaky (s : Shape) (hb : S_.BroadcastsInDim s (![] : Fin 0 → Fin s.rank)) (x : FVec F s .f32) : FVec F s .f32 :=
  select (cmpf .oge x (broadcastInDim s ![] hb (constant S_ .f32 0x00000000#32))) x
    (mulf (broadcastInDim s ![] hb (constant S_ .f32 0x3E4CCCCD#32)) x)

/-- The logistic function as the program spells it, at any shape: `1 / (1 + exp (-x))`. -/
def logistic (s : Shape) (hb : S_.BroadcastsInDim s (![] : Fin 0 → Fin s.rank)) (x : FVec F s .f32) : FVec F s .f32 :=
  Host.divf (broadcastInDim s ![] hb (constant S_ .f32 0x3F800000#32))
    (addf (broadcastInDim s ![] hb (constant S_ .f32 0x3F800000#32)) (Host.exp (Host.negf x)))

/-- The edge perceptron's first linear layer, 64 → 32. -/
def lin1E (x : FVec F S1200000x64 .f32) (W : FVec F S64x32 .f32) (b : FVec F S32 .f32) : FVec F S1200000x32 .f32 :=
  addf (Host.dotGeneral dot_S1200000x64_S64x32_S1200000x32_1_0_0_1_n_n none x W)
    (broadcastInDim S1200000x32 ![0, 1] bcast_S1x32_S1200000x32_0_1 (broadcastInDim S1x32 ![1] bcast_S32_S1x32_1 b))

/-- The edge perceptron's second linear layer, 32 → 8. -/
def lin2E (x : FVec F S1200000x32 .f32) (W : FVec F S32x8 .f32) (b : FVec F S8 .f32) : FVec F S1200000x8 .f32 :=
  addf (Host.dotGeneral dot_S1200000x32_S32x8_S1200000x8_1_0_0_1_n_n none x W)
    (broadcastInDim S1200000x8 ![0, 1] bcast_S1x8_S1200000x8_0_1 (broadcastInDim S1x8 ![1] bcast_S8_S1x8_1 b))

/-- The node perceptron's first linear layer, 64 → 32. -/
def lin1N (x : FVec F S100000x64 .f32) (W : FVec F S64x32 .f32) (b : FVec F S32 .f32) : FVec F S100000x32 .f32 :=
  addf (Host.dotGeneral dot_S100000x64_S64x32_S100000x32_1_0_0_1_n_n none x W)
    (broadcastInDim S100000x32 ![0, 1] bcast_S1x32_S100000x32_0_1 (broadcastInDim S1x32 ![1] bcast_S32_S1x32_1 b))

/-- The node perceptron's second linear layer, 32 → 8. -/
def lin2N (x : FVec F S100000x32 .f32) (W : FVec F S32x8 .f32) (b : FVec F S8 .f32) : FVec F S100000x8 .f32 :=
  addf (Host.dotGeneral dot_S100000x32_S32x8_S100000x8_1_0_0_1_n_n none x W)
    (broadcastInDim S100000x8 ![0, 1] bcast_S1x8_S100000x8_0_1 (broadcastInDim S1x8 ![1] bcast_S8_S1x8_1 b))

/-- The source-side attention weights, one row of 8 per edge: the edge perceptron of the message, through the
    logistic. -/
def aSrc (m : FVec F S1200000x64 .f32) (W1 : FVec F S64x32 .f32) (b1 : FVec F S32 .f32) (W2 : FVec F S32x8 .f32)
    (b2 : FVec F S8 .f32) : FVec F S1200000x8 .f32 :=
  logistic S1200000x8 bcast_S_S1200000x8
    (lin2E (leaky S1200000x32 bcast_S_S1200000x32 (lin1E (leaky S1200000x64 bcast_S_S1200000x64 m) W1 b1)) W2 b2)

/-- The destination-side attention weights, one row of 8 per node: the node perceptron of the destination
    features, through the logistic. -/
def aDst (g : FVec F S100000x64 .f32) (W1 : FVec F S64x32 .f32) (b1 : FVec F S32 .f32) (W2 : FVec F S32x8 .f32)
    (b2 : FVec F S8 .f32) : FVec F S100000x8 .f32 :=
  logistic S100000x8 bcast_S_S100000x8
    (lin2N (leaky S100000x32 bcast_S_S100000x32 (lin1N (leaky S100000x64 bcast_S_S100000x64 g) W1 b1)) W2 b2)

/-- The weighted source messages: head `j` of edge `e`'s 8 × 8 block scaled by that edge's weight for head `j`. -/
def upd (a : FVec F S1200000x8 .f32) (ms : FVec F S1200000x64 .f32) : FVec F S1200000x8x8 .f32 :=
  mulf (broadcastInDim S1200000x8x8 ![0, 1, 2] bcast_S1200000x8x1_S1200000x8x8_0_1_2
          (broadcastInDim S1200000x8x1 ![0, 1] bcast_S1200000x8_S1200000x8x1_0_1 a))
    (shapeCast S1200000x8x8 ms shapeCasts_S1200000x64_S1200000x8x8)

/-- The weighted messages summed onto their destination rows, from zero. -/
def agg (ix : IVec S1200000x1 32) (u : FVec F S1200000x8x8 .f32) : FVec F S100000x8x8 .f32 :=
  Host.scatterAdd scatter_S100000x8x8_S1200000x1_S1200000x8x8_12_0_0_1
    (broadcastInDim S100000x8x8 ![] bcast_S_S100000x8x8 (constant S_ .f32 0x00000000#32)) ix u

/-- The result: the destination features scaled head by head by the destination weights, plus the aggregate,
    as a 100000 × 64 array again. -/
def res (a : FVec F S100000x8 .f32) (g : FVec F S100000x64 .f32) (ag : FVec F S100000x8x8 .f32) : FVec F S100000x64 .f32 :=
  shapeCast S100000x64
    (addf (mulf (broadcastInDim S100000x8x8 ![0, 1, 2] bcast_S100000x8x1_S100000x8x8_0_1_2
                  (broadcastInDim S100000x8x1 ![0, 1] bcast_S100000x8_S100000x8x1_0_1 a))
            (shapeCast S100000x8x8 g shapeCasts_S100000x64_S100000x8x8)) ag)
    shapeCasts_S100000x8x8_S100000x64

/-- The source features gathered along the edges. -/
def msgSrc (h : FVec F S100000x64 .f32) (Ws : FVec F S64x64 .f32) (bs : FVec F S64 .f32) (e : IVec S2x1200000 32) :
    FVec F S1200000x64 .f32 :=
  gathered (gS h Ws bs) (normIdx (rowsOf 0 slices_S2x1200000_S1x1200000_0_0 e))

/-- The message of an edge: its source's features plus its destination's. -/
def msg (h : FVec F S100000x64 .f32) (Ws : FVec F S64x64 .f32) (bs : FVec F S64 .f32) (Wd : FVec F S64x64 .f32)
    (bd : FVec F S64 .f32) (e : IVec S2x1200000 32) : FVec F S1200000x64 .f32 :=
  addf (msgSrc h Ws bs e) (gathered (gS h Wd bd) (normIdx (rowsOf 1 slices_S2x1200000_S1x1200000_1_0 e)))

/-- The whole reference as a function of its fourteen argument arrays, in the program's argument order. -/
def out (h : FVec F S100000x64 .f32) (Ws : FVec F S64x64 .f32) (bs : FVec F S64 .f32) (Wd : FVec F S64x64 .f32)
    (bd : FVec F S64 .f32) (W1s : FVec F S64x32 .f32) (b1s : FVec F S32 .f32) (W2s : FVec F S32x8 .f32)
    (b2s : FVec F S8 .f32) (W1d : FVec F S64x32 .f32) (b1d : FVec F S32 .f32) (W2d : FVec F S32x8 .f32)
    (b2d : FVec F S8 .f32) (e : IVec S2x1200000 32) : FVec F S100000x64 .f32 :=
  res (aDst (gS h Wd bd) W1d b1d W2d b2d) (gS h Wd bd)
    (agg (rawIdx (rowsOf 1 slices_S2x1200000_S1x1200000_1_0 e))
      (upd (aSrc (msg h Ws bs Wd bd e) W1s b1s W2s b2s) (msgSrc h Ws bs e)))

/-! ## The run -/

/-- The arrays the line writes, one per operation, in order. -/
abbrev opsW : List (Ref sig .tc) :=
  [ main_v0, main_v1, main_v2, main_v3, main_v4, main_v5, main_v6, main_v7,
    main_v8, main_v9, main_v10, main_v11, main_c, main_v12, main_v13, main_c_0,
    main_v14, main_v15, main_v16, main_v17, main_v18, main_c_1, main_v19, main_v20,
    main_c_2, main_v21, main_v22, main_v23, main_v24, main_v25, main_v26, main_cst,
    main_call0.cst.ref, main_call0.v0.ref, main_call0.v1.ref, main_call0.v2.ref, main_call0.v3.ref, main_call0.v4.ref, main_call0.call0.v0.ref, main_v28,
    main_v29, main_v30, main_v31, main_cst_3, main_call1.cst.ref, main_call1.v0.ref, main_call1.v1.ref, main_call1.v2.ref,
    main_call1.v3.ref, main_call1.v4.ref, main_call1.call0.v0.ref, main_v33, main_v34, main_v35, main_v36, main_v37,
    main_v38, main_cst_4, main_v39, main_v40, main_cst_5, main_v41, main_v42, main_v43,
    main_cst_6, main_call2.cst.ref, main_call2.v0.ref, main_call2.v1.ref, main_call2.v2.ref, main_call2.v3.ref, main_call2.v4.ref, main_call2.call0.v0.ref,
    main_v45, main_v46, main_v47, main_v48, main_cst_7, main_call3.cst.ref, main_call3.v0.ref, main_call3.v1.ref,
    main_call3.v2.ref, main_call3.v3.ref, main_call3.v4.ref, main_call3.call0.v0.ref, main_v50, main_v51, main_v52, main_v53,
    main_v54, main_v55, main_cst_8, main_v56, main_v57, main_cst_9, main_v58, main_v59,
    main_v60, main_v61, main_v62, main_v63, main_cst_10, main_v64, main_v65, main_v66,
    main_v67, main_v68, main_v69, main_v70, main_v71 ]

/-- Each operation writes its own array of that list and nothing else. -/
theorem ops_writes : (ops : List (HloOp τ sig (Elt F))).Forall fun op =>
    op.writes ⊆ (opsW.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- An array the line does not write holds at the end what it held at the start. -/
theorem after_keep (V : Valuation τ sig (Elt F)) (r : Ref sig .tc) (h : r ∉ opsW) :
    after ops V (Proc.devRef .tc r) = V (Proc.devRef .tc r) :=
  after_of_writes_sub ops V ops_writes h

/-- No operation leaves its result undetermined. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
set_option maxHeartbeats 8000000 in
/-- The result array after the line: each operation's result read at its own array, every other array passed
    over, down to the arguments; what is left is `out` of the arguments, stage by stage. -/
theorem after_out (V : Valuation τ sig (Elt F)) :
    after ops V (Proc.devRef .tc main_v71)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  after_results_simp
  rfl

/-- On every device, for any float values, from any memory with zero counters: every weakly fair execution of the
    program terminates with the result array at `out` of the argument arrays' launch contents, and the
    argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v71) = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v71).trans (after_out _),
      (h c main_arg0).trans (after_keep _ main_arg0 (by decide)),
      (h c main_arg1).trans (after_keep _ main_arg1 (by decide)),
      (h c main_arg2).trans (after_keep _ main_arg2 (by decide)),
      (h c main_arg3).trans (after_keep _ main_arg3 (by decide)),
      (h c main_arg4).trans (after_keep _ main_arg4 (by decide)),
      (h c main_arg5).trans (after_keep _ main_arg5 (by decide)),
      (h c main_arg6).trans (after_keep _ main_arg6 (by decide)),
      (h c main_arg7).trans (after_keep _ main_arg7 (by decide)),
      (h c main_arg8).trans (after_keep _ main_arg8 (by decide)),
      (h c main_arg9).trans (after_keep _ main_arg9 (by decide)),
      (h c main_arg10).trans (after_keep _ main_arg10 (by decide)),
      (h c main_arg11).trans (after_keep _ main_arg11 (by decide)),
      (h c main_arg12).trans (after_keep _ main_arg12 (by decide)),
      (h c main_arg13).trans (after_keep _ main_arg13 (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.KernelRows.lean ====
/-
  The idealized kernel's result read at one index.

  Read at node `n`, feature `f`, the kernel's term is: the gate of the node's destination message at the
  feature's head, times the destination message, plus the sum — over the edges whose destination entry, read
  as a signed number, is `n` — of the gate of the edge's summed message at that head times the edge's source
  message.  A bias staged as a one-row block is the bias vector again, column by column; the scatter that
  accumulates the weighted messages, read at a row, is the sum over the edges pointing at that row, its
  zero operand contributing nothing.
-/
import proofs.«158389_j12567074308479_1_alg».proof.Proof.KernelTerm
import proofs.«158389_j12567074308479_1_alg».proof.Proof.LibScatterRows

noncomputable section

open scoped BigOperators

namespace Cert.KernelIdeal.TermRows

open Idealize.ShloMosaic Idealize.ShloMosaic.ValueIdx RowSpec
open Cert.KernelIdeal Cert.KernelIdeal.Gen

/-- A node row through the affine layer: the bias, staged as one row, is the bias vector column by column. -/
theorem layer_apply (h : FVec Ideal S100000x64 .f32) (W : FVec Ideal S64x64 .f32) (b : FVec Ideal S64 .f32)
    (n : Fin 100000) (j : Fin 64) :
    Term.layer h W b (ix2 n j) = aff W (fun j => b (ix1 j)) (fun k => h (ix2 n k)) j := by
  show aff W (fun j => shapeCast S1x64 b shapeCasts_S64_S1x64 (ix2 (0 : Fin 1) j)) (fun k => h (ix2 n k)) j = _
  simp only [shapeCast_a_1a_apply]

/-- The index table the scatter reads, at `(r, 0)`: entry `r` of the vector, as it is. -/
theorem rawIdx_apply (v : IVec S1200000 32) (r : Fin 1200000) :
    HostReads.rawIdx v (ix2 r 0) = v (ix1 r) :=
  broadcastInDim_apply _ bcast_S1200000_S1200000x1_0 v (ix2 r 0) (ix1 r) (fun a => by
    match a with
    | ⟨0, _⟩ => rfl)

/-- An edge's weighted message at feature `f`: the gate of the edge's summed message at `f`'s head times the
    source message. -/
theorem weighted_apply (h : FVec Ideal S100000x64 .f32) (Ws : FVec Ideal S64x64 .f32) (bs : FVec Ideal S64 .f32)
    (Wd : FVec Ideal S64x64 .f32) (bd : FVec Ideal S64 .f32) (W1s : FVec Ideal S64x32 .f32) (b1s : FVec Ideal S32 .f32)
    (W2s : FVec Ideal S32x8 .f32) (b2s : FVec Ideal S8 .f32)
    (e : IVec S2x1200000 32) (r : Fin 1200000) (f : Fin 64) :
    Term.weighted h Ws bs Wd bd W1s b1s W2s b2s e (ix2 r f)
      = gate W1s (fun j => b1s (ix1 j)) W2s (fun k => b2s (ix1 k))
            (fun i => Term.sumAtEdges h Ws bs Wd bd e (ix2 r i)) (head f)
          * Term.srcAtEdges h Ws bs e (ix2 r f) := by
  show gate W1s (fun j => shapeCast S1x32 b1s shapeCasts_S32_S1x32 (ix2 (0 : Fin 1) j)) W2s
        (fun j => shapeCast S1x8 b2s shapeCasts_S8_S1x8 (ix2 (0 : Fin 1) j))
        (fun i => Term.sumAtEdges h Ws bs Wd bd e (ix2 r i)) (head f) * Term.srcAtEdges h Ws bs e (ix2 r f) = _
  simp only [shapeCast_a_1a_apply]

/-- The aggregate is the accumulating scatter of the weighted messages onto the zero array. -/
theorem aggregate_eq (h : FVec Ideal S100000x64 .f32) (Ws : FVec Ideal S64x64 .f32) (bs : FVec Ideal S64 .f32)
    (Wd : FVec Ideal S64x64 .f32) (bd : FVec Ideal S64 .f32) (W1s : FVec Ideal S64x32 .f32) (b1s : FVec Ideal S32 .f32)
    (W2s : FVec Ideal S32x8 .f32) (b2s : FVec Ideal S8 .f32)
    (e : IVec S2x1200000 32) :
    Term.aggregate h Ws bs Wd bd W1s b1s W2s b2s e
      = Ideal.hostScatterAdd scatter_S100000x64_S1200000x1_S1200000x64_1_0_0_1
          (broadcastInDim S100000x64 ![] bcast_S_S100000x64 (constant (F := Ideal) S_ .f32 0x00000000#32))
          (HostReads.rawIdx (HostReads.rowsOf 1 slices_S2x1200000_S1x1200000_1_0 e)) (Term.weighted h Ws bs Wd bd W1s b1s W2s b2s e) := rfl

/-- The aggregate at `(n, f)`: the sum, over the edges whose destination entry (read signed) is `n`, of the
    weighted message at `(r, f)`; an edge whose entry is outside `[0, 100000)` contributes nothing. -/
theorem aggregate_apply (h : FVec Ideal S100000x64 .f32) (Ws : FVec Ideal S64x64 .f32) (bs : FVec Ideal S64 .f32)
    (Wd : FVec Ideal S64x64 .f32) (bd : FVec Ideal S64 .f32) (W1s : FVec Ideal S64x32 .f32) (b1s : FVec Ideal S32 .f32)
    (W2s : FVec Ideal S32x8 .f32) (b2s : FVec Ideal S8 .f32)
    (e : IVec S2x1200000 32) (n : Fin 100000) (f : Fin 64) :
    Term.aggregate h Ws bs Wd bd W1s b1s W2s b2s e (ix2 n f)
      = ∑ r ∈ Finset.univ.filter (fun r : Fin 1200000 => (HostReads.rowsOf 1 slices_S2x1200000_S1x1200000_1_0 e (ix1 r)).toInt = (n.val : Int)),
          Term.weighted h Ws bs Wd bd W1s b1s W2s b2s e (ix2 r f) := by
  have key := ScatterRows.hostScatterAdd_rows2 scatter_S100000x64_S1200000x1_S1200000x64_1_0_0_1 rfl rfl rfl rfl
    (broadcastInDim S100000x64 ![] bcast_S_S100000x64 (constant (F := Ideal) S_ .f32 0x00000000#32))
    (HostReads.rawIdx (HostReads.rowsOf 1 slices_S2x1200000_S1x1200000_1_0 e)) (Term.weighted h Ws bs Wd bd W1s b1s W2s b2s e) n f
  have hz : broadcastInDim S100000x64 ![] bcast_S_S100000x64 (constant (F := Ideal) S_ .f32 0x00000000#32) (ix2 n f)
      = (0 : EReal) := Ideal.ofBits_zero_f32
  rw [hz, zero_add] at key
  simp only [rawIdx_apply] at key
  rw [aggregate_eq]
  exact key

/-- THE COMMON FORM. The kernel's result at `(n, f)`: the destination gate of node `n` at feature `f`'s head
    times the destination message, plus the sum over the edges whose destination entry (read signed) is `n` of
    the source gate of the edge's summed message at that head times the edge's source message. -/
theorem result_apply (h : FVec Ideal S100000x64 .f32) (Ws : FVec Ideal S64x64 .f32) (bs : FVec Ideal S64 .f32)
    (Wd : FVec Ideal S64x64 .f32) (bd : FVec Ideal S64 .f32) (W1s : FVec Ideal S64x32 .f32) (b1s : FVec Ideal S32 .f32)
    (W2s : FVec Ideal S32x8 .f32) (b2s : FVec Ideal S8 .f32)
    (W1d : FVec Ideal S64x32 .f32) (b1d : FVec Ideal S32 .f32)
    (W2d : FVec Ideal S32x8 .f32) (b2d : FVec Ideal S8 .f32)
    (e : IVec S2x1200000 32) (n : Fin 100000) (f : Fin 64) :
    Term.result h Ws bs Wd bd W1s b1s W2s b2s W1d b1d W2d b2d e (ix2 n f)
      = gate W1d (fun j => b1d (ix1 j)) W2d (fun k => b2d (ix1 k)) (fun i => Term.layer h Wd bd (ix2 n i)) (head f)
          * Term.layer h Wd bd (ix2 n f)
        + ∑ r ∈ Finset.univ.filter (fun r : Fin 1200000 => (HostReads.rowsOf 1 slices_S2x1200000_S1x1200000_1_0 e (ix1 r)).toInt = (n.val : Int)),
            gate W1s (fun j => b1s (ix1 j)) W2s (fun k => b2s (ix1 k))
                (fun i => Term.sumAtEdges h Ws bs Wd bd e (ix2 r i)) (head f)
              * Term.srcAtEdges h Ws bs e (ix2 r f) := by
  have hs : ∀ r : Fin 1200000, Term.weighted h Ws bs Wd bd W1s b1s W2s b2s e (ix2 r f)
      = gate W1s (fun j => b1s (ix1 j)) W2s (fun k => b2s (ix1 k))
            (fun i => Term.sumAtEdges h Ws bs Wd bd e (ix2 r i)) (head f)
          * Term.srcAtEdges h Ws bs e (ix2 r f) := fun r =>
    weighted_apply h Ws bs Wd bd W1s b1s W2s b2s e r f
  show gate W1d (fun j => shapeCast S1x32 b1d shapeCasts_S32_S1x32 (ix2 (0 : Fin 1) j)) W2d
        (fun j => shapeCast S1x8 b2d shapeCasts_S8_S1x8 (ix2 (0 : Fin 1) j))
        (fun i => Term.layer h Wd bd (ix2 n i)) (head f) * Term.layer h Wd bd (ix2 n f)
      + Term.aggregate h Ws bs Wd bd W1s b1s W2s b2s e (ix2 n f) = _
  rw [aggregate_apply]
  simp only [shapeCast_a_1a_apply, hs]

end Cert.KernelIdeal.TermRows

end
-- ==== Proof.RefRows.lean ====
/-
  The reference program's stages read at an index, at the ideal values.

  Each stage is a whole-array operation; read at one index it is the row function of the specification: an
  affine layer of a row, the leaky rectifier and the logistic of an element, the attention gate of a row, and
  the head axis that regroups a row's 64 features as 8 heads of 8 places.  The lemmas are stated for any number
  of rows; the dimension records and shape facts of a program are arguments.
-/
import proofs.«158389_j12567074308479_1_alg».proof.ReferenceIdeal
import proofs.«158389_j12567074308479_1_alg».proof.Proof.RowSpec
import proofs.«158389_j12567074308479_1_alg».proof.Proof.LibDotRows
import proofs.«158389_j12567074308479_1_alg».proof.Proof.HeadTable
import Idealize.ShloMosaic.Lib.ValueLayout
import Idealize.ShloMosaic.Lib.Pipeline.Value

noncomputable section

open scoped BigOperators

namespace Cert.ReferenceIdeal.RefRows

open Idealize.ShloMosaic Idealize.ShloMosaic.ValueIdx RowSpec

/-! ## The stages, as whole-array operations -/

/-- An affine layer on every row: the product with the weights, plus the bias laid out as one row and
    repeated down the rows. -/
abbrev affOp {R K J : Nat} (d : DotDims ⟨2, ![R, K]⟩ ⟨2, ![K, J]⟩ ⟨2, ![R, J]⟩)
    (h1J : (⟨1, ![J]⟩ : Shape).BroadcastsInDim ⟨2, ![1, J]⟩ (![1] : Fin 1 → Fin 2))
    (hRJ : (⟨2, ![1, J]⟩ : Shape).BroadcastsInDim ⟨2, ![R, J]⟩ (![0, 1] : Fin 2 → Fin 2))
    (x : FVec Ideal ⟨2, ![R, K]⟩ .f32) (W : FVec Ideal ⟨2, ![K, J]⟩ .f32) (b : FVec Ideal ⟨1, ![J]⟩ .f32) :
    FVec Ideal ⟨2, ![R, J]⟩ .f32 :=
  addf (Host.dotGeneral d none x W)
    (broadcastInDim ⟨2, ![R, J]⟩ ![0, 1] hRJ (broadcastInDim ⟨2, ![1, J]⟩ ![1] h1J b))

/-- The leaky rectifier on every element: where `x ≥ 0` keep `x`, elsewhere the slope times `x`; the zero and
    the slope are scalars repeated over the whole shape. -/
abbrev leakyOp {s : Shape} (hb : (⟨0, ![]⟩ : Shape).BroadcastsInDim s (![] : Fin 0 → Fin s.rank))
    (x : FVec Ideal s .f32) : FVec Ideal s .f32 :=
  select (cmpf .oge x (broadcastInDim s ![] hb (constant ⟨0, ![]⟩ .f32 0x00000000#32))) x
    (mulf (broadcastInDim s ![] hb (id (constant ⟨0, ![]⟩ .f32 0x3E4CCCCD#32))) x)

/-- The logistic on every element, spelt `1 / (1 + exp (-x))` with the ones scalars repeated over the shape. -/
abbrev logisticOp {s : Shape} (hb : (⟨0, ![]⟩ : Shape).BroadcastsInDim s (![] : Fin 0 → Fin s.rank))
    (x : FVec Ideal s .f32) : FVec Ideal s .f32 :=
  Host.divf (broadcastInDim s ![] hb (constant ⟨0, ![]⟩ .f32 0x3F800000#32))
    (addf (broadcastInDim s ![] hb (constant ⟨0, ![]⟩ .f32 0x3F800000#32)) (Host.exp (Host.negf x)))

/-- The four coordinate facts (and the two about the contraction shape) saying that a record of dimension numbers
    is the plain product `[R, K] · [K, J]`: left axis 1 contracted with right axis 0, no batch axis. For a record
    given by literal lists every field is `rfl`. -/
structure PlainDot {R K J : Nat} (d : DotDims ⟨2, ![R, K]⟩ ⟨2, ![K, J]⟩ ⟨2, ![R, J]⟩) : Prop where
  hr : d.contr.rank = 1
  hs : d.contr.size ⟨0, by omega⟩ = K
  h1 : ∀ j k, (d.lhsIdx j k 0).val = (j 0).val
  h2 : ∀ j k, (d.lhsIdx j k 1).val = (k ⟨0, by omega⟩).val
  h3 : ∀ j k, (d.rhsIdx j k 0).val = (k ⟨0, by omega⟩).val
  h4 : ∀ j k, (d.rhsIdx j k 1).val = (j 1).val

/-! ## The stages read at an index -/

/-- A bias row repeated down the rows, read at `(r, j)`: entry `j` of the bias. -/
theorem biasOp_apply {R J : Nat}
    (h1J : (⟨1, ![J]⟩ : Shape).BroadcastsInDim ⟨2, ![1, J]⟩ (![1] : Fin 1 → Fin 2))
    (hRJ : (⟨2, ![1, J]⟩ : Shape).BroadcastsInDim ⟨2, ![R, J]⟩ (![0, 1] : Fin 2 → Fin 2))
    {α : Type} (b : (⟨1, ![J]⟩ : Shape).Idx → α) (r : Fin R) (j : Fin J) :
    broadcastInDim ⟨2, ![R, J]⟩ ![0, 1] hRJ (broadcastInDim ⟨2, ![1, J]⟩ ![1] h1J b) (ix2 r j) = b (ix1 j) := by
  rw [broadcastInDim_apply _ hRJ _ (ix2 r j) (ix2 (0 : Fin 1) j) (fun a => by
    match a with
    | ⟨0, _⟩ => rfl
    | ⟨1, _⟩ =>
      show j.val = if J = 1 then 0 else j.val
      split
      · have := j.isLt; omega
      · rfl)]
  exact broadcastInDim_apply _ h1J b (ix2 (0 : Fin 1) j) (ix1 j) (fun a => by
    match a with
    | ⟨0, _⟩ =>
      show j.val = if J = 1 then 0 else j.val
      split
      · have := j.isLt; omega
      · rfl)

/-- The affine stage read at `(r, j)`: the affine layer of row `r`. -/
theorem affOp_apply {R K J : Nat} (d : DotDims ⟨2, ![R, K]⟩ ⟨2, ![K, J]⟩ ⟨2, ![R, J]⟩) (hd : PlainDot d)
    (h1J : (⟨1, ![J]⟩ : Shape).BroadcastsInDim ⟨2, ![1, J]⟩ (![1] : Fin 1 → Fin 2))
    (hRJ : (⟨2, ![1, J]⟩ : Shape).BroadcastsInDim ⟨2, ![R, J]⟩ (![0, 1] : Fin 2 → Fin 2))
    (x : FVec Ideal ⟨2, ![R, K]⟩ .f32) (W : FVec Ideal ⟨2, ![K, J]⟩ .f32) (b : FVec Ideal ⟨1, ![J]⟩ .f32)
    (r : Fin R) (j : Fin J) :
    affOp d h1J hRJ x W b (ix2 r j) = aff W (fun j => b (ix1 j)) (fun k => x (ix2 r k)) j := by
  show FloatOps.dotGeneral d none .single x W (ix2 r j) + _ = _
  rw [dotGeneral_rows d none .single hd.hr hd.hs hd.h1 hd.h2 hd.h3 hd.h4, biasOp_apply h1J hRJ b r j]
  rfl

/-- The leaky rectifier read at an index: the scalar rectifier of the element. -/
theorem leakyOp_apply {s : Shape} (hb : (⟨0, ![]⟩ : Shape).BroadcastsInDim s (![] : Fin 0 → Fin s.rank))
    (x : FVec Ideal s .f32) (i : s.Idx) : leakyOp hb x i = leaky (x i) := rfl

/-- The logistic read at an index: the scalar logistic of the element. -/
theorem logisticOp_apply {s : Shape} (hb : (⟨0, ![]⟩ : Shape).BroadcastsInDim s (![] : Fin 0 → Fin s.rank))
    (x : FVec Ideal s .f32) (i : s.Idx) : logisticOp hb x i = Ideal.logistic (x i) := by
  show Ideal.div (Ideal.ofBits .f32 0x3F800000#32) (Ideal.ofBits .f32 0x3F800000#32 + Ideal.exp (-(x i))) = _
  rw [Cert.HeadTable.ofBits_one_f32]
  rfl

/-! ## The attention gate: rectifier, layer, rectifier, layer, logistic -/

/-- The gate on every row of a `[R, 64]` array. -/
abbrev gateOp {R : Nat}
    (d1 : DotDims ⟨2, ![R, 64]⟩ ⟨2, ![64, 32]⟩ ⟨2, ![R, 32]⟩) (d2 : DotDims ⟨2, ![R, 32]⟩ ⟨2, ![32, 8]⟩ ⟨2, ![R, 8]⟩)
    (hb64 : (⟨0, ![]⟩ : Shape).BroadcastsInDim ⟨2, ![R, 64]⟩ (![] : Fin 0 → Fin 2))
    (hb32 : (⟨0, ![]⟩ : Shape).BroadcastsInDim ⟨2, ![R, 32]⟩ (![] : Fin 0 → Fin 2))
    (hb8 : (⟨0, ![]⟩ : Shape).BroadcastsInDim ⟨2, ![R, 8]⟩ (![] : Fin 0 → Fin 2))
    (h1_32 : (⟨1, ![32]⟩ : Shape).BroadcastsInDim ⟨2, ![1, 32]⟩ (![1] : Fin 1 → Fin 2))
    (hR32 : (⟨2, ![1, 32]⟩ : Shape).BroadcastsInDim ⟨2, ![R, 32]⟩ (![0, 1] : Fin 2 → Fin 2))
    (h1_8 : (⟨1, ![8]⟩ : Shape).BroadcastsInDim ⟨2, ![1, 8]⟩ (![1] : Fin 1 → Fin 2))
    (hR8 : (⟨2, ![1, 8]⟩ : Shape).BroadcastsInDim ⟨2, ![R, 8]⟩ (![0, 1] : Fin 2 → Fin 2))
    (y : FVec Ideal ⟨2, ![R, 64]⟩ .f32)
    (W1 : FVec Ideal ⟨2, ![64, 32]⟩ .f32) (b1 : FVec Ideal ⟨1, ![32]⟩ .f32)
    (W2 : FVec Ideal ⟨2, ![32, 8]⟩ .f32) (b2 : FVec Ideal ⟨1, ![8]⟩ .f32) : FVec Ideal ⟨2, ![R, 8]⟩ .f32 :=
  logisticOp hb8 (affOp d2 h1_8 hR8 (leakyOp hb32 (affOp d1 h1_32 hR32 (leakyOp hb64 y) W1 b1)) W2 b2)

/-- The gate read at `(r, k)`: head `k` of the gate of row `r`. -/
theorem gateOp_apply {R : Nat}
    (d1 : DotDims ⟨2, ![R, 64]⟩ ⟨2, ![64, 32]⟩ ⟨2, ![R, 32]⟩) (hd1 : PlainDot d1)
    (d2 : DotDims ⟨2, ![R, 32]⟩ ⟨2, ![32, 8]⟩ ⟨2, ![R, 8]⟩) (hd2 : PlainDot d2)
    (hb64 : (⟨0, ![]⟩ : Shape).BroadcastsInDim ⟨2, ![R, 64]⟩ (![] : Fin 0 → Fin 2))
    (hb32 : (⟨0, ![]⟩ : Shape).BroadcastsInDim ⟨2, ![R, 32]⟩ (![] : Fin 0 → Fin 2))
    (hb8 : (⟨0, ![]⟩ : Shape).BroadcastsInDim ⟨2, ![R, 8]⟩ (![] : Fin 0 → Fin 2))
    (h1_32 : (⟨1, ![32]⟩ : Shape).BroadcastsInDim ⟨2, ![1, 32]⟩ (![1] : Fin 1 → Fin 2))
    (hR32 : (⟨2, ![1, 32]⟩ : Shape).BroadcastsInDim ⟨2, ![R, 32]⟩ (![0, 1] : Fin 2 → Fin 2))
    (h1_8 : (⟨1, ![8]⟩ : Shape).BroadcastsInDim ⟨2, ![1, 8]⟩ (![1] : Fin 1 → Fin 2))
    (hR8 : (⟨2, ![1, 8]⟩ : Shape).BroadcastsInDim ⟨2, ![R, 8]⟩ (![0, 1] : Fin 2 → Fin 2))
    (y : FVec Ideal ⟨2, ![R, 64]⟩ .f32)
    (W1 : FVec Ideal ⟨2, ![64, 32]⟩ .f32) (b1 : FVec Ideal ⟨1, ![32]⟩ .f32)
    (W2 : FVec Ideal ⟨2, ![32, 8]⟩ .f32) (b2 : FVec Ideal ⟨1, ![8]⟩ .f32) (r : Fin R) (k : Fin 8) :
    gateOp d1 d2 hb64 hb32 hb8 h1_32 hR32 h1_8 hR8 y W1 b1 W2 b2 (ix2 r k)
      = gate W1 (fun j => b1 (ix1 j)) W2 (fun k => b2 (ix1 k)) (fun i => y (ix2 r i)) k := by
  have hin : (fun j => leakyOp hb32 (affOp d1 h1_32 hR32 (leakyOp hb64 y) W1 b1) (ix2 r j))
      = fun j => leaky (aff W1 (fun j => b1 (ix1 j)) (fun i => leaky (y (ix2 r i))) j) := by
    funext j
    rw [leakyOp_apply, affOp_apply d1 hd1]
    rfl
  show logisticOp hb8 (affOp d2 h1_8 hR8 (leakyOp hb32 (affOp d1 h1_32 hR32 (leakyOp hb64 y) W1 b1)) W2 b2) (ix2 r k) = _
  rw [logisticOp_apply, affOp_apply d2 hd2]
  unfold gate
  exact congrArg (fun g => Ideal.logistic (aff W2 (fun k => b2 (ix1 k)) g k)) hin

/-! ## The head axis: `[R, 64]` regrouped as `[R, 8, 8]`, feature `f` at head `f / 8`, place `f % 8` -/

/-- A `[R, 64]` array regrouped as `[R, 8, 8]`, read at `(r, h, k)`: feature `8 h + k` of row `r`. -/
theorem heads_apply {R : Nat} {α : Type} (hc : (⟨2, ![R, 64]⟩ : Shape).ShapeCasts ⟨3, ![R, 8, 8]⟩)
    (x : (⟨2, ![R, 64]⟩ : Shape).Idx → α) (r : Fin R) (h k : Fin 8) :
    shapeCast ⟨3, ![R, 8, 8]⟩ x hc (ix3 r h k) = x (ix2 r ⟨8 * h.val + k.val, by omega⟩) := by
  refine shapeCast_apply x hc (ix3 r h k) (ix2 r ⟨8 * h.val + k.val, by omega⟩) ?_
  rw [Shape.rowMajor_val_two, Shape.rowMajor_val_three]
  show r.val * 64 + (8 * h.val + k.val) = (r.val * 8 + h.val) * 8 + k.val
  omega

/-- A `[R, 8, 8]` array laid out as `[R, 64]`, read at `(n, f)`: head `f / 8`, place `f % 8` of row `n`. -/
theorem unheads_apply {R : Nat} {α : Type} (hc : (⟨3, ![R, 8, 8]⟩ : Shape).ShapeCasts ⟨2, ![R, 64]⟩)
    (y : (⟨3, ![R, 8, 8]⟩ : Shape).Idx → α) (n : Fin R) (f : Fin 64) :
    shapeCast ⟨2, ![R, 64]⟩ y hc (ix2 n f) = y (ix3 n ⟨f.val / 8, by omega⟩ ⟨f.val % 8, by omega⟩) := by
  refine shapeCast_apply y hc (ix2 n f) (ix3 n ⟨f.val / 8, by omega⟩ ⟨f.val % 8, by omega⟩) ?_
  rw [Shape.rowMajor_val_two, Shape.rowMajor_val_three]
  show (n.val * 8 + f.val / 8) * 8 + f.val % 8 = n.val * 64 + f.val
  omega

/-- One number per (row, head) repeated over the eight places of the head, read at `(r, h, k)`. -/
theorem spread_apply {R : Nat} {α : Type}
    (h2 : (⟨2, ![R, 8]⟩ : Shape).BroadcastsInDim ⟨3, ![R, 8, 1]⟩ (![0, 1] : Fin 2 → Fin 3))
    (h3 : (⟨3, ![R, 8, 1]⟩ : Shape).BroadcastsInDim ⟨3, ![R, 8, 8]⟩ (![0, 1, 2] : Fin 3 → Fin 3))
    (a : (⟨2, ![R, 8]⟩ : Shape).Idx → α) (r : Fin R) (h k : Fin 8) :
    broadcastInDim ⟨3, ![R, 8, 8]⟩ ![0, 1, 2] h3 (broadcastInDim ⟨3, ![R, 8, 1]⟩ ![0, 1] h2 a) (ix3 r h k)
      = a (ix2 r h) := by
  rw [broadcastInDim_apply _ h3 _ (ix3 r h k) (ix3 r h (0 : Fin 1)) (fun ax => by
    match ax with
    | ⟨0, _⟩ =>
      show r.val = if R = 1 then 0 else r.val
      split
      · have := r.isLt; omega
      · rfl
    | ⟨1, _⟩ => rfl
    | ⟨2, _⟩ => rfl)]
  exact broadcastInDim_apply _ h2 a (ix3 r h (0 : Fin 1)) (ix2 r h) (fun ax => by
    match ax with
    | ⟨0, _⟩ =>
      show r.val = if R = 1 then 0 else r.val
      split
      · have := r.isLt; omega
      · rfl
    | ⟨1, _⟩ => rfl)

/-- The gate weights spread over the heads' places, times the features regrouped by head. -/
abbrev headMulOp {R : Nat}
    (h2 : (⟨2, ![R, 8]⟩ : Shape).BroadcastsInDim ⟨3, ![R, 8, 1]⟩ (![0, 1] : Fin 2 → Fin 3))
    (h3 : (⟨3, ![R, 8, 1]⟩ : Shape).BroadcastsInDim ⟨3, ![R, 8, 8]⟩ (![0, 1, 2] : Fin 3 → Fin 3))
    (hc : (⟨2, ![R, 64]⟩ : Shape).ShapeCasts ⟨3, ![R, 8, 8]⟩)
    (a : FVec Ideal ⟨2, ![R, 8]⟩ .f32) (x : FVec Ideal ⟨2, ![R, 64]⟩ .f32) : FVec Ideal ⟨3, ![R, 8, 8]⟩ .f32 :=
  mulf (broadcastInDim ⟨3, ![R, 8, 8]⟩ ![0, 1, 2] h3 (broadcastInDim ⟨3, ![R, 8, 1]⟩ ![0, 1] h2 a))
    (shapeCast ⟨3, ![R, 8, 8]⟩ x hc)

/-- That product read at `(r, h, k)`: the weight of head `h` of row `r` times feature `8 h + k` of the row. -/
theorem headMulOp_apply {R : Nat}
    (h2 : (⟨2, ![R, 8]⟩ : Shape).BroadcastsInDim ⟨3, ![R, 8, 1]⟩ (![0, 1] : Fin 2 → Fin 3))
    (h3 : (⟨3, ![R, 8, 1]⟩ : Shape).BroadcastsInDim ⟨3, ![R, 8, 8]⟩ (![0, 1, 2] : Fin 3 → Fin 3))
    (hc : (⟨2, ![R, 64]⟩ : Shape).ShapeCasts ⟨3, ![R, 8, 8]⟩)
    (a : FVec Ideal ⟨2, ![R, 8]⟩ .f32) (x : FVec Ideal ⟨2, ![R, 64]⟩ .f32) (r : Fin R) (h k : Fin 8) :
    headMulOp h2 h3 hc a x (ix3 r h k) = a (ix2 r h) * x (ix2 r ⟨8 * h.val + k.val, by omega⟩) := by
  show broadcastInDim ⟨3, ![R, 8, 8]⟩ ![0, 1, 2] h3 (broadcastInDim ⟨3, ![R, 8, 1]⟩ ![0, 1] h2 a) (ix3 r h k)
    * shapeCast ⟨3, ![R, 8, 8]⟩ x hc (ix3 r h k) = _
  rw [spread_apply h2 h3 a r h k, heads_apply hc x r h k]

/-! ## The program's five products are plain -/

section Printed
variable [Facts₀]

theorem plain_100000x64_64x64 : PlainDot dot_S100000x64_S64x64_S100000x64_1_0_0_1_n_n :=
  ⟨rfl, rfl, fun _ _ => rfl, fun _ _ => rfl, fun _ _ => rfl, fun _ _ => rfl⟩
theorem plain_1200000x64_64x32 : PlainDot dot_S1200000x64_S64x32_S1200000x32_1_0_0_1_n_n :=
  ⟨rfl, rfl, fun _ _ => rfl, fun _ _ => rfl, fun _ _ => rfl, fun _ _ => rfl⟩
theorem plain_1200000x32_32x8 : PlainDot dot_S1200000x32_S32x8_S1200000x8_1_0_0_1_n_n :=
  ⟨rfl, rfl, fun _ _ => rfl, fun _ _ => rfl, fun _ _ => rfl, fun _ _ => rfl⟩
theorem plain_100000x64_64x32 : PlainDot dot_S100000x64_S64x32_S100000x32_1_0_0_1_n_n :=
  ⟨rfl, rfl, fun _ _ => rfl, fun _ _ => rfl, fun _ _ => rfl, fun _ _ => rfl⟩
theorem plain_100000x32_32x8 : PlainDot dot_S100000x32_S32x8_S100000x8_1_0_0_1_n_n :=
  ⟨rfl, rfl, fun _ _ => rfl, fun _ _ => rfl, fun _ _ => rfl, fun _ _ => rfl⟩

end Printed

end Cert.ReferenceIdeal.RefRows

end
-- ==== Proof.RefRunRows.lean ====
/-
  The reference program's named stages read at an index, at the ideal values.

  Each stage of the reference is a function of whole arrays; read at one index it is the row function of the
  specification.  The last two statements put the stages together: the result at node `n`, feature `f` is the
  destination gate times the destination feature plus a sum over the edges that point at `n` — the form the
  other program is reduced to as well.
-/
import proofs.«158389_j12567074308479_1_alg».proof.Proof.RefRun
import proofs.«158389_j12567074308479_1_alg».proof.Proof.RefRows
import proofs.«158389_j12567074308479_1_alg».proof.Proof.LibScatterRows

noncomputable section

open scoped BigOperators

namespace Cert.ReferenceIdeal.RefRows

open Idealize.ShloMosaic Idealize.ShloMosaic.ValueIdx RowSpec Cert.ReferenceIdeal.Gen

/-! ## The linear layers -/

/-- The node layer `h · W + b` read at `(r, j)`. -/
theorem gS_apply (h : FVec Ideal S100000x64 .f32) (W : FVec Ideal S64x64 .f32) (b : FVec Ideal S64 .f32)
    (r : Fin 100000) (j : Fin 64) :
    RefRun.gS h W b (ix2 r j) = aff W (fun j => b (ix1 j)) (fun k => h (ix2 r k)) j :=
  affOp_apply _ plain_100000x64_64x64 _ _ h W b r j

/-- The edge perceptron's first layer read at `(e, j)`. -/
theorem lin1E_apply (x : FVec Ideal S1200000x64 .f32) (W : FVec Ideal S64x32 .f32) (b : FVec Ideal S32 .f32)
    (e : Fin 1200000) (j : Fin 32) :
    RefRun.lin1E x W b (ix2 e j) = aff W (fun j => b (ix1 j)) (fun k => x (ix2 e k)) j :=
  affOp_apply _ plain_1200000x64_64x32 _ _ x W b e j

/-- The edge perceptron's second layer read at `(e, k)`. -/
theorem lin2E_apply (x : FVec Ideal S1200000x32 .f32) (W : FVec Ideal S32x8 .f32) (b : FVec Ideal S8 .f32)
    (e : Fin 1200000) (k : Fin 8) :
    RefRun.lin2E x W b (ix2 e k) = aff W (fun j => b (ix1 j)) (fun i => x (ix2 e i)) k :=
  affOp_apply _ plain_1200000x32_32x8 _ _ x W b e k

/-- The node perceptron's first layer read at `(n, j)`. -/
theorem lin1N_apply (x : FVec Ideal S100000x64 .f32) (W : FVec Ideal S64x32 .f32) (b : FVec Ideal S32 .f32)
    (n : Fin 100000) (j : Fin 32) :
    RefRun.lin1N x W b (ix2 n j) = aff W (fun j => b (ix1 j)) (fun k => x (ix2 n k)) j :=
  affOp_apply _ plain_100000x64_64x32 _ _ x W b n j

/-- The node perceptron's second layer read at `(n, k)`. -/
theorem lin2N_apply (x : FVec Ideal S100000x32 .f32) (W : FVec Ideal S32x8 .f32) (b : FVec Ideal S8 .f32)
    (n : Fin 100000) (k : Fin 8) :
    RefRun.lin2N x W b (ix2 n k) = aff W (fun j => b (ix1 j)) (fun i => x (ix2 n i)) k :=
  affOp_apply _ plain_100000x32_32x8 _ _ x W b n k

/-! ## The rectifier, the logistic, the gates -/

/-- The rectifier read at an index. -/
theorem leaky_apply (s : Shape) (hb : S_.BroadcastsInDim s (![] : Fin 0 → Fin s.rank)) (x : FVec Ideal s .f32)
    (i : s.Idx) : RefRun.leaky s hb x i = leaky (x i) := rfl

/-- The logistic read at an index. -/
theorem logistic_apply (s : Shape) (hb : S_.BroadcastsInDim s (![] : Fin 0 → Fin s.rank)) (x : FVec Ideal s .f32)
    (i : s.Idx) : RefRun.logistic s hb x i = Ideal.logistic (x i) :=
  logisticOp_apply hb x i

/-- The source-side weights read at `(e, k)`: head `k` of the gate of edge `e`'s message. -/
theorem aSrc_apply (m : FVec Ideal S1200000x64 .f32) (W1 : FVec Ideal S64x32 .f32) (b1 : FVec Ideal S32 .f32)
    (W2 : FVec Ideal S32x8 .f32) (b2 : FVec Ideal S8 .f32) (e : Fin 1200000) (k : Fin 8) :
    RefRun.aSrc m W1 b1 W2 b2 (ix2 e k)
      = gate W1 (fun j => b1 (ix1 j)) W2 (fun k => b2 (ix1 k)) (fun i => m (ix2 e i)) k :=
  gateOp_apply _ plain_1200000x64_64x32 _ plain_1200000x32_32x8 _ _ _ _ _ _ _ m W1 b1 W2 b2 e k

/-- The destination-side weights read at `(n, k)`: head `k` of the gate of node `n`'s destination features. -/
theorem aDst_apply (g : FVec Ideal S100000x64 .f32) (W1 : FVec Ideal S64x32 .f32) (b1 : FVec Ideal S32 .f32)
    (W2 : FVec Ideal S32x8 .f32) (b2 : FVec Ideal S8 .f32) (n : Fin 100000) (k : Fin 8) :
    RefRun.aDst g W1 b1 W2 b2 (ix2 n k)
      = gate W1 (fun j => b1 (ix1 j)) W2 (fun k => b2 (ix1 k)) (fun i => g (ix2 n i)) k :=
  gateOp_apply _ plain_100000x64_64x32 _ plain_100000x32_32x8 _ _ _ _ _ _ _ g W1 b1 W2 b2 n k

/-! ## The weighted messages, their sum onto the destination rows, the result -/

/-- The weighted source messages read at `(e, h, k)`. -/
theorem upd_apply (a : FVec Ideal S1200000x8 .f32) (ms : FVec Ideal S1200000x64 .f32)
    (e : Fin 1200000) (h k : Fin 8) :
    RefRun.upd a ms (ix3 e h k) = a (ix2 e h) * ms (ix2 e ⟨8 * h.val + k.val, by omega⟩) :=
  headMulOp_apply _ _ _ a ms e h k

/-- The index table the sum reads, at `(e, 0)`: entry `e` of the vector, as it is. -/
theorem rawIdx_apply (r : IVec S1200000 32) (e : Fin 1200000) :
    RefRun.rawIdx r (ix2 e 0) = r (ix1 e) :=
  broadcastInDim_apply _ bcast_S1200000_S1200000x1_0 r (ix2 e 0) (ix1 e) (fun a => by
    match a with
    | ⟨0, _⟩ => rfl)

/-- The aggregate is the accumulating scatter of the updates onto the zero array. -/
theorem agg_eq (ix : IVec S1200000x1 32) (u : FVec Ideal S1200000x8x8 .f32) :
    RefRun.agg ix u = Ideal.hostScatterAdd scatter_S100000x8x8_S1200000x1_S1200000x8x8_12_0_0_1
      (broadcastInDim S100000x8x8 ![] bcast_S_S100000x8x8 (constant (F := Ideal) S_ .f32 0x00000000#32)) ix u := rfl

/-- The aggregate read at `(n, h, k)`: the sum, over the edges whose row number (read signed) is `n`, of the
    update at `(e, h, k)`; an edge whose row number is outside `[0, 100000)` contributes nothing. -/
theorem agg_apply (ix : IVec S1200000x1 32) (u : FVec Ideal S1200000x8x8 .f32) (n : Fin 100000) (h k : Fin 8) :
    RefRun.agg ix u (ix3 n h k)
      = ∑ e ∈ Finset.univ.filter (fun e : Fin 1200000 => (ix (ix2 e 0)).toInt = (n.val : Int)), u (ix3 e h k) := by
  have key := ScatterRows.hostScatterAdd_rows3 scatter_S100000x8x8_S1200000x1_S1200000x8x8_12_0_0_1 rfl rfl rfl rfl
    (broadcastInDim S100000x8x8 ![] bcast_S_S100000x8x8 (constant (F := Ideal) S_ .f32 0x00000000#32)) ix u n h k
  have hz : broadcastInDim S100000x8x8 ![] bcast_S_S100000x8x8 (constant (F := Ideal) S_ .f32 0x00000000#32) (ix3 n h k)
      = (0 : EReal) := Ideal.ofBits_zero_f32
  rw [hz, zero_add] at key
  rw [agg_eq]
  exact key

/-- The place of a feature inside its head. -/
abbrev place (f : Fin 64) : Fin 8 := ⟨f.val % 8, Nat.mod_lt _ (by decide)⟩

/-- A feature is place `place f` of head `head f`. -/
theorem head_place (f : Fin 64) (p : 8 * (head f).val + (place f).val < 64) :
    (⟨8 * (head f).val + (place f).val, p⟩ : Fin 64) = f :=
  Fin.ext (by show 8 * (f.val / 8) + f.val % 8 = f.val; omega)

/-- The result read at `(n, f)`: the destination weight of feature `f`'s head times the destination feature,
    plus the aggregate at that head and the feature's place in it. -/
theorem res_apply (a : FVec Ideal S100000x8 .f32) (g : FVec Ideal S100000x64 .f32) (ag : FVec Ideal S100000x8x8 .f32)
    (n : Fin 100000) (f : Fin 64) :
    RefRun.res a g ag (ix2 n f) = a (ix2 n (head f)) * g (ix2 n f) + ag (ix3 n (head f) (place f)) := by
  have hm : headMulOp bcast_S100000x8_S100000x8x1_0_1 bcast_S100000x8x1_S100000x8x8_0_1_2
      shapeCasts_S100000x64_S100000x8x8 a g (ix3 n (head f) (place f)) = a (ix2 n (head f)) * g (ix2 n f) :=
    (headMulOp_apply _ _ _ a g n (head f) (place f)).trans
      (congrArg (fun j => a (ix2 n (head f)) * g (ix2 n j)) (head_place f _))
  unfold RefRun.res
  rw [unheads_apply, addf_apply]
  exact congrArg (· + _) hm

/-! ## The stages put together -/

/-- THE COMMON FORM. The result, with the aggregate and the weighted messages opened, read at `(n, f)`: the
    destination weight of feature `f`'s head times the destination feature, plus the sum, over the edge rows `e`
    whose row number (read signed) is `n`, of the source weight of that head times the source message at `(e, f)`. -/
theorem res_agg_upd_apply (aD : FVec Ideal S100000x8 .f32) (gD : FVec Ideal S100000x64 .f32)
    (ix : IVec S1200000x1 32) (aS : FVec Ideal S1200000x8 .f32) (ms : FVec Ideal S1200000x64 .f32)
    (n : Fin 100000) (f : Fin 64) :
    RefRun.res aD gD (RefRun.agg ix (RefRun.upd aS ms)) (ix2 n f)
      = aD (ix2 n (head f)) * gD (ix2 n f)
        + ∑ e ∈ Finset.univ.filter (fun e : Fin 1200000 => (ix (ix2 e 0)).toInt = (n.val : Int)),
            aS (ix2 e (head f)) * ms (ix2 e f) := by
  have hs : ∀ e : Fin 1200000,
      RefRun.upd aS ms (ix3 e (head f) (place f)) = aS (ix2 e (head f)) * ms (ix2 e f) := fun e =>
    (upd_apply aS ms e (head f) (place f)).trans
      (congrArg (fun j => aS (ix2 e (head f)) * ms (ix2 e j)) (head_place f _))
  rw [res_apply, agg_apply]
  simp only [hs]

/-- The whole reference read at `(n, f)`, in the common form: the destination gate of node `n` at feature `f`'s
    head times the destination features, plus the sum over the edges whose destination entry (read signed) is
    `n` of the source gate of the edge's message at that head times the edge's source features. -/
theorem out_apply (h : FVec Ideal S100000x64 .f32) (Ws : FVec Ideal S64x64 .f32) (bs : FVec Ideal S64 .f32)
    (Wd : FVec Ideal S64x64 .f32) (bd : FVec Ideal S64 .f32)
    (W1s : FVec Ideal S64x32 .f32) (b1s : FVec Ideal S32 .f32) (W2s : FVec Ideal S32x8 .f32) (b2s : FVec Ideal S8 .f32)
    (W1d : FVec Ideal S64x32 .f32) (b1d : FVec Ideal S32 .f32) (W2d : FVec Ideal S32x8 .f32) (b2d : FVec Ideal S8 .f32)
    (e : IVec S2x1200000 32) (n : Fin 100000) (f : Fin 64) :
    RefRun.out h Ws bs Wd bd W1s b1s W2s b2s W1d b1d W2d b2d e (ix2 n f)
      = gate W1d (fun j => b1d (ix1 j)) W2d (fun k => b2d (ix1 k)) (fun i => RefRun.gS h Wd bd (ix2 n i)) (head f)
          * RefRun.gS h Wd bd (ix2 n f)
        + ∑ ed ∈ Finset.univ.filter (fun ed : Fin 1200000 =>
              (RefRun.rowsOf 1 slices_S2x1200000_S1x1200000_1_0 e (ix1 ed)).toInt = (n.val : Int)),
            gate W1s (fun j => b1s (ix1 j)) W2s (fun k => b2s (ix1 k))
                (fun i => RefRun.msg h Ws bs Wd bd e (ix2 ed i)) (head f)
              * RefRun.msgSrc h Ws bs e (ix2 ed f) := by
  unfold RefRun.out
  rw [res_agg_upd_apply, aDst_apply]
  simp only [rawIdx_apply, aSrc_apply]

end Cert.ReferenceIdeal.RefRows

end
-- ==== Proof.Bridge.lean ====
/-
  The two programs' terms are one function.

  The idealized kernel's result and the reference's result are both functions of the same fourteen arrays.
  Their node layers agree (both are the affine layer of the row, read index by index); the two programs make
  their gather indices and their scatter indices from the edge table by the same operations, and gather with
  the same dimension numbers, so the gathered messages agree as whole arrays; and read at a node and a
  feature, both results are the destination gate times the destination message plus the same sum over the
  edges that point at the node.
-/
import proofs.«158389_j12567074308479_1_alg».proof.Proof.KernelRows
import proofs.«158389_j12567074308479_1_alg».proof.Proof.RefRunRows

noncomputable section

open scoped BigOperators

namespace Cert.Bridge

open Idealize.ShloMosaic Idealize.ShloMosaic.ValueIdx RowSpec
open Cert.KernelIdeal Cert.KernelIdeal.Gen

/-- The node layer is the same array in both programs. -/
theorem layer_eq_gS (h : FVec Ideal S100000x64 .f32) (W : FVec Ideal S64x64 .f32) (b : FVec Ideal S64 .f32) :
    Cert.KernelIdeal.Term.layer h W b = Cert.ReferenceIdeal.RefRun.gS (F := Ideal) h W b := by
  funext i
  obtain ⟨n, j, rfl⟩ : ∃ (n : Fin 100000) (j : Fin 64), i = ix2 n j := ⟨i 0, i 1, eq_ix2 (n0 := 100000) (n1 := 64) i⟩
  rw [Cert.KernelIdeal.TermRows.layer_apply, Cert.ReferenceIdeal.RefRows.gS_apply]

/-- A row of the edge table is taken by the same operations in both programs. -/
theorem rowsOf_eq (k : Nat) (hk : S2x1200000.Slices ![k, 0] S1x1200000) (e : IVec S2x1200000 32) :
    Cert.KernelIdeal.HostReads.rowsOf k hk e = Cert.ReferenceIdeal.RefRun.rowsOf k hk e := rfl

/-- Gather indices are made by the same operations in both programs. -/
theorem normIdx_eq (r : IVec S1200000 32) : Cert.KernelIdeal.HostReads.normIdx r = Cert.ReferenceIdeal.RefRun.normIdx r := rfl

/-- Scatter indices are made by the same operation in both programs. -/
theorem rawIdx_eq (r : IVec S1200000 32) : Cert.KernelIdeal.HostReads.rawIdx r = Cert.ReferenceIdeal.RefRun.rawIdx r := rfl

/-- The source messages gathered along the edges are the same array in both programs. -/
theorem srcAtEdges_eq (h : FVec Ideal S100000x64 .f32) (Ws : FVec Ideal S64x64 .f32) (bs : FVec Ideal S64 .f32)
    (e : IVec S2x1200000 32) :
    Cert.KernelIdeal.Term.srcAtEdges h Ws bs e = Cert.ReferenceIdeal.RefRun.msgSrc (F := Ideal) h Ws bs e := by
  unfold Cert.KernelIdeal.Term.srcAtEdges Cert.ReferenceIdeal.RefRun.msgSrc Cert.ReferenceIdeal.RefRun.gathered
  rw [layer_eq_gS, rowsOf_eq, normIdx_eq]
  rfl

/-- The edges' summed messages are the same array in both programs. -/
theorem sumAtEdges_eq (h : FVec Ideal S100000x64 .f32) (Ws : FVec Ideal S64x64 .f32) (bs : FVec Ideal S64 .f32)
    (Wd : FVec Ideal S64x64 .f32) (bd : FVec Ideal S64 .f32) (e : IVec S2x1200000 32) :
    Cert.KernelIdeal.Term.sumAtEdges h Ws bs Wd bd e = Cert.ReferenceIdeal.RefRun.msg (F := Ideal) h Ws bs Wd bd e := by
  unfold Cert.KernelIdeal.Term.sumAtEdges Cert.ReferenceIdeal.RefRun.msg Cert.ReferenceIdeal.RefRun.gathered
  rw [srcAtEdges_eq, layer_eq_gS, rowsOf_eq, normIdx_eq]
  rfl

/-- The kernel's result and the reference's result are the same function of the fourteen arrays. -/
theorem result_eq_out (h : FVec Ideal S100000x64 .f32) (Ws : FVec Ideal S64x64 .f32) (bs : FVec Ideal S64 .f32)
    (Wd : FVec Ideal S64x64 .f32) (bd : FVec Ideal S64 .f32) (W1s : FVec Ideal S64x32 .f32) (b1s : FVec Ideal S32 .f32)
    (W2s : FVec Ideal S32x8 .f32) (b2s : FVec Ideal S8 .f32) (W1d : FVec Ideal S64x32 .f32) (b1d : FVec Ideal S32 .f32)
    (W2d : FVec Ideal S32x8 .f32) (b2d : FVec Ideal S8 .f32) (e : IVec S2x1200000 32) :
    Cert.KernelIdeal.Term.result h Ws bs Wd bd W1s b1s W2s b2s W1d b1d W2d b2d e
      = Cert.ReferenceIdeal.RefRun.out (F := Ideal) h Ws bs Wd bd W1s b1s W2s b2s W1d b1d W2d b2d e := by
  funext i
  obtain ⟨n, f, rfl⟩ : ∃ (n : Fin 100000) (f : Fin 64), i = ix2 n f := ⟨i 0, i 1, eq_ix2 (n0 := 100000) (n1 := 64) i⟩
  rw [Cert.KernelIdeal.TermRows.result_apply, Cert.ReferenceIdeal.RefRows.out_apply]
  simp only [layer_eq_gS, srcAtEdges_eq, sumAtEdges_eq, rowsOf_eq]
  rfl

end Cert.Bridge

end
-- ==== Proof.lean ====
/-
  The certificate's proof.  The three frames: the two kernels' are the generated frame certificates; the
  reference's is its run (`RefRun`) with the result dropped.  The idealization rewrote no operation, so
  `preserves` holds trivially.  The algebraic claim: at the ideal values the kernel's run ends with its result
  array at `Term.result` of the launch memory's argument arrays (the run with the result named, `KRun`; the
  boundaries read back, `KValue`), the reference's run ends with its result at `RefRun.out` of the same
  arrays, and the two terms are one function (`Bridge`): at row n, feature f both are the destination gate
  of head f / 8 times the destination message, plus the sum over the edges whose destination row is n of the
  source gate of head f / 8 times the gathered source message.  No step uses the finiteness of the inputs:
  0 + x = x, 0 · x = 0 and 1 · x = x hold on all extended reals.
-/
import proofs.«158389_j12567074308479_1_alg».proof.Defs
import proofs.«158389_j12567074308479_1_alg».proof.Proof.Gen.Kernel
import proofs.«158389_j12567074308479_1_alg».proof.Proof.Gen.Kernel.Frame
import proofs.«158389_j12567074308479_1_alg».proof.Proof.Gen.KernelIdeal
import proofs.«158389_j12567074308479_1_alg».proof.Proof.Gen.KernelIdeal.Frame
import proofs.«158389_j12567074308479_1_alg».proof.Proof.Gen.ReferenceIdeal
import proofs.«158389_j12567074308479_1_alg».proof.Proof.Gen.Pre_finite_inputs
import proofs.«158389_j12567074308479_1_alg».proof.Proof.KRun
import proofs.«158389_j12567074308479_1_alg».proof.Proof.KValue
import proofs.«158389_j12567074308479_1_alg».proof.Proof.RefRun
import proofs.«158389_j12567074308479_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the same result array: the kernel's term of the arguments, which is the
    reference's term of the arguments. -/
theorem algebraic : Cert.algebraic_KernelIdeal_ReferenceIdeal := by
  intro m ρ m' ρ' _ hagree
  refine ⟨fun c => Cert.KernelIdeal.Term.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Value.result_eq m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8, h9, h10, h11, h12, h13⟩ := hagree c
    rw [h0, h1, h2, h3, h4, h5, h6, h7, h8, h9, h10, h11, h12, h13]
    exact (Cert.Bridge.result_eq_out _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
